-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x4x1024x64 : Shape := ⟨4, ![8, 4, 1024, 64]⟩
abbrev S8x4x1024 : Shape := ⟨3, ![8, 4, 1024]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x4x1024x64 : S_.BroadcastsInDim S8x4x1024x64 (![] : Fin 0 → Fin S8x4x1024x64.rank)
  reducesTo_S8x4x1024x64_S_d0_1_2_3 : S8x4x1024x64.ReducesTo [0, 1, 2, 3] S_
  bcast_S_S8x4x1024 : S_.BroadcastsInDim S8x4x1024 (![] : Fin 0 → Fin S8x4x1024.rank)
  reducesTo_S8x4x1024_S_d0_1_2 : S8x4x1024.ReducesTo [0, 1, 2] S_

variable [Facts]

def fn {F : FTy → Type} [FloatOps F] (main_arg0 : FVec F S8x4x1024x1024 .f32) (main_arg1 : FVec F S8x4x1024x64 .f32) (main_arg2 : FVec F S8x4x1024 .f32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x4x1024x64 .f32 := Host.absf main_arg1
  let main_cst_0 : FVec F S_ .f32 := constant S_ .f32 0x7F800000#32
  let main_v5 : FVec F S8x4x1024x64 .f32 := broadcastInDim S8x4x1024x64 ![] bcast_S_S8x4x1024x64 main_cst_0
  let main_v6 : IVec S8x4x1024x64 1 := cmpf .olt main_v4 main_v5
  let main_c_1 : IVec S_ 1 := constantI S_ 1 1#1
  let main_v7 : IVec S_ 1 := (fun x v => Host.reduce IntOp.andi x v reducesTo_S8x4x1024x64_S_d0_1_2_3 h_S_) main_v6 main_c_1
  let main_v8 : IVec S_ 1 := andi main_v3 main_v7
  let main_v9 : FVec F S8x4x1024 .f32 := Host.absf main_arg2
  let main_cst_2 : FVec F S_ .f32 := constant S_ .f32 0x7F800000#32
  let main_v10 : FVec F S8x4x1024 .f32 := broadcastInDim S8x4x1024 ![] bcast_S_S8x4x1024 main_cst_2
  let main_v11 : IVec S8x4x1024 1 := cmpf .olt main_v9 main_v10
  let main_c_3 : IVec S_ 1 := constantI S_ 1 1#1
  let main_v12 : IVec S_ 1 := (fun x v => Host.reduce IntOp.andi x v reducesTo_S8x4x1024_S_d0_1_2 h_S_) main_v11 main_c_3
  let main_v13 : IVec S_ 1 := andi main_v8 main_v12
  main_v13
-- ==== Kernel.lean ====
abbrev S8x4x1024x1024 : Shape := ⟨4, ![8, 4, 1024, 1024]⟩
abbrev S8x4x1024x64 : Shape := ⟨4, ![8, 4, 1024, 64]⟩
abbrev S8x4x1024 : Shape := ⟨3, ![8, 4, 1024]⟩
abbrev S8x4x11x64 : Shape := ⟨4, ![8, 4, 11, 64]⟩
abbrev S1x1x1024x1024 : Shape := ⟨4, ![1, 1, 1024, 1024]⟩
abbrev S1x1x1024x64 : Shape := ⟨4, ![1, 1, 1024, 64]⟩
abbrev S1x1x11x64 : Shape := ⟨4, ![1, 1, 11, 64]⟩
abbrev S1024x1024 : Shape := ⟨2, ![1024, 1024]⟩
abbrev S4x1024x1024 : Shape := ⟨3, ![4, 1024, 1024]⟩
abbrev S4x1024x64 : Shape := ⟨3, ![4, 1024, 64]⟩
abbrev S1024x64 : Shape := ⟨2, ![1024, 64]⟩
abbrev S256x1024 : Shape := ⟨2, ![256, 1024]⟩
abbrev S1x256x1024 : Shape := ⟨3, ![1, 256, 1024]⟩
abbrev S1x1024x1024 : Shape := ⟨3, ![1, 1024, 1024]⟩
abbrev S64 : Shape := ⟨1, ![64]⟩
abbrev S1x64 : Shape := ⟨2, ![1, 64]⟩
abbrev S1x1024x64 : Shape := ⟨3, ![1, 1024, 64]⟩
abbrev S1024x192 : Shape := ⟨2, ![1024, 192]⟩
abbrev S1024x128 : Shape := ⟨2, ![1024, 128]⟩
abbrev S11x64 : Shape := ⟨2, ![11, 64]⟩
abbrev S_ : Shape := ⟨0, ![]⟩
abbrev S8x4 : Shape := ⟨2, ![8, 4]⟩
abbrev S8x4x1 : Shape := ⟨3, ![8, 4, 1]⟩
abbrev S8x4x704 : Shape := ⟨3, ![8, 4, 704]⟩

abbrev nBuf : Space → Nat
  | .hbm => 10
  | .vmem => 10
  | .smem => 0
  | _ => 0

abbrev bufTy : (tb : Table) → Fin (tcTables nBuf tb) → BufTy
  | .hbm, ⟨0, _⟩ => ⟨S8x4x1024x1024, .f32⟩
  | .hbm, ⟨1, _⟩ => ⟨S8x4x1024x64, .f32⟩
  | .hbm, ⟨2, _⟩ => ⟨S8x4x1024, .f32⟩
  | .hbm, ⟨3, _⟩ => ⟨S8x4x11x64, .f32⟩
  | .hbm, ⟨4, _⟩ => ⟨S_, .f32⟩
  | .hbm, ⟨5, _⟩ => ⟨S8x4, .f32⟩
  | .hbm, ⟨6, _⟩ => ⟨S8x4x1, .f32⟩
  | .hbm, ⟨7, _⟩ => ⟨S8x4x704, .f32⟩
  | .hbm, ⟨8, _⟩ => ⟨S8x4x704, .f32⟩
  | .hbm, ⟨9, _⟩ => ⟨S8x4x704, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x11x64, .f32⟩
  | .local _ .vmem, ⟨5, _⟩ => ⟨S1x1x11x64, .f32⟩
  | .local _ .vmem, ⟨6, _⟩ => ⟨S1024x1024, .f32⟩
  | .local _ .vmem, ⟨7, _⟩ => ⟨S1024x1024, .f32⟩
  | .local _ .vmem, ⟨8, _⟩ => ⟨S4x1024x1024, .bf16⟩
  | .local _ .vmem, ⟨9, _⟩ => ⟨S4x1024x64, .bf16⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x11x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o0_0_S256x1024 : S1024x1024.Slices ![0, 0] S256x1024
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  inb_S4x1024x1024_S1x256x1024_0_0_0 : ∀ a, (![0, 0, 0] : Fin 3 → Nat) a + S1x256x1024.size a ≤ S4x1024x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S4x1024x1024_S1x256x1024_0_0_0 : (Rect.unit (s := S4x1024x1024) ![0, 0, 0] S1x256x1024.size inb_S4x1024x1024_S1x256x1024_0_0_0).PackedRows (EltTy.packing .bf16)
  slices_S1024x1024_o256_0_S256x1024 : S1024x1024.Slices ![256, 0] S256x1024
  inb_S1024x1024_S256x1024_256_0 : ∀ a, (![256, 0] : Fin 2 → Nat) a + S256x1024.size a ≤ S1024x1024.size a
  inb_S4x1024x1024_S1x256x1024_0_256_0 : ∀ a, (![0, 256, 0] : Fin 3 → Nat) a + S1x256x1024.size a ≤ S4x1024x1024.size a
  packedbf16_S4x1024x1024_S1x256x1024_0_256_0 : (Rect.unit (s := S4x1024x1024) ![0, 256, 0] S1x256x1024.size inb_S4x1024x1024_S1x256x1024_0_256_0).PackedRows (EltTy.packing .bf16)
  slices_S1024x1024_o512_0_S256x1024 : S1024x1024.Slices ![512, 0] S256x1024
  inb_S1024x1024_S256x1024_512_0 : ∀ a, (![512, 0] : Fin 2 → Nat) a + S256x1024.size a ≤ S1024x1024.size a
  inb_S4x1024x1024_S1x256x1024_0_512_0 : ∀ a, (![0, 512, 0] : Fin 3 → Nat) a + S1x256x1024.size a ≤ S4x1024x1024.size a
  packedbf16_S4x1024x1024_S1x256x1024_0_512_0 : (Rect.unit (s := S4x1024x1024) ![0, 512, 0] S1x256x1024.size inb_S4x1024x1024_S1x256x1024_0_512_0).PackedRows (EltTy.packing .bf16)
  slices_S1024x1024_o768_0_S256x1024 : S1024x1024.Slices ![768, 0] S256x1024
  inb_S1024x1024_S256x1024_768_0 : ∀ a, (![768, 0] : Fin 2 → Nat) a + S256x1024.size a ≤ S1024x1024.size a
  inb_S4x1024x1024_S1x256x1024_0_768_0 : ∀ a, (![0, 768, 0] : Fin 3 → Nat) a + S1x256x1024.size a ≤ S4x1024x1024.size a
  packedbf16_S4x1024x1024_S1x256x1024_0_768_0 : (Rect.unit (s := S4x1024x1024) ![0, 768, 0] S1x256x1024.size inb_S4x1024x1024_S1x256x1024_0_768_0).PackedRows (EltTy.packing .bf16)
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  reduces_S1024x64_S64 : S1024x64.Reduces [0] S64
  shapeCasts_S64_S1x64 : S64.ShapeCasts S1x64
  inb_S4x1024x64_S1x1024x64_0_0_0 : ∀ a, (![0, 0, 0] : Fin 3 → Nat) a + S1x1024x64.size a ≤ S4x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S4x1024x64_S1x1024x64_0_0_0 : (Rect.unit (s := S4x1024x64) ![0, 0, 0] S1x1024x64.size inb_S4x1024x64_S1x1024x64_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  inb_S4x1024x1024_S1x256x1024_1_0_0 : ∀ a, (![1, 0, 0] : Fin 3 → Nat) a + S1x256x1024.size a ≤ S4x1024x1024.size a
  packedbf16_S4x1024x1024_S1x256x1024_1_0_0 : (Rect.unit (s := S4x1024x1024) ![1, 0, 0] S1x256x1024.size inb_S4x1024x1024_S1x256x1024_1_0_0).PackedRows (EltTy.packing .bf16)
  inb_S4x1024x1024_S1x256x1024_1_256_0 : ∀ a, (![1, 256, 0] : Fin 3 → Nat) a + S1x256x1024.size a ≤ S4x1024x1024.size a
  packedbf16_S4x1024x1024_S1x256x1024_1_256_0 : (Rect.unit (s := S4x1024x1024) ![1, 256, 0] S1x256x1024.size inb_S4x1024x1024_S1x256x1024_1_256_0).PackedRows (EltTy.packing .bf16)
  inb_S4x1024x1024_S1x256x1024_1_512_0 : ∀ a, (![1, 512, 0] : Fin 3 → Nat) a + S1x256x1024.size a ≤ S4x1024x1024.size a
  packedbf16_S4x1024x1024_S1x256x1024_1_512_0 : (Rect.unit (s := S4x1024x1024) ![1, 512, 0] S1x256x1024.size inb_S4x1024x1024_S1x256x1024_1_512_0).PackedRows (EltTy.packing .bf16)
  inb_S4x1024x1024_S1x256x1024_1_768_0 : ∀ a, (![1, 768, 0] : Fin 3 → Nat) a + S1x256x1024.size a ≤ S4x1024x1024.size a
  packedbf16_S4x1024x1024_S1x256x1024_1_768_0 : (Rect.unit (s := S4x1024x1024) ![1, 768, 0] S1x256x1024.size inb_S4x1024x1024_S1x256x1024_1_768_0).PackedRows (EltTy.packing .bf16)
  inb_S4x1024x1024_S1x1024x1024_1_0_0 : ∀ a, (![1, 0, 0] : Fin 3 → Nat) a + S1x1024x1024.size a ≤ S4x1024x1024.size a
  inb_S4x1024x64_S1x1024x64_1_0_0 : ∀ a, (![1, 0, 0] : Fin 3 → Nat) a + S1x1024x64.size a ≤ S4x1024x64.size a
  packedbf16_S4x1024x64_S1x1024x64_1_0_0 : (Rect.unit (s := S4x1024x64) ![1, 0, 0] S1x1024x64.size inb_S4x1024x64_S1x1024x64_1_0_0).PackedRows (EltTy.packing .bf16)
  inb_S4x1024x1024_S1x256x1024_2_0_0 : ∀ a, (![2, 0, 0] : Fin 3 → Nat) a + S1x256x1024.size a ≤ S4x1024x1024.size a
  packedbf16_S4x1024x1024_S1x256x1024_2_0_0 : (Rect.unit (s := S4x1024x1024) ![2, 0, 0] S1x256x1024.size inb_S4x1024x1024_S1x256x1024_2_0_0).PackedRows (EltTy.packing .bf16)
  inb_S4x1024x1024_S1x256x1024_2_256_0 : ∀ a, (![2, 256, 0] : Fin 3 → Nat) a + S1x256x1024.size a ≤ S4x1024x1024.size a
  packedbf16_S4x1024x1024_S1x256x1024_2_256_0 : (Rect.unit (s := S4x1024x1024) ![2, 256, 0] S1x256x1024.size inb_S4x1024x1024_S1x256x1024_2_256_0).PackedRows (EltTy.packing .bf16)
  inb_S4x1024x1024_S1x256x1024_2_512_0 : ∀ a, (![2, 512, 0] : Fin 3 → Nat) a + S1x256x1024.size a ≤ S4x1024x1024.size a
  packedbf16_S4x1024x1024_S1x256x1024_2_512_0 : (Rect.unit (s := S4x1024x1024) ![2, 512, 0] S1x256x1024.size inb_S4x1024x1024_S1x256x1024_2_512_0).PackedRows (EltTy.packing .bf16)
  inb_S4x1024x1024_S1x256x1024_2_768_0 : ∀ a, (![2, 768, 0] : Fin 3 → Nat) a + S1x256x1024.size a ≤ S4x1024x1024.size a
  packedbf16_S4x1024x1024_S1x256x1024_2_768_0 : (Rect.unit (s := S4x1024x1024) ![2, 768, 0] S1x256x1024.size inb_S4x1024x1024_S1x256x1024_2_768_0).PackedRows (EltTy.packing .bf16)
  inb_S4x1024x1024_S1x1024x1024_2_0_0 : ∀ a, (![2, 0, 0] : Fin 3 → Nat) a + S1x1024x1024.size a ≤ S4x1024x1024.size a
  inb_S4x1024x64_S1x1024x64_2_0_0 : ∀ a, (![2, 0, 0] : Fin 3 → Nat) a + S1x1024x64.size a ≤ S4x1024x64.size a
  packedbf16_S4x1024x64_S1x1024x64_2_0_0 : (Rect.unit (s := S4x1024x64) ![2, 0, 0] S1x1024x64.size inb_S4x1024x64_S1x1024x64_2_0_0).PackedRows (EltTy.packing .bf16)
  inb_S4x1024x1024_S1x256x1024_3_0_0 : ∀ a, (![3, 0, 0] : Fin 3 → Nat) a + S1x256x1024.size a ≤ S4x1024x1024.size a
  packedbf16_S4x1024x1024_S1x256x1024_3_0_0 : (Rect.unit (s := S4x1024x1024) ![3, 0, 0] S1x256x1024.size inb_S4x1024x1024_S1x256x1024_3_0_0).PackedRows (EltTy.packing .bf16)
  inb_S4x1024x1024_S1x256x1024_3_256_0 : ∀ a, (![3, 256, 0] : Fin 3 → Nat) a + S1x256x1024.size a ≤ S4x1024x1024.size a
  packedbf16_S4x1024x1024_S1x256x1024_3_256_0 : (Rect.unit (s := S4x1024x1024) ![3, 256, 0] S1x256x1024.size inb_S4x1024x1024_S1x256x1024_3_256_0).PackedRows (EltTy.packing .bf16)
  inb_S4x1024x1024_S1x256x1024_3_512_0 : ∀ a, (![3, 512, 0] : Fin 3 → Nat) a + S1x256x1024.size a ≤ S4x1024x1024.size a
  packedbf16_S4x1024x1024_S1x256x1024_3_512_0 : (Rect.unit (s := S4x1024x1024) ![3, 512, 0] S1x256x1024.size inb_S4x1024x1024_S1x256x1024_3_512_0).PackedRows (EltTy.packing .bf16)
  inb_S4x1024x1024_S1x256x1024_3_768_0 : ∀ a, (![3, 768, 0] : Fin 3 → Nat) a + S1x256x1024.size a ≤ S4x1024x1024.size a
  packedbf16_S4x1024x1024_S1x256x1024_3_768_0 : (Rect.unit (s := S4x1024x1024) ![3, 768, 0] S1x256x1024.size inb_S4x1024x1024_S1x256x1024_3_768_0).PackedRows (EltTy.packing .bf16)
  inb_S4x1024x1024_S1x1024x1024_3_0_0 : ∀ a, (![3, 0, 0] : Fin 3 → Nat) a + S1x1024x1024.size a ≤ S4x1024x1024.size a
  inb_S4x1024x64_S1x1024x64_3_0_0 : ∀ a, (![3, 0, 0] : Fin 3 → Nat) a + S1x1024x64.size a ≤ S4x1024x64.size a
  packedbf16_S4x1024x64_S1x1024x64_3_0_0 : (Rect.unit (s := S4x1024x64) ![3, 0, 0] S1x1024x64.size inb_S4x1024x64_S1x1024x64_3_0_0).PackedRows (EltTy.packing .bf16)
  concatenates_S1024x64_S1024x64_S1024x64_S1024x192_d1 : Shape.Concatenates [S1024x64, S1024x64, S1024x64] S1024x192 1
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  concatenates_S1024x64_S1024x64_S1024x128_d1 : Shape.Concatenates [S1024x64, S1024x64] S1024x128 1
  slices_S1024x128_o0_0_S1024x64 : S1024x128.Slices ![0, 0] S1024x64
  slices_S1024x128_o0_64_S1024x64 : S1024x128.Slices ![0, 64] S1024x64
  concatenates_S1x64_S1x64_S1x64_S1x64_S1x64_S1x64_S1x64_S1x64_S1x64_S1x64_S1x64_S11x64_d0 : Shape.Concatenates [S1x64, S1x64, S1x64, S1x64, S1x64, S1x64, S1x64, S1x64, S1x64, S1x64, S1x64] S11x64 0
  inb_S1x1x11x64_S1x1x11x64_0_0_0_0 : ∀ a, (![0, 0, 0, 0] : Fin 4 → Nat) a + S1x1x11x64.size a ≤ S1x1x11x64.size a
  h_S1x1x11x64 : 0 < S1x1x11x64.numel
  shapeCasts_S1x1x11x64_S11x64 : S1x1x11x64.ShapeCasts S11x64
  shapeCasts_S11x64_S1x1x11x64 : S11x64.ShapeCasts S1x1x11x64
  reducesTo_S8x4x1024_S8x4_d2 : S8x4x1024.ReducesTo [2] S8x4
  h_S_ : 0 < S_.numel
  bcast_S8x4_S8x4x1_0_1 : S8x4.BroadcastsInDim S8x4x1 (![0, 1] : Fin 2 → Fin S8x4x1.rank)
  shapeCasts_S8x4x11x64_S8x4x704 : S8x4x11x64.ShapeCasts S8x4x704
  bcast_S8x4x1_S8x4x704_0_1_2 : S8x4x1.BroadcastsInDim S8x4x704 (![0, 1, 2] : Fin 3 → Fin S8x4x704.rank)
  dot_S256x1024_S1024x1024_S256x1024_1_0_0_1_n_n_wf : DotDims.WF S256x1024 S1024x1024 S256x1024 [1] [0] [0] [1] [] []
  dot_S1024x1024_S1024x64_S1024x64_1_0_0_1_n_n_wf : DotDims.WF S1024x1024 S1024x64 S1024x64 [1] [0] [0] [1] [] []
  dot_S1024x1024_S1024x192_S1024x192_1_0_0_1_n_n_wf : DotDims.WF S1024x1024 S1024x192 S1024x192 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x4x1024x1024.size a
  hwx0_0 : ∀ i : grid0.Coords, EltTy.bits .f32 = 32 ∨ (Rect.block (s := S8x4x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x4x1024x64.size a
  hwx0_1 : ∀ i : grid0.Coords, EltTy.bits .f32 = 32 ∨ (Rect.block (s := S8x4x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x11x64.size a ≤ S8x4x11x64.size a
  hwx0_2 : ∀ i : grid0.Coords, EltTy.bits .f32 = 32 ∨ (Rect.block (s := S8x4x11x64) S1x1x11x64.size (cc0_transform_2 i) (hinb0_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x11x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4x1024x1024 : Shape := ⟨4, ![8, 4, 1024, 1024]⟩
abbrev S8x4x1024x64 : Shape := ⟨4, ![8, 4, 1024, 64]⟩
abbrev S8x4x1024 : Shape := ⟨3, ![8, 4, 1024]⟩
abbrev S1x8x4x1024x64 : Shape := ⟨5, ![1, 8, 4, 1024, 64]⟩
abbrev S11x8x4x1024x64 : Shape := ⟨5, ![11, 8, 4, 1024, 64]⟩
abbrev S_ : Shape := ⟨0, ![]⟩
abbrev S11x8x4x64 : Shape := ⟨4, ![11, 8, 4, 64]⟩
abbrev S8x4 : Shape := ⟨2, ![8, 4]⟩
abbrev S8x4x11x64 : Shape := ⟨4, ![8, 4, 11, 64]⟩
abbrev S8x4x1x1 : Shape := ⟨4, ![8, 4, 1, 1]⟩
abbrev S8x4x704 : Shape := ⟨3, ![8, 4, 704]⟩

abbrev nBuf : Space → Nat
  | .hbm => 53
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x4x1024x64, .f32⟩
  | .hbm, ⟨2, _⟩ => ⟨S8x4x1024, .f32⟩
  | .hbm, ⟨3, _⟩ => ⟨S8x4x1024x1024, .f32⟩
  | .hbm, ⟨4, _⟩ => ⟨S8x4x1024x1024, .f32⟩
  | .hbm, ⟨5, _⟩ => ⟨S8x4x1024x64, .f32⟩
  | .hbm, ⟨6, _⟩ => ⟨S8x4x1024x64, .f32⟩
  | .hbm, ⟨7, _⟩ => ⟨S8x4x1024x1024, .f32⟩
  | .hbm, ⟨8, _⟩ => ⟨S8x4x1024x1024, .f32⟩
  | .hbm, ⟨9, _⟩ => ⟨S8x4x1024x64, .f32⟩
  | .hbm, ⟨10, _⟩ => ⟨S8x4x1024x64, .f32⟩
  | .hbm, ⟨11, _⟩ => ⟨S8x4x1024x64, .f32⟩
  | .hbm, ⟨12, _⟩ => ⟨S8x4x1024x64, .f32⟩
  | .hbm, ⟨13, _⟩ => ⟨S8x4x1024x1024, .f32⟩
  | .hbm, ⟨14, _⟩ => ⟨S8x4x1024x1024, .f32⟩
  | .hbm, ⟨15, _⟩ => ⟨S8x4x1024x64, .f32⟩
  | .hbm, ⟨16, _⟩ => ⟨S8x4x1024x64, .f32⟩
  | .hbm, ⟨17, _⟩ => ⟨S8x4x1024x64, .f32⟩
  | .hbm, ⟨18, _⟩ => ⟨S8x4x1024x64, .f32⟩
  | .hbm, ⟨19, _⟩ => ⟨S8x4x1024x64, .f32⟩
  | .hbm, ⟨20, _⟩ => ⟨S8x4x1024x64, .f32⟩
  | .hbm, ⟨21, _⟩ => ⟨S8x4x1024x1024, .f32⟩
  | .hbm, ⟨22, _⟩ => ⟨S8x4x1024x1024, .f32⟩
  | .hbm, ⟨23, _⟩ => ⟨S8x4x1024x64, .f32⟩
  | .hbm, ⟨24, _⟩ => ⟨S8x4x1024x64, .f32⟩
  | .hbm, ⟨25, _⟩ => ⟨S8x4x1024x64, .f32⟩
  | .hbm, ⟨26, _⟩ => ⟨S8x4x1024x64, .f32⟩
  | .hbm, ⟨27, _⟩ => ⟨S8x4x1024x64, .f32⟩
  | .hbm, ⟨28, _⟩ => ⟨S8x4x1024x64, .f32⟩
  | .hbm, ⟨29, _⟩ => ⟨S8x4x1024x64, .f32⟩
  | .hbm, ⟨30, _⟩ => ⟨S8x4x1024x64, .f32⟩
  | .hbm, ⟨31, _⟩ => ⟨S8x4x1024x64, .f32⟩
  | .hbm, ⟨32, _⟩ => ⟨S1x8x4x1024x64, .f32⟩
  | .hbm, ⟨33, _⟩ => ⟨S1x8x4x1024x64, .f32⟩
  | .hbm, ⟨34, _⟩ => ⟨S1x8x4x1024x64, .f32⟩
  | .hbm, ⟨35, _⟩ => ⟨S1x8x4x1024x64, .f32⟩
  | .hbm, ⟨36, _⟩ => ⟨S1x8x4x1024x64, .f32⟩
  | .hbm, ⟨37, _⟩ => ⟨S1x8x4x1024x64, .f32⟩
  | .hbm, ⟨38, _⟩ => ⟨S1x8x4x1024x64, .f32⟩
  | .hbm, ⟨39, _⟩ => ⟨S1x8x4x1024x64, .f32⟩
  | .hbm, ⟨40, _⟩ => ⟨S1x8x4x1024x64, .f32⟩
  | .hbm, ⟨41, _⟩ => ⟨S1x8x4x1024x64, .f32⟩
  | .hbm, ⟨42, _⟩ => ⟨S1x8x4x1024x64, .f32⟩
  | .hbm, ⟨43, _⟩ => ⟨S11x8x4x1024x64, .f32⟩
  | .hbm, ⟨44, _⟩ => ⟨S_, .f32⟩
  | .hbm, ⟨45, _⟩ => ⟨S11x8x4x64, .f32⟩
  | .hbm, ⟨46, _⟩ => ⟨S_, .f32⟩
  | .hbm, ⟨47, _⟩ => ⟨S8x4, .f32⟩
  | .hbm, ⟨48, _⟩ => ⟨S8x4x11x64, .f32⟩
  | .hbm, ⟨49, _⟩ => ⟨S8x4x1x1, .f32⟩
  | .hbm, ⟨50, _⟩ => ⟨S8x4x11x64, .f32⟩
  | .hbm, ⟨51, _⟩ => ⟨S8x4x11x64, .f32⟩
  | .hbm, ⟨52, _⟩ => ⟨S8x4x704, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst : Ref sig .tc := ⟨.hbm, 44, rfl⟩
abbrev main_v41 : Ref sig .tc := ⟨.hbm, 45, rfl⟩
abbrev main_cst_0 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]

class Facts₀ : Prop where
  bcast_S8x4x1024x64_S1x8x4x1024x64_1_2_3_4 : S8x4x1024x64.BroadcastsInDim S1x8x4x1024x64 (![1, 2, 3, 4] : Fin 4 → Fin S1x8x4x1024x64.rank)
  concatenates_S1x8x4x1024x64_S1x8x4x1024x64_S1x8x4x1024x64_S1x8x4x1024x64_S1x8x4x1024x64_S1x8x4x1024x64_S1x8x4x1024x64_S1x8x4x1024x64_S1x8x4x1024x64_S1x8x4x1024x64_S1x8x4x1024x64_S11x8x4x1024x64_d0 : Shape.Concatenates [S1x8x4x1024x64, S1x8x4x1024x64, S1x8x4x1024x64, S1x8x4x1024x64, S1x8x4x1024x64, S1x8x4x1024x64, S1x8x4x1024x64, S1x8x4x1024x64, S1x8x4x1024x64, S1x8x4x1024x64, S1x8x4x1024x64] S11x8x4x1024x64 0
  reducesTo_S11x8x4x1024x64_S11x8x4x64_d3 : S11x8x4x1024x64.ReducesTo [3] S11x8x4x64
  h_S_ : 0 < S_.numel
  reducesTo_S8x4x1024_S8x4_d2 : S8x4x1024.ReducesTo [2] S8x4
  transposes_S11x8x4x64_S8x4x11x64_1_2_0_3 : S11x8x4x64.Transposes [1, 2, 0, 3] S8x4x11x64
  bcast_S8x4_S8x4x1x1_0_1 : S8x4.BroadcastsInDim S8x4x1x1 (![0, 1] : Fin 2 → Fin S8x4x1x1.rank)
  bcast_S8x4x1x1_S8x4x11x64_0_1_2_3 : S8x4x1x1.BroadcastsInDim S8x4x11x64 (![0, 1, 2, 3] : Fin 4 → Fin S8x4x11x64.rank)
  shapeCasts_S8x4x11x64_S8x4x704 : S8x4x11x64.ShapeCasts S8x4x704
  dot_S8x4x1024x1024_S8x4x1024x1024_S8x4x1024x1024_3_2_2_3_01_01_wf : DotDims.WF S8x4x1024x1024 S8x4x1024x1024 S8x4x1024x1024 [3] [2] [2] [3] [0, 1] [0, 1]
  dot_S8x4x1024x1024_S8x4x1024x64_S8x4x1024x64_3_2_2_3_01_01_wf : DotDims.WF S8x4x1024x1024 S8x4x1024x64 S8x4x1024x64 [3] [2] [2] [3] [0, 1] [0, 1]

variable [Facts₀]

def dot_S8x4x1024x1024_S8x4x1024x1024_S8x4x1024x1024_3_2_2_3_01_01 : DotDims S8x4x1024x1024 S8x4x1024x1024 S8x4x1024x1024 where
  lhsContracting := [3]
  rhsContracting := [2]
  lhsNonContracting := [2]
  rhsNonContracting := [3]
  lhsBatch := [0, 1]
  rhsBatch := [0, 1]
  wf := dot_S8x4x1024x1024_S8x4x1024x1024_S8x4x1024x1024_3_2_2_3_01_01_wf
def dot_S8x4x1024x1024_S8x4x1024x64_S8x4x1024x64_3_2_2_3_01_01 : DotDims S8x4x1024x1024 S8x4x1024x64 S8x4x1024x64 where
  lhsContracting := [3]
  rhsContracting := [2]
  lhsNonContracting := [2]
  rhsNonContracting := [3]
  lhsBatch := [0, 1]
  rhsBatch := [0, 1]
  wf := dot_S8x4x1024x1024_S8x4x1024x64_S8x4x1024x64_3_2_2_3_01_01_wf

class Facts : Prop extends Facts₀ where

variable [Facts]
-- ==== Proof.WaveletSpec.lean ====
/-
  The diffusion-wavelet features of one (batch, time) slice, as functions of coordinates over the extended reals.

  For a transition matrix P (1024 × 1024) and node features X (1024 × 64):
    P₁ = P·P, P₂ = P₁·P₁, P₃ = P₂·P₂, P₄ = P₃·P₃            (the dyadic powers P², P⁴, P⁸, P¹⁶)
    ψ₀ = P₁ − P, ψ₁ = P₂ − P₁, ψ₂ = P₃ − P₂, ψ₃ = P₄ − P₃     (the wavelet bands)
    s_j = |ψ_j · X|                                          (first-order scattering, entrywise absolute value)
    |ψ_j · s_i| for j < i                                    (second-order scattering)
  and the eleven feature arrays, in order: P₄·X; s₀ … s₃; then (j, i) = (0,1), (0,2), (1,2), (0,3), (1,3), (2,3).
  The pooled feature (k, f) is the sum over the 1024 nodes of feature array k at column f.

  Nothing here needs finiteness: every identity used later is a re-bracketing of the same sums and products.
-/
import Idealize.ShloMosaic.PureOps.Ideal
import Idealize.ShloMosaic.Lib.ValueIdx

noncomputable section

namespace Cert.Wavelet

open Idealize.ShloMosaic Idealize.ShloMosaic.ValueIdx

/-- A matrix over the extended reals, by row and column. -/
abbrev Mat (n m : ℕ) : Type := Fin n → Fin m → EReal

/-- The matrix product: entry (r, c) is ∑ j, A (r, j) · B (j, c). -/
def mmul {n k m : ℕ} (A : Mat n k) (B : Mat k m) : Mat n m := fun r c => ∑ j : Fin k, A r j * B j c

/-- The next wavelet band of a power A of the transition matrix: A·A − A. -/
def band (A : Mat 1024 1024) : Mat 1024 1024 := fun r c => mmul A A r c - A r c

/-- The entrywise absolute value of a product: |A · Y|, with |x| = max x (−x). -/
def scat {m : ℕ} (A : Mat 1024 1024) (Y : Mat 1024 m) : Mat 1024 m :=
  fun r c => max (mmul A Y r c) (-(mmul A Y r c))

section slice
variable (P : Mat 1024 1024) (X : Mat 1024 64)

/-- P², P⁴, P⁸, P¹⁶. -/
def pow1 : Mat 1024 1024 := mmul P P
def pow2 : Mat 1024 1024 := mmul (pow1 P) (pow1 P)
def pow3 : Mat 1024 1024 := mmul (pow2 P) (pow2 P)
def pow4 : Mat 1024 1024 := mmul (pow3 P) (pow3 P)

/-- The bands ψ₀ … ψ₃. -/
def psi0 : Mat 1024 1024 := band P
def psi1 : Mat 1024 1024 := band (pow1 P)
def psi2 : Mat 1024 1024 := band (pow2 P)
def psi3 : Mat 1024 1024 := band (pow3 P)

/-- The first-order scattering arrays s₀ … s₃. -/
def sc0 : Mat 1024 64 := scat (psi0 P) X
def sc1 : Mat 1024 64 := scat (psi1 P) X
def sc2 : Mat 1024 64 := scat (psi2 P) X
def sc3 : Mat 1024 64 := scat (psi3 P) X

/-- The eleven feature arrays, in the order both programs emit them. -/
def feat : Fin 11 → Mat 1024 64
  | ⟨0, _⟩ => mmul (pow4 P) X
  | ⟨1, _⟩ => sc0 P X
  | ⟨2, _⟩ => sc1 P X
  | ⟨3, _⟩ => sc2 P X
  | ⟨4, _⟩ => sc3 P X
  | ⟨5, _⟩ => scat (psi0 P) (sc1 P X)
  | ⟨6, _⟩ => scat (psi0 P) (sc2 P X)
  | ⟨7, _⟩ => scat (psi1 P) (sc2 P X)
  | ⟨8, _⟩ => scat (psi0 P) (sc3 P X)
  | ⟨9, _⟩ => scat (psi1 P) (sc3 P X)
  | ⟨10, _⟩ => scat (psi2 P) (sc3 P X)
  | ⟨_ + 11, h⟩ => absurd h (by omega)

/-- The pooled feature (k, f): feature array k summed over the nodes, at column f. -/
def pooled (k : Fin 11) (f : Fin 64) : EReal := ∑ n : Fin 1024, feat P X k n f

end slice

/-- Slice (b, t) of a [8, 4, 1024, C] array as a matrix. -/
def slice4 {C : ℕ} (x : (⟨4, ![8, 4, 1024, C]⟩ : Shape).Idx → EReal) (b : Fin 8) (t : Fin 4) : Mat 1024 C :=
  fun r c => x (ix4 b t r c)

/-- The one block of a [1, 1, 1024, C] array as a matrix. -/
def block4 {C : ℕ} (x : (⟨4, ![1, 1, 1024, C]⟩ : Shape).Idx → EReal) : Mat 1024 C :=
  fun r c => x (ix4 (0 : Fin 1) (0 : Fin 1) r c)

/-- The pooled features of every slice, as a [8, 4, 11, 64] array. -/
def pooledArr (p : (⟨4, ![8, 4, 1024, 1024]⟩ : Shape).Idx → EReal) (x : (⟨4, ![8, 4, 1024, 64]⟩ : Shape).Idx → EReal) :
    (⟨4, ![8, 4, 11, 64]⟩ : Shape).Idx → EReal :=
  fun i => pooled (slice4 p (i 0) (i 1)) (slice4 x (i 0) (i 1)) (i 2) (i 3)

end Cert.Wavelet

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.Tiles.lean ====
/-
  The kernel's squaring round, one tile of 256 rows at a time, read at an entry.

  A round squares a 1024 × 1024 matrix V in four tiles: rows off … off+255 of V times the whole of V. At local entry
  (r, c) the tile is ∑ k, V (off + r, k) · V (k, c): entry (off + r, c) of V·V. The round stores two things per tile:
  the product itself (the next power), and the product minus the same rows of V (the wavelet band V·V − V), the latter
  through a cast that puts a unit axis in front.
-/
import proofs.«144410_j46334107189751_2_alg».proof.Proof.Gen.KernelIdeal
import proofs.«144410_j46334107189751_2_alg».proof.Proof.WaveletSpec
import proofs.«144410_j46334107189751_2_alg».proof.Proof.LibDenseEntry
import Idealize.ShloMosaic.Lib.Pipeline.Value
import Idealize.ShloMosaic.Lib.ValueIdx

noncomputable section

namespace Cert.Wavelet.Tiles

open Idealize.ShloMosaic Idealize.ShloMosaic.ValueIdx
open Cert.KernelIdeal Cert.KernelIdeal.Facts₀ Cert.KernelIdeal.Facts Cert.Wavelet

/-- A rank-2 array over the extended reals as a matrix. -/
def mat {a b : ℕ} {φ : FTy} (v : FVec Ideal ⟨2, ![a, b]⟩ φ) : Mat a b := fun r c => v (ix2 r c)

/-- Rows off … off+255 of V times V. -/
def sqTile (off : ℕ) (hs : S1024x1024.Slices ![off, 0] S256x1024) (V : FVec Ideal S1024x1024 .f32) : FVec Ideal S256x1024 .f32 :=
  matmul dot_S256x1024_S1024x1024_S256x1024_1_0_0_1_n_n (some .fp32) (extractStridedSlice S256x1024 ![off, 0] V hs) V
    (constant S256x1024 .f32 0x00000000#32)

/-- The same rows of V·V − V, with a unit axis in front. -/
def bandTile (off : ℕ) (hs : S1024x1024.Slices ![off, 0] S256x1024) (V : FVec Ideal S1024x1024 .f32) : FVec Ideal S1x256x1024 .bf16 :=
  shapeCast S1x256x1024 (truncf .bf16 (subf (sqTile off hs V) (extractStridedSlice S256x1024 ![off, 0] V hs)) bitsLt_bf16_f32)
    shapeCasts_S256x1024_S1x256x1024

/-- Row off + r of a 256-row slice is row r of the slice. -/
theorem rows_apply (off : ℕ) (hoff : off + 256 ≤ 1024) (hs : S1024x1024.Slices ![off, 0] S256x1024)
    (V : FVec Ideal S1024x1024 .f32) (r : Fin 256) (k : Fin 1024) :
    extractStridedSlice S256x1024 ![off, 0] V hs (ix2 r k) = mat V ⟨off + r.val, by omega⟩ k :=
  extractStridedSlice_apply ![off, 0] V hs (ix2 r k) (ix2 (⟨off + r.val, by omega⟩ : Fin 1024) k) (fun a => by
    match a with
    | ⟨0, _⟩ => rfl
    | ⟨1, _⟩ => show k.val = 0 + k.val; omega)

/-- The tile at (r, c) is entry (off + r, c) of V·V. -/
theorem sqTile_apply (off : ℕ) (hoff : off + 256 ≤ 1024) (hs : S1024x1024.Slices ![off, 0] S256x1024)
    (V : FVec Ideal S1024x1024 .f32) (r : Fin 256) (c : Fin 1024) :
    sqTile off hs V (ix2 r c) = mmul (mat V) (mat V) ⟨off + r.val, by omega⟩ c := by
  unfold sqTile
  refine (Cert.LibDenseEntry.matmul_plain_zero_apply dot_S256x1024_S1024x1024_S256x1024_1_0_0_1_n_n rfl rfl rfl rfl rfl rfl
    (some .fp32) (extractStridedSlice S256x1024 ![off, 0] V hs) V r c).trans ?_
  unfold mmul
  refine Finset.sum_congr rfl fun k _ => ?_
  exact congrArg (· * V (ix2 k c)) (rows_apply off hoff hs V r k)

/-- The stored band tile at (u, r, c) is entry (off + r, c) of V·V − V. -/
theorem bandTile_apply (off : ℕ) (hoff : off + 256 ≤ 1024) (hs : S1024x1024.Slices ![off, 0] S256x1024)
    (V : FVec Ideal S1024x1024 .f32) (u : Fin 1) (r : Fin 256) (c : Fin 1024) :
    bandTile off hs V (ix3 u r c) = band (mat V) ⟨off + r.val, by omega⟩ c := by
  unfold bandTile
  refine (shapeCast_addUnit_apply ![256, 1024] _ shapeCasts_S256x1024_S1x256x1024 (ix3 u r c)).trans ?_
  have e : (fun a : Fin 2 => ix3 u r c a.succ) = ix2 r c :=
    funext fun a => by match a with | ⟨0, _⟩ => rfl | ⟨1, _⟩ => rfl
  rw [e]
  show sqTile off hs V (ix2 r c) - extractStridedSlice S256x1024 ![off, 0] V hs (ix2 r c) = _
  rw [sqTile_apply off hoff hs V r c, rows_apply off hoff hs V r c]
  rfl

/-- The stored product tile (a cast to its own shape) at (r, c) is entry (off + r, c) of V·V. -/
theorem sqStore_apply (off : ℕ) (hoff : off + 256 ≤ 1024) (hs : S1024x1024.Slices ![off, 0] S256x1024)
    (V : FVec Ideal S1024x1024 .f32) (r : Fin 256) (c : Fin 1024) :
    shapeCast S256x1024 (sqTile off hs V) shapeCasts_S256x1024_S256x1024 (ix2 r c)
      = mmul (mat V) (mat V) ⟨off + r.val, by omega⟩ c := by
  rw [shapeCast_self]
  exact sqTile_apply off hoff hs V r c

end Cert.Wavelet.Tiles

end
-- ==== Proof.LibCanonPrefix.lean ====
/-
  Reading a buffer that was written piece by piece, newest piece first, when the buffer was written MORE THAN ONCE.

  The contents a list of writes leaves are, at each index, the payload of the first piece of the list that holds the
  index. If every piece of an initial stretch L₁ of the list agrees with one function G (piece p at its local index x is
  G at the array index under x), then at any index some piece of L₁ holds, the contents are G there — whatever the
  older writes L₂ behind them were: the newer pieces hide them.
-/
import Idealize.ShloMosaic.Lib.Pipeline.Value
import Idealize.ShloMosaic.Lib.Pipeline.FrameBody

noncomputable section

namespace Cert.LibCanonPrefix

open Idealize.ShloMosaic

variable {s : Shape} {e : EltTy} {Val : EltTy → Type} [∀ e, Nonempty (Val e)]

/-- The newest pieces L₁ all agree with G and one of them holds y: the contents at y are G y, whatever lies under. -/
theorem canon_append_of_pieces (G : s.Idx → Val e) :
    ∀ (L₁ L₂ : List (View.Piece Val s e)) (_ : ∀ p ∈ L₁, ∀ x : p.1.shape.Idx, p.2 x = G (p.1.emb x)) (y : s.Idx)
      (_ : ∃ p ∈ L₁, y ∈ p.1.set), View.canon (L₁ ++ L₂) y = G y
  | [], _, _, _, hy => by obtain ⟨p, hp, _⟩ := hy; exact absurd hp List.not_mem_nil
  | p :: L₁, L₂, hL, y, hy => by
    by_cases hm : y ∈ p.1.set
    · obtain ⟨r, w⟩ := p
      obtain ⟨x, rfl⟩ : ∃ x, r.emb x = y := r.exists_idx_of_mem hm
      rw [List.cons_append, View.canon_cons_emb]
      exact hL ⟨r, w⟩ List.mem_cons_self x
    · rw [List.cons_append, View.canon_cons_of_not_mem p (L₁ ++ L₂) hm]
      refine canon_append_of_pieces G L₁ L₂ (fun q hq => hL q (List.mem_cons_of_mem _ hq)) y ?_
      obtain ⟨q, hq, hyq⟩ := hy
      rcases List.mem_cons.mp hq with rfl | hq
      · exact absurd hyq hm
      · exact ⟨q, hq, hyq⟩

/-- The four newest pieces agree with G and one of them holds y: the contents at y are G y, whatever lies under them. -/
theorem canon_four (G : s.Idx → Val e) (p₁ p₂ p₃ p₄ : View.Piece Val s e) (L : List (View.Piece Val s e))
    (h₁ : ∀ x : p₁.1.shape.Idx, p₁.2 x = G (p₁.1.emb x)) (h₂ : ∀ x : p₂.1.shape.Idx, p₂.2 x = G (p₂.1.emb x))
    (h₃ : ∀ x : p₃.1.shape.Idx, p₃.2 x = G (p₃.1.emb x)) (h₄ : ∀ x : p₄.1.shape.Idx, p₄.2 x = G (p₄.1.emb x))
    (y : s.Idx) (hy : ∃ p ∈ [p₁, p₂, p₃, p₄], y ∈ p.1.set) :
    View.canon (p₁ :: p₂ :: p₃ :: p₄ :: L) y = G y :=
  canon_append_of_pieces G [p₁, p₂, p₃, p₄] L (fun p hp => by
    rcases List.mem_cons.mp hp with rfl | hp
    · exact h₁
    rcases List.mem_cons.mp hp with rfl | hp
    · exact h₂
    rcases List.mem_cons.mp hp with rfl | hp
    · exact h₃
    rcases List.mem_cons.mp hp with rfl | hp
    · exact h₄
    exact absurd hp List.not_mem_nil) y hy

/-- A load after the writes reads, at local index j of its box, the contents at the array index under j. -/
theorem readCov_apply {sig : RefSig} {κ : Kind} {sp : Space} (v : View sig κ sp s e) (L : List (View.Piece Val s e))
    (B : LoadRect s) (j : B.shape.Idx) : v.readCov L B j = View.canon L (B.idx j) :=
  congrFun (View.readCov_eq_canon' v L B) j

end Cert.LibCanonPrefix

end
-- ==== Proof.Powers.lean ====
/-
  The dyadic powers of the transition matrix, as the kernel reads them back from its two square scratch buffers.

  The kernel squares in four rounds. Round 0 squares the input block P tile by tile into the second buffer; round 1
  reads that buffer back (it holds P² = P·P), squares it into the first buffer; round 2 reads the first buffer (P⁴) and
  squares it into the second, over what round 0 left there; round 3 reads the second buffer (P⁸) and squares it into the
  first, over round 1's P⁴; the first buffer then holds P¹⁶. A buffer written twice is read through its four newest
  tiles, which cover it: the older tiles underneath are never seen.
-/
import proofs.«144410_j46334107189751_2_alg».proof.Proof.Gen.KernelIdeal.Frame
import proofs.«144410_j46334107189751_2_alg».proof.Proof.Tiles
import proofs.«144410_j46334107189751_2_alg».proof.Proof.LibCanonPrefix

set_option maxRecDepth 16384

noncomputable section

namespace Cert.Wavelet.Kernel

open Idealize.ShloMosaic Idealize.ShloMosaic.TcCoe Idealize.ShloMosaic.Tactic Idealize.ShloMosaic.ValueIdx
open Cert.KernelIdeal Cert.KernelIdeal.Gen Cert.Wavelet Cert.Wavelet.Tiles

/-- A load of the whole first input buffer reads the block it holds. -/
theorem load_block0 (arg2 : Memref sig .tc .vmem S1x1x1024x1024 .f32) (harg2 : arg2.IsWhole) (x0 : Vec Ideal S1x1x1024x1024 .f32) :
    View.readAt (Elt Ideal) arg2.view
      (Rect.unit ![0, 0, 0, 0] S1x1x1024x1024.size Facts₀.inb_S1x1x1024x1024_S1x1x1024x1024_0_0_0_0).toLoadRect (harg2.unread x0) = x0 := by
  have hz : (![0, 0, 0, 0] : Fin 4 → ℕ) = fun _ => 0 :=
    funext fun a => by match a with | ⟨0, _⟩ => rfl | ⟨1, _⟩ => rfl | ⟨2, _⟩ => rfl | ⟨3, _⟩ => rfl
  simp only [View.readAt_eq_ld, harg2.read_unread, View.ld_unit_zero (S := S1x1x1024x1024) hz]

/-- A load of the whole second input buffer reads the block it holds. -/
theorem load_block1 (arg3 : Memref sig .tc .vmem S1x1x1024x64 .f32) (harg3 : arg3.IsWhole) (x1 : Vec Ideal S1x1x1024x64 .f32) :
    View.readAt (Elt Ideal) arg3.view
      (Rect.unit ![0, 0, 0, 0] S1x1x1024x64.size Facts₀.inb_S1x1x1024x64_S1x1x1024x64_0_0_0_0).toLoadRect (harg3.unread x1) = x1 := by
  have hz : (![0, 0, 0, 0] : Fin 4 → ℕ) = fun _ => 0 :=
    funext fun a => by match a with | ⟨0, _⟩ => rfl | ⟨1, _⟩ => rfl | ⟨2, _⟩ => rfl | ⟨3, _⟩ => rfl
  simp only [View.readAt_eq_ld, harg3.read_unread, View.ld_unit_zero (S := S1x1x1024x64) hz]

/-- The [1, 1, 1024, 1024] block cast to [1024, 1024] keeps its entries. -/
theorem cast_block0 (x0 : Vec Ideal S1x1x1024x1024 .f32) (r c : Fin 1024) :
    k0_pay3 (F := Ideal) x0 (ix2 r c) = block4 x0 r c := by
  unfold k0_pay3
  exact shapeCast_apply x0 Facts₀.shapeCasts_S1x1x1024x1024_S1024x1024 (ix2 r c) (ix4 (0 : Fin 1) (0 : Fin 1) r c) (by
    rw [Shape.rowMajor_val_four, Shape.rowMajor_val_two]
    show ((0 * 1 + 0) * 1024 + r.val) * 1024 + c.val = r.val * 1024 + c.val
    omega)

theorem mat_block0 (x0 : Vec Ideal S1x1x1024x1024 .f32) : mat (k0_pay3 (F := Ideal) x0) = block4 x0 :=
  funext fun a => funext fun b => cast_block0 x0 a b

/-- The [1, 1, 1024, 64] block cast to [1024, 64] (and to the narrower format, the identity) keeps its entries. -/
theorem cast_block1 (x1 : Vec Ideal S1x1x1024x64 .f32) (r : Fin 1024) (c : Fin 64) :
    k0_pay2 (F := Ideal) x1 (ix2 r c) = block4 x1 r c := by
  unfold k0_pay2
  exact shapeCast_apply x1 Facts₀.shapeCasts_S1x1x1024x64_S1024x64 (ix2 r c) (ix4 (0 : Fin 1) (0 : Fin 1) r c) (by
    rw [Shape.rowMajor_val_four, Shape.rowMajor_val_two]
    show ((0 * 1 + 0) * 1024 + r.val) * 64 + c.val = r.val * 64 + c.val
    omega)

/-- The node features as the kernel holds them through the whole body. -/
theorem mat_features (c : Dev nD) (arg3 : Memref sig .tc .vmem S1x1x1024x64 .f32) (harg3 : arg3.IsWhole) (x1 : Vec Ideal S1x1x1024x64 .f32) :
    mat (kernelRun0_A.sl.r (F := Ideal) c arg3 harg3 x1) = block4 x1 := by
  unfold kernelRun0_A.sl.r
  generalize hX : View.readAt (Elt Ideal) arg3.view _ (harg3.unread x1) = X
  obtain rfl : X = x1 := hX.symm.trans (load_block1 arg3 harg3 x1)
  exact funext fun a => funext fun b => cast_block1 X a b

section powers
variable (c : Dev nD) (arg2 : Memref sig .tc .vmem S1x1x1024x1024 .f32) (harg2 : arg2.IsWhole)
  (arg5 arg6 : Memref sig .tc .vmem S1024x1024 .f32) (x0 : Vec Ideal S1x1x1024x1024 .f32)

/-- Round 1 reads P² from the second buffer. -/
theorem pow55_apply (r cc : Fin 1024) :
    kernelRun0_A.sl.v55 (F := Ideal) c arg2 harg2 arg6 x0 (ix2 r cc) = pow1 (block4 x0) r cc := by
  unfold kernelRun0_A.sl.v55
  rw [Cert.LibCanonPrefix.readCov_apply]
  have hidx : (Rect.unit ![0, 0] S1024x1024.size Facts₀.inb_S1024x1024_S1024x1024_0_0).toLoadRect.idx (ix2 r cc) = ix2 r cc :=
    funext fun a => Fin.ext (by
      match a with
      | ⟨0, _⟩ => show 0 + 1 * r.val = r.val; omega
      | ⟨1, _⟩ => show 0 + 1 * cc.val = cc.val; omega)
  rw [hidx]
  refine View.canon_apply_of_pieces (fun y : S1024x1024.Idx => pow1 (block4 x0) (y 0) (y 1)) _ ?_ (ix2 r cc)
    (View.cover_of_tiledL (kernelRun0_A.sl.HS1_4 c arg2 harg2 x0) S256x1024.size (by sl_kernel_rfl) (ix2 r cc))
  unfold kernelRun0_A.sl.HS1_4 kernelRun0_A.sl.r_1 kernelRun0_A.sl.r_3
  generalize hX : View.readAt (Elt Ideal) arg2.view _ (harg2.unread x0) = X
  obtain rfl : X = x0 := hX.symm.trans (load_block0 arg2 harg2 x0)
  have hV := mat_block0 X
  intro p hp
  simp only [List.mem_cons, List.not_mem_nil, or_false] at hp
  rcases hp with rfl | rfl | rfl | rfl
  all_goals
    intro x
    obtain ⟨r', c', rfl⟩ : ∃ (r' : Fin 256) (c' : Fin 1024), x = ix2 r' c' := ⟨x 0, x 1, eq_ix2 x⟩
    dsimp only
  ·
    refine (sqStore_apply 768 (by omega) Facts₀.slices_S1024x1024_o768_0_S256x1024 (k0_pay3 X) r' c').trans ?_
    rw [hV]
    show mmul (block4 X) (block4 X) _ _ = mmul (block4 X) (block4 X) _ _
    congr 1
    · exact Fin.ext (by show 768 + r'.val = 768 + 1 * r'.val; omega)
    · exact Fin.ext (by show c'.val = 0 + 1 * c'.val; omega)
  ·
    refine (sqStore_apply 512 (by omega) Facts₀.slices_S1024x1024_o512_0_S256x1024 (k0_pay3 X) r' c').trans ?_
    rw [hV]
    show mmul (block4 X) (block4 X) _ _ = mmul (block4 X) (block4 X) _ _
    congr 1
    · exact Fin.ext (by show 512 + r'.val = 512 + 1 * r'.val; omega)
    · exact Fin.ext (by show c'.val = 0 + 1 * c'.val; omega)
  ·
    refine (sqStore_apply 256 (by omega) Facts₀.slices_S1024x1024_o256_0_S256x1024 (k0_pay3 X) r' c').trans ?_
    rw [hV]
    show mmul (block4 X) (block4 X) _ _ = mmul (block4 X) (block4 X) _ _
    congr 1
    · exact Fin.ext (by show 256 + r'.val = 256 + 1 * r'.val; omega)
    · exact Fin.ext (by show c'.val = 0 + 1 * c'.val; omega)
  ·
    refine (sqStore_apply 0 (by omega) Facts₀.slices_S1024x1024_o0_0_S256x1024 (k0_pay3 X) r' c').trans ?_
    rw [hV]
    show mmul (block4 X) (block4 X) _ _ = mmul (block4 X) (block4 X) _ _
    congr 1
    · exact Fin.ext (by show 0 + r'.val = 0 + 1 * r'.val; omega)
    · exact Fin.ext (by show c'.val = 0 + 1 * c'.val; omega)

theorem pow55 : mat (φ := .f32) (kernelRun0_A.sl.v55 (F := Ideal) c arg2 harg2 arg6 x0) = pow1 (block4 x0) :=
  funext fun a => funext fun b => pow55_apply c arg2 harg2 arg6 x0 a b

/-- Round 2 reads P⁴ from the first buffer. -/
theorem pow106_apply (r cc : Fin 1024) :
    kernelRun0_A.sl.v106 (F := Ideal) c arg2 harg2 arg5 arg6 x0 (ix2 r cc) = pow2 (block4 x0) r cc := by
  have h55 := pow55 c arg2 harg2 arg6 x0
  unfold kernelRun0_A.sl.v106
  rw [Cert.LibCanonPrefix.readCov_apply]
  have hidx : (Rect.unit ![0, 0] S1024x1024.size Facts₀.inb_S1024x1024_S1024x1024_0_0).toLoadRect.idx (ix2 r cc) = ix2 r cc :=
    funext fun a => Fin.ext (by
      match a with
      | ⟨0, _⟩ => show 0 + 1 * r.val = r.val; omega
      | ⟨1, _⟩ => show 0 + 1 * cc.val = cc.val; omega)
  rw [hidx]
  refine View.canon_apply_of_pieces (fun y : S1024x1024.Idx => pow2 (block4 x0) (y 0) (y 1)) _ ?_ (ix2 r cc)
    (View.cover_of_tiledL (kernelRun0_A.sl.HS0_4 c arg2 harg2 arg6 x0) S256x1024.size (by sl_kernel_rfl) (ix2 r cc))
  unfold kernelRun0_A.sl.HS0_4
  generalize kernelRun0_A.sl.v55 (F := Ideal) c arg2 harg2 arg6 x0 = V at h55 ⊢
  intro p hp
  simp only [List.mem_cons, List.not_mem_nil, or_false] at hp
  rcases hp with rfl | rfl | rfl | rfl
  all_goals
    intro x
    obtain ⟨r', c', rfl⟩ : ∃ (r' : Fin 256) (c' : Fin 1024), x = ix2 r' c' := ⟨x 0, x 1, eq_ix2 x⟩
    dsimp only
  ·
    refine (sqStore_apply 768 (by omega) Facts₀.slices_S1024x1024_o768_0_S256x1024 V r' c').trans ?_
    rw [h55]
    show mmul (pow1 (block4 x0)) (pow1 (block4 x0)) _ _ = mmul (pow1 (block4 x0)) (pow1 (block4 x0)) _ _
    congr 1
    · exact Fin.ext (by show 768 + r'.val = 768 + 1 * r'.val; omega)
    · exact Fin.ext (by show c'.val = 0 + 1 * c'.val; omega)
  ·
    refine (sqStore_apply 512 (by omega) Facts₀.slices_S1024x1024_o512_0_S256x1024 V r' c').trans ?_
    rw [h55]
    show mmul (pow1 (block4 x0)) (pow1 (block4 x0)) _ _ = mmul (pow1 (block4 x0)) (pow1 (block4 x0)) _ _
    congr 1
    · exact Fin.ext (by show 512 + r'.val = 512 + 1 * r'.val; omega)
    · exact Fin.ext (by show c'.val = 0 + 1 * c'.val; omega)
  ·
    refine (sqStore_apply 256 (by omega) Facts₀.slices_S1024x1024_o256_0_S256x1024 V r' c').trans ?_
    rw [h55]
    show mmul (pow1 (block4 x0)) (pow1 (block4 x0)) _ _ = mmul (pow1 (block4 x0)) (pow1 (block4 x0)) _ _
    congr 1
    · exact Fin.ext (by show 256 + r'.val = 256 + 1 * r'.val; omega)
    · exact Fin.ext (by show c'.val = 0 + 1 * c'.val; omega)
  ·
    refine (sqStore_apply 0 (by omega) Facts₀.slices_S1024x1024_o0_0_S256x1024 V r' c').trans ?_
    rw [h55]
    show mmul (pow1 (block4 x0)) (pow1 (block4 x0)) _ _ = mmul (pow1 (block4 x0)) (pow1 (block4 x0)) _ _
    congr 1
    · exact Fin.ext (by show 0 + r'.val = 0 + 1 * r'.val; omega)
    · exact Fin.ext (by show c'.val = 0 + 1 * c'.val; omega)

theorem pow106 : mat (φ := .f32) (kernelRun0_A.sl.v106 (F := Ideal) c arg2 harg2 arg5 arg6 x0) = pow2 (block4 x0) :=
  funext fun a => funext fun b => pow106_apply c arg2 harg2 arg5 arg6 x0 a b

/-- Round 3 reads P⁸ from the second buffer, through the four tiles round 2 wrote over round 0's. -/
theorem pow157_apply (r cc : Fin 1024) :
    kernelRun0_A.sl.v157 (F := Ideal) c arg2 harg2 arg5 arg6 x0 (ix2 r cc) = pow3 (block4 x0) r cc := by
  have h106 := pow106 c arg2 harg2 arg5 arg6 x0
  unfold kernelRun0_A.sl.v157
  rw [Cert.LibCanonPrefix.readCov_apply]
  have hidx : (Rect.unit ![0, 0] S1024x1024.size Facts₀.inb_S1024x1024_S1024x1024_0_0).toLoadRect.idx (ix2 r cc) = ix2 r cc :=
    funext fun a => Fin.ext (by
      match a with
      | ⟨0, _⟩ => show 0 + 1 * r.val = r.val; omega
      | ⟨1, _⟩ => show 0 + 1 * cc.val = cc.val; omega)
  rw [hidx]
  unfold kernelRun0_A.sl.HS1_8 kernelRun0_A.sl.r_8
  generalize kernelRun0_A.sl.v106 (F := Ideal) c arg2 harg2 arg5 arg6 x0 = V at h106 ⊢
  refine Cert.LibCanonPrefix.canon_four (s := S1024x1024) (Val := Elt Ideal) (e := .f32) (fun y : S1024x1024.Idx => pow3 (block4 x0) (y 0) (y 1)) _ _ _ _ _ ?_ ?_ ?_ ?_ (ix2 r cc)
    (View.cover_of_tiledL (s := S1024x1024) _ S256x1024.size (by sl_kernel_rfl) (ix2 r cc))
  all_goals
    intro x
    obtain ⟨r', c', rfl⟩ : ∃ (r' : Fin 256) (c' : Fin 1024), x = ix2 r' c' := ⟨x 0, x 1, eq_ix2 x⟩
    dsimp only
  ·
    refine (sqStore_apply 768 (by omega) Facts₀.slices_S1024x1024_o768_0_S256x1024 V r' c').trans ?_
    rw [h106]
    show mmul (pow2 (block4 x0)) (pow2 (block4 x0)) _ _ = mmul (pow2 (block4 x0)) (pow2 (block4 x0)) _ _
    congr 1
    · exact Fin.ext (by show 768 + r'.val = 768 + 1 * r'.val; omega)
    · exact Fin.ext (by show c'.val = 0 + 1 * c'.val; omega)
  ·
    refine (sqStore_apply 512 (by omega) Facts₀.slices_S1024x1024_o512_0_S256x1024 V r' c').trans ?_
    rw [h106]
    show mmul (pow2 (block4 x0)) (pow2 (block4 x0)) _ _ = mmul (pow2 (block4 x0)) (pow2 (block4 x0)) _ _
    congr 1
    · exact Fin.ext (by show 512 + r'.val = 512 + 1 * r'.val; omega)
    · exact Fin.ext (by show c'.val = 0 + 1 * c'.val; omega)
  ·
    refine (sqStore_apply 256 (by omega) Facts₀.slices_S1024x1024_o256_0_S256x1024 V r' c').trans ?_
    rw [h106]
    show mmul (pow2 (block4 x0)) (pow2 (block4 x0)) _ _ = mmul (pow2 (block4 x0)) (pow2 (block4 x0)) _ _
    congr 1
    · exact Fin.ext (by show 256 + r'.val = 256 + 1 * r'.val; omega)
    · exact Fin.ext (by show c'.val = 0 + 1 * c'.val; omega)
  ·
    refine (sqStore_apply 0 (by omega) Facts₀.slices_S1024x1024_o0_0_S256x1024 V r' c').trans ?_
    rw [h106]
    show mmul (pow2 (block4 x0)) (pow2 (block4 x0)) _ _ = mmul (pow2 (block4 x0)) (pow2 (block4 x0)) _ _
    congr 1
    · exact Fin.ext (by show 0 + r'.val = 0 + 1 * r'.val; omega)
    · exact Fin.ext (by show c'.val = 0 + 1 * c'.val; omega)

theorem pow157 : mat (φ := .f32) (kernelRun0_A.sl.v157 (F := Ideal) c arg2 harg2 arg5 arg6 x0) = pow3 (block4 x0) :=
  funext fun a => funext fun b => pow157_apply c arg2 harg2 arg5 arg6 x0 a b

/-- The end reads P¹⁶ from the first buffer, through the four tiles round 3 wrote over round 1's. -/
theorem pow208_apply (r cc : Fin 1024) :
    kernelRun0_A.sl.v208 (F := Ideal) c arg2 harg2 arg5 arg6 x0 (ix2 r cc) = pow4 (block4 x0) r cc := by
  have h157 := pow157 c arg2 harg2 arg5 arg6 x0
  unfold kernelRun0_A.sl.v208
  rw [Cert.LibCanonPrefix.readCov_apply]
  have hidx : (Rect.unit ![0, 0] S1024x1024.size Facts₀.inb_S1024x1024_S1024x1024_0_0).toLoadRect.idx (ix2 r cc) = ix2 r cc :=
    funext fun a => Fin.ext (by
      match a with
      | ⟨0, _⟩ => show 0 + 1 * r.val = r.val; omega
      | ⟨1, _⟩ => show 0 + 1 * cc.val = cc.val; omega)
  rw [hidx]
  unfold kernelRun0_A.sl.HS0_8 kernelRun0_A.sl.r_13 kernelRun0_A.sl.r_11
  generalize kernelRun0_A.sl.v157 (F := Ideal) c arg2 harg2 arg5 arg6 x0 = V at h157 ⊢
  refine Cert.LibCanonPrefix.canon_four (s := S1024x1024) (Val := Elt Ideal) (e := .f32) (fun y : S1024x1024.Idx => pow4 (block4 x0) (y 0) (y 1)) _ _ _ _ _ ?_ ?_ ?_ ?_ (ix2 r cc)
    (View.cover_of_tiledL (s := S1024x1024) _ S256x1024.size (by sl_kernel_rfl) (ix2 r cc))
  all_goals
    intro x
    obtain ⟨r', c', rfl⟩ : ∃ (r' : Fin 256) (c' : Fin 1024), x = ix2 r' c' := ⟨x 0, x 1, eq_ix2 x⟩
    dsimp only
  ·
    refine (sqStore_apply 768 (by omega) Facts₀.slices_S1024x1024_o768_0_S256x1024 V r' c').trans ?_
    rw [h157]
    show mmul (pow3 (block4 x0)) (pow3 (block4 x0)) _ _ = mmul (pow3 (block4 x0)) (pow3 (block4 x0)) _ _
    congr 1
    · exact Fin.ext (by show 768 + r'.val = 768 + 1 * r'.val; omega)
    · exact Fin.ext (by show c'.val = 0 + 1 * c'.val; omega)
  ·
    refine (sqStore_apply 512 (by omega) Facts₀.slices_S1024x1024_o512_0_S256x1024 V r' c').trans ?_
    rw [h157]
    show mmul (pow3 (block4 x0)) (pow3 (block4 x0)) _ _ = mmul (pow3 (block4 x0)) (pow3 (block4 x0)) _ _
    congr 1
    · exact Fin.ext (by show 512 + r'.val = 512 + 1 * r'.val; omega)
    · exact Fin.ext (by show c'.val = 0 + 1 * c'.val; omega)
  ·
    refine (sqStore_apply 256 (by omega) Facts₀.slices_S1024x1024_o256_0_S256x1024 V r' c').trans ?_
    rw [h157]
    show mmul (pow3 (block4 x0)) (pow3 (block4 x0)) _ _ = mmul (pow3 (block4 x0)) (pow3 (block4 x0)) _ _
    congr 1
    · exact Fin.ext (by show 256 + r'.val = 256 + 1 * r'.val; omega)
    · exact Fin.ext (by show c'.val = 0 + 1 * c'.val; omega)
  ·
    refine (sqStore_apply 0 (by omega) Facts₀.slices_S1024x1024_o0_0_S256x1024 V r' c').trans ?_
    rw [h157]
    show mmul (pow3 (block4 x0)) (pow3 (block4 x0)) _ _ = mmul (pow3 (block4 x0)) (pow3 (block4 x0)) _ _
    congr 1
    · exact Fin.ext (by show 0 + r'.val = 0 + 1 * r'.val; omega)
    · exact Fin.ext (by show c'.val = 0 + 1 * c'.val; omega)

theorem pow208 : mat (φ := .f32) (kernelRun0_A.sl.v208 (F := Ideal) c arg2 harg2 arg5 arg6 x0) = pow4 (block4 x0) :=
  funext fun a => funext fun b => pow208_apply c arg2 harg2 arg5 arg6 x0 a b

end powers

end Cert.Wavelet.Kernel

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibConcatBands.lean ====
/-
  Three arrays of one shape [a, b] joined along their second axis, read at an index.

  The joined array has the first piece in its columns 0 … b−1, the second in columns b … 2b−1 and the third in columns
  2b … 3b−1; its rows are the pieces' rows. So at row r the joined array reads, at column k, b + k and b + b + k
  (k < b), the first, second and third piece at (r, k).
-/
import Idealize.ShloMosaic.Lib.Pipeline.Value
import Idealize.ShloMosaic.Lib.ValueIdx

noncomputable section

namespace Cert.LibConcatBands

open Idealize.ShloMosaic Idealize.ShloMosaic.ValueIdx

variable {α : Type} {a b n : ℕ}

/-- The three pieces, each with its shape, in order. -/
abbrev pieces (x0 x1 x2 : (⟨2, ![a, b]⟩ : Shape).Idx → α) : List ((s : Shape) × (s.Idx → α)) :=
  [⟨⟨2, ![a, b]⟩, x0⟩, ⟨⟨2, ![a, b]⟩, x1⟩, ⟨⟨2, ![a, b]⟩, x2⟩]

/-- A column inside the first band reads the first piece. -/
theorem join3_first (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = k.val) :
    concatenate ⟨2, ![a, n]⟩ 1 (pieces x0 x1 x2) h (ix2 r c) = x0 (ix2 r k) :=
  concatenate_apply_piece (t := ⟨2, ![a, n]⟩) 1 (pieces x0 x1 x2) h (ix2 r c) 0 (by show (0 : ℕ) < 3; omega) ⟨2, ![a, b]⟩ x0 rfl rfl
    0 rfl (ix2 r k)
    (fun d hd => by
      match d with
      | ⟨0, _⟩ => rfl
      | ⟨1, _⟩ => exact absurd rfl hd)
    (by show 0 + k.val = c.val; omega)

/-- A column inside the second band reads the second piece. -/
theorem join3_second (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = b + k.val) :
    concatenate ⟨2, ![a, n]⟩ 1 (pieces x0 x1 x2) h (ix2 r c) = x1 (ix2 r k) :=
  concatenate_apply_piece (t := ⟨2, ![a, n]⟩) 1 (pieces x0 x1 x2) h (ix2 r c) 1 (by show (1 : ℕ) < 3; omega) ⟨2, ![a, b]⟩ x1 rfl rfl
    b rfl (ix2 r k)
    (fun d hd => by
      match d with
      | ⟨0, _⟩ => rfl
      | ⟨1, _⟩ => exact absurd rfl hd)
    (by show b + k.val = c.val; omega)

/-- A column inside the third band reads the third piece. -/
theorem join3_third (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = b + b + k.val) :
    concatenate ⟨2, ![a, n]⟩ 1 (pieces x0 x1 x2) h (ix2 r c) = x2 (ix2 r k) :=
  concatenate_apply_piece (t := ⟨2, ![a, n]⟩) 1 (pieces x0 x1 x2) h (ix2 r c) 2 (by show (2 : ℕ) < 3; omega) ⟨2, ![a, b]⟩ x2 rfl rfl
    (b + b) rfl (ix2 r k)
    (fun d hd => by
      match d with
      | ⟨0, _⟩ => rfl
      | ⟨1, _⟩ => exact absurd rfl hd)
    (by show b + b + k.val = c.val; omega)

end Cert.LibConcatBands

end
-- ==== Proof.Features.lean ====
/-
  The kernel's feature stages read at an entry.

  * A band ψ is kept in scratch as a [1, 1024, 1024] array; loaded and cast to [1024, 1024] it is the matrix
    (r, c) ↦ ψ (0, r, c).
  * |ψ · Y| at (n, f) is max s (−s) with s = ∑ k, ψ (n, k) · Y (k, f), for Y of any width.
  * V · Y at (n, f) is ∑ k, V (n, k) · Y (k, f) (the change of format in front of the product is the identity).
  * A sum over the rows of a [1024, 64] array, kept as a [1, 64] row: at (0, f) it is ∑ n, w (n, f).
  * A product against several 64-column arrays laid side by side is, in columns 64·q … 64·q+63, the product against
    the q-th of them: column c of A·Y depends on Y only through Y's column c.
  * Eleven [1, 64] rows stacked: row k of the stack is the k-th of them.
-/
import proofs.«144410_j46334107189751_2_alg».proof.Proof.Tiles
import proofs.«144410_j46334107189751_2_alg».proof.Proof.LibRank2
import proofs.«144410_j46334107189751_2_alg».proof.Proof.LibConcatBands

noncomputable section

namespace Cert.Wavelet.Features

open Idealize.ShloMosaic Idealize.ShloMosaic.ValueIdx
open Cert.KernelIdeal Cert.KernelIdeal.Facts₀ Cert.KernelIdeal.Facts Cert.Wavelet Cert.Wavelet.Tiles

/-- A [1, a, b] array over the extended reals as a matrix. -/
def mat3 {a b : ℕ} {φ : FTy} (v : FVec Ideal ⟨3, ![1, a, b]⟩ φ) : Mat a b := fun r c => v (ix3 (0 : Fin 1) r c)

/-- Dropping the unit axis in front keeps the entries. -/
theorem dropUnit_apply (A : FVec Ideal S1x1024x1024 .bf16) (r c : Fin 1024) :
    shapeCast S1024x1024 A shapeCasts_S1x1024x1024_S1024x1024 (ix2 r c) = mat3 A r c := by
  refine (shapeCast_dropUnit_apply ![1024, 1024] A shapeCasts_S1x1024x1024_S1024x1024 (ix2 r c)).trans ?_
  exact congrArg A (funext fun a => by match a with | ⟨0, _⟩ => rfl | ⟨1, _⟩ => rfl | ⟨2, _⟩ => rfl)

/-- The same for a [1, 1024, 64] array. -/
theorem dropUnit64_apply (Y : FVec Ideal S1x1024x64 .bf16) (r : Fin 1024) (c : Fin 64) :
    shapeCast S1024x64 Y shapeCasts_S1x1024x64_S1024x64 (ix2 r c) = mat3 Y r c := by
  refine (shapeCast_dropUnit_apply ![1024, 64] Y shapeCasts_S1x1024x64_S1024x64 (ix2 r c)).trans ?_
  exact congrArg Y (funext fun a => by match a with | ⟨0, _⟩ => rfl | ⟨1, _⟩ => rfl | ⟨2, _⟩ => rfl)

/-- Column c of A·Y depends on Y only through its column c. -/
theorem scat_col {m m' : ℕ} (A : Mat 1024 1024) (Y : Mat 1024 m) (Y' : Mat 1024 m') (c : Fin m) (c' : Fin m')
    (h : ∀ k, Y k c = Y' k c') (n : Fin 1024) : scat A Y n c = scat A Y' n c' := by
  have e : mmul A Y n c = mmul A Y' n c' := Finset.sum_congr rfl fun k _ => by rw [h k]
  unfold scat
  rw [e]

/-- |ψ · Y| at (n, f), the band loaded from scratch. -/
theorem absProduct_apply {m : ℕ} (d : DotDims S1024x1024 ⟨2, ![1024, m]⟩ ⟨2, ![1024, m]⟩)
    (h1 : d.lhsContracting = [1]) (h2 : d.rhsContracting = [0]) (h3 : d.lhsNonContracting = [0])
    (h4 : d.rhsNonContracting = [1]) (h5 : d.lhsBatch = []) (h6 : d.rhsBatch = [])
    (A : FVec Ideal S1x1024x1024 .bf16) (Y : FVec Ideal ⟨2, ![1024, m]⟩ .bf16) (n : Fin 1024) (f : Fin m) :
    absf (matmul d none (shapeCast S1024x1024 A shapeCasts_S1x1024x1024_S1024x1024) Y
        (constant ⟨2, ![1024, m]⟩ .f32 0x00000000#32)) (ix2 n f)
      = scat (mat3 A) (mat Y) n f := by
  have hM := Cert.LibDenseEntry.matmul_plain_zero_apply d h1 h2 h3 h4 h5 h6 none
    (shapeCast S1024x1024 A shapeCasts_S1x1024x1024_S1024x1024) Y n f
  have e : (∑ k : Fin 1024, shapeCast S1024x1024 A shapeCasts_S1x1024x1024_S1024x1024 (ix2 n k) * Y (ix2 k f))
      = mmul (mat3 A) (mat Y) n f :=
    Finset.sum_congr rfl fun k _ => congrArg (· * Y (ix2 k f)) (dropUnit_apply A n k)
  exact congrArg (fun x : EReal => max x (-x)) (hM.trans e)

/-- V · Y at (n, f), V cast to the narrower format first. -/
theorem product_apply (V : FVec Ideal S1024x1024 .f32) (Y : FVec Ideal S1024x64 .bf16) (n : Fin 1024) (f : Fin 64) :
    matmul dot_S1024x1024_S1024x64_S1024x64_1_0_0_1_n_n none (truncf .bf16 V bitsLt_bf16_f32) Y
        (constant S1024x64 .f32 0x00000000#32) (ix2 n f)
      = mmul (mat V) (mat Y) n f :=
  Cert.LibDenseEntry.matmul_plain_zero_apply dot_S1024x1024_S1024x64_S1024x64_1_0_0_1_n_n rfl rfl rfl rfl rfl rfl none
    (truncf .bf16 V bitsLt_bf16_f32) Y n f

/-- The sum over the rows, kept as a [1, 64] row. -/
theorem colsum_apply (w : FVec Ideal S1024x64 .f32) (u : Fin 1) (f : Fin 64) :
    shapeCast S1x64 (multiReduction .add [0] S64 w 0x00000000#32 reduces_S1024x64_S64 (.inl rfl) rfl) shapeCasts_S64_S1x64
        (ix2 u f)
      = ∑ n : Fin 1024, w (ix2 n f) := by
  refine (shapeCast_addUnit_apply ![64] _ shapeCasts_S64_S1x64 (ix2 u f)).trans ?_
  have e : (fun a : Fin 1 => ix2 u f a.succ) = ix1 f := funext fun a => by match a with | ⟨0, _⟩ => rfl
  rw [e]
  exact Cert.LibRank2.sum_first w 0x00000000#32 reduces_S1024x64_S64 (.inl rfl) rfl f

/-- Columns off … off+63 of a wider array. -/
theorem cols_apply {m : ℕ} (off : ℕ) (hoff : off + 64 ≤ m) (W : FVec Ideal ⟨2, ![1024, m]⟩ .f32)
    (hs : (⟨2, ![1024, m]⟩ : Shape).Slices ![0, off] S1024x64) (n : Fin 1024) (f : Fin 64) :
    extractStridedSlice S1024x64 ![0, off] W hs (ix2 n f) = W (ix2 n (⟨off + f.val, by omega⟩ : Fin m)) :=
  extractStridedSlice_apply ![0, off] W hs (ix2 n f) (ix2 n (⟨off + f.val, by omega⟩ : Fin m)) (fun a => by
    match a with
    | ⟨0, _⟩ => show n.val = 0 + n.val; omega
    | ⟨1, _⟩ => rfl)

/-- Two [1024, 64] arrays, in order. -/
abbrev pair (x0 x1 : FVec Ideal S1024x64 .bf16) : List ((s : Shape) × (s.Idx → EReal)) :=
  [⟨S1024x64, x0⟩, ⟨S1024x64, x1⟩]

/-- Two [1024, 64] arrays side by side: the first 64 columns are the first, the next 64 the second. -/
theorem join2_first (x0 x1 : FVec Ideal S1024x64 .bf16)
    (h : Shape.Concatenates ((pair x0 x1).map (·.1)) S1024x128 1)
    (r : Fin 1024) (c : Fin 128) (k : Fin 64) (hc : c.val = k.val) :
    concatenate S1024x128 1 (pair x0 x1) h (ix2 r c) = x0 (ix2 r k) :=
  concatenate_apply_piece (t := S1024x128) 1 (pair x0 x1) h (ix2 r c) 0 (by show (0 : ℕ) < 2; omega) S1024x64 x0 rfl rfl
    0 rfl (ix2 r k)
    (fun d hd => by
      match d with
      | ⟨0, _⟩ => rfl
      | ⟨1, _⟩ => exact absurd rfl hd)
    (by show 0 + k.val = c.val; omega)

theorem join2_second (x0 x1 : FVec Ideal S1024x64 .bf16)
    (h : Shape.Concatenates ((pair x0 x1).map (·.1)) S1024x128 1)
    (r : Fin 1024) (c : Fin 128) (k : Fin 64) (hc : c.val = 64 + k.val) :
    concatenate S1024x128 1 (pair x0 x1) h (ix2 r c) = x1 (ix2 r k) :=
  concatenate_apply_piece (t := S1024x128) 1 (pair x0 x1) h (ix2 r c) 1 (by show (1 : ℕ) < 2; omega) S1024x64 x1 rfl rfl
    64 rfl (ix2 r k)
    (fun d hd => by
      match d with
      | ⟨0, _⟩ => rfl
      | ⟨1, _⟩ => exact absurd rfl hd)
    (by show 64 + k.val = c.val; omega)

/-- Eleven [1, 64] rows, in order. -/
abbrev rows11 (a : Fin 11 → FVec Ideal S1x64 .f32) : List ((s : Shape) × (s.Idx → EReal)) :=
  [⟨S1x64, a 0⟩, ⟨S1x64, a 1⟩, ⟨S1x64, a 2⟩, ⟨S1x64, a 3⟩, ⟨S1x64, a 4⟩, ⟨S1x64, a 5⟩, ⟨S1x64, a 6⟩, ⟨S1x64, a 7⟩,
    ⟨S1x64, a 8⟩, ⟨S1x64, a 9⟩, ⟨S1x64, a 10⟩]

/-- Row k of the stack of eleven rows is the k-th row. -/
theorem stack11_apply (a : Fin 11 → FVec Ideal S1x64 .f32) (h : Shape.Concatenates ((rows11 a).map (·.1)) S11x64 0)
    (k : Fin 11) (f : Fin 64) :
    concatenate S11x64 0 (rows11 a) h (ix2 k f) = a k (ix2 (0 : Fin 1) f) :=
  match k with
  | ⟨0, _⟩ =>
    concatenate_apply_piece (t := S11x64) 0 (rows11 a) h (ix2 (⟨0, by omega⟩ : Fin 11) f) 0 (by show (0 : ℕ) < 11; omega) S1x64 (a ⟨0, by omega⟩) rfl rfl
      0 rfl (ix2 (0 : Fin 1) f)
      (fun d hd => by
        match d with
        | ⟨0, _⟩ => exact absurd rfl hd
        | ⟨1, _⟩ => rfl)
      (by show 0 + 0 = 0; omega)
  | ⟨1, _⟩ =>
    concatenate_apply_piece (t := S11x64) 0 (rows11 a) h (ix2 (⟨1, by omega⟩ : Fin 11) f) 1 (by show (1 : ℕ) < 11; omega) S1x64 (a ⟨1, by omega⟩) rfl rfl
      1 rfl (ix2 (0 : Fin 1) f)
      (fun d hd => by
        match d with
        | ⟨0, _⟩ => exact absurd rfl hd
        | ⟨1, _⟩ => rfl)
      (by show 1 + 0 = 1; omega)
  | ⟨2, _⟩ =>
    concatenate_apply_piece (t := S11x64) 0 (rows11 a) h (ix2 (⟨2, by omega⟩ : Fin 11) f) 2 (by show (2 : ℕ) < 11; omega) S1x64 (a ⟨2, by omega⟩) rfl rfl
      2 rfl (ix2 (0 : Fin 1) f)
      (fun d hd => by
        match d with
        | ⟨0, _⟩ => exact absurd rfl hd
        | ⟨1, _⟩ => rfl)
      (by show 2 + 0 = 2; omega)
  | ⟨3, _⟩ =>
    concatenate_apply_piece (t := S11x64) 0 (rows11 a) h (ix2 (⟨3, by omega⟩ : Fin 11) f) 3 (by show (3 : ℕ) < 11; omega) S1x64 (a ⟨3, by omega⟩) rfl rfl
      3 rfl (ix2 (0 : Fin 1) f)
      (fun d hd => by
        match d with
        | ⟨0, _⟩ => exact absurd rfl hd
        | ⟨1, _⟩ => rfl)
      (by show 3 + 0 = 3; omega)
  | ⟨4, _⟩ =>
    concatenate_apply_piece (t := S11x64) 0 (rows11 a) h (ix2 (⟨4, by omega⟩ : Fin 11) f) 4 (by show (4 : ℕ) < 11; omega) S1x64 (a ⟨4, by omega⟩) rfl rfl
      4 rfl (ix2 (0 : Fin 1) f)
      (fun d hd => by
        match d with
        | ⟨0, _⟩ => exact absurd rfl hd
        | ⟨1, _⟩ => rfl)
      (by show 4 + 0 = 4; omega)
  | ⟨5, _⟩ =>
    concatenate_apply_piece (t := S11x64) 0 (rows11 a) h (ix2 (⟨5, by omega⟩ : Fin 11) f) 5 (by show (5 : ℕ) < 11; omega) S1x64 (a ⟨5, by omega⟩) rfl rfl
      5 rfl (ix2 (0 : Fin 1) f)
      (fun d hd => by
        match d with
        | ⟨0, _⟩ => exact absurd rfl hd
        | ⟨1, _⟩ => rfl)
      (by show 5 + 0 = 5; omega)
  | ⟨6, _⟩ =>
    concatenate_apply_piece (t := S11x64) 0 (rows11 a) h (ix2 (⟨6, by omega⟩ : Fin 11) f) 6 (by show (6 : ℕ) < 11; omega) S1x64 (a ⟨6, by omega⟩) rfl rfl
      6 rfl (ix2 (0 : Fin 1) f)
      (fun d hd => by
        match d with
        | ⟨0, _⟩ => exact absurd rfl hd
        | ⟨1, _⟩ => rfl)
      (by show 6 + 0 = 6; omega)
  | ⟨7, _⟩ =>
    concatenate_apply_piece (t := S11x64) 0 (rows11 a) h (ix2 (⟨7, by omega⟩ : Fin 11) f) 7 (by show (7 : ℕ) < 11; omega) S1x64 (a ⟨7, by omega⟩) rfl rfl
      7 rfl (ix2 (0 : Fin 1) f)
      (fun d hd => by
        match d with
        | ⟨0, _⟩ => exact absurd rfl hd
        | ⟨1, _⟩ => rfl)
      (by show 7 + 0 = 7; omega)
  | ⟨8, _⟩ =>
    concatenate_apply_piece (t := S11x64) 0 (rows11 a) h (ix2 (⟨8, by omega⟩ : Fin 11) f) 8 (by show (8 : ℕ) < 11; omega) S1x64 (a ⟨8, by omega⟩) rfl rfl
      8 rfl (ix2 (0 : Fin 1) f)
      (fun d hd => by
        match d with
        | ⟨0, _⟩ => exact absurd rfl hd
        | ⟨1, _⟩ => rfl)
      (by show 8 + 0 = 8; omega)
  | ⟨9, _⟩ =>
    concatenate_apply_piece (t := S11x64) 0 (rows11 a) h (ix2 (⟨9, by omega⟩ : Fin 11) f) 9 (by show (9 : ℕ) < 11; omega) S1x64 (a ⟨9, by omega⟩) rfl rfl
      9 rfl (ix2 (0 : Fin 1) f)
      (fun d hd => by
        match d with
        | ⟨0, _⟩ => exact absurd rfl hd
        | ⟨1, _⟩ => rfl)
      (by show 9 + 0 = 9; omega)
  | ⟨10, _⟩ =>
    concatenate_apply_piece (t := S11x64) 0 (rows11 a) h (ix2 (⟨10, by omega⟩ : Fin 11) f) 10 (by show (10 : ℕ) < 11; omega) S1x64 (a ⟨10, by omega⟩) rfl rfl
      10 rfl (ix2 (0 : Fin 1) f)
      (fun d hd => by
        match d with
        | ⟨0, _⟩ => exact absurd rfl hd
        | ⟨1, _⟩ => rfl)
      (by show 10 + 0 = 10; omega)
  | ⟨_ + 11, hk⟩ => absurd hk (by omega)

end Cert.Wavelet.Features

end
-- ==== Proof.BandRows.lean ====
/-
  The band store, piece by piece.

  The kernel keeps its four wavelet bands in one [4, 1024, 1024] scratch array: band j = V·V − V of the j-th power V of
  the transition matrix (V = P, P², P⁴, P⁸) is row j of the array, written as four tiles of 256 rows each. A tile
  stored at rows off … off+255 of row j holds, at its local entry (0, r, c), the band's entry (off + r, c): so every
  piece agrees with ONE function of the array index, y ↦ band (M (y 0)) (y 1) (y 2), M j being the j-th power, and the
  four pieces of a row cover that row.
-/
import proofs.«144410_j46334107189751_2_alg».proof.Proof.Gen.KernelIdeal.Frame
import proofs.«144410_j46334107189751_2_alg».proof.Proof.Tiles
import proofs.«144410_j46334107189751_2_alg».proof.Proof.Features
import proofs.«144410_j46334107189751_2_alg».proof.Proof.Powers
import proofs.«144410_j46334107189751_2_alg».proof.Proof.LibCanonPrefix

set_option maxRecDepth 16384

noncomputable section

namespace Cert.Wavelet.Kernel

open Idealize.ShloMosaic Idealize.ShloMosaic.TcCoe Idealize.ShloMosaic.Tactic Idealize.ShloMosaic.ValueIdx
open Cert.KernelIdeal Cert.KernelIdeal.Gen Cert.Wavelet Cert.Wavelet.Tiles Cert.Wavelet.Features

/-- The band store as one function of its index: row j holds the band of the j-th matrix. -/
def bandAll (Ms : Fin 4 → Mat 1024 1024) (y : S4x1024x1024.Idx) : EReal := band (Ms (y 0)) (y 1) (y 2)

/-- A band tile of the source V, stored at rows off … off+255 of row j, agrees with `bandAll` when the j-th matrix is V. -/
theorem band_tile_at (j : ℕ) (hj : j < 4) (off : ℕ) (hoff : off + 256 ≤ 1024) (hs : S1024x1024.Slices ![off, 0] S256x1024)
    (hinb : ∀ a, (![j, off, 0] : Fin 3 → ℕ) a + S1x256x1024.size a ≤ S4x1024x1024.size a)
    (V : FVec Ideal S1024x1024 .f32) (Ms : Fin 4 → Mat 1024 1024) (hM : mat V = Ms ⟨j, hj⟩)
    (x : (Rect.unit (s := S4x1024x1024) ![j, off, 0] S1x256x1024.size hinb).shape.Idx) :
    bandTile off hs V x = bandAll Ms ((Rect.unit (s := S4x1024x1024) ![j, off, 0] S1x256x1024.size hinb).emb x) := by
  obtain ⟨u, r, cc, rfl⟩ : ∃ (u : Fin 1) (r : Fin 256) (cc : Fin 1024), x = ix3 u r cc := ⟨x 0, x 1, x 2, eq_ix3 x⟩
  refine (bandTile_apply off hoff hs V u r cc).trans ?_
  rw [hM]
  have hu : u.val < 1 := u.isLt
  have e0 : ((Rect.unit (s := S4x1024x1024) ![j, off, 0] S1x256x1024.size hinb).emb (ix3 u r cc)) 0 = (⟨j, hj⟩ : Fin 4) :=
    Fin.ext (by show j + 1 * u.val = j; omega)
  have e1 : ((Rect.unit (s := S4x1024x1024) ![j, off, 0] S1x256x1024.size hinb).emb (ix3 u r cc)) 1 = (⟨off + r.val, by omega⟩ : Fin 1024) :=
    Fin.ext (by show off + 1 * r.val = off + r.val; omega)
  have e2 : ((Rect.unit (s := S4x1024x1024) ![j, off, 0] S1x256x1024.size hinb).emb (ix3 u r cc)) 2 = cc :=
    Fin.ext (by show 0 + 1 * cc.val = cc.val; omega)
  exact (congr (congr (congrArg band (congrArg Ms e0)) e1) e2).symm

/-- Four pieces of 256 rows each at rows 768, 512, 256 and 0 of row j cover row j, whatever they hold. -/
theorem band_row_cover (j : ℕ)
    (h768 : ∀ a, (![j, 768, 0] : Fin 3 → ℕ) a + S1x256x1024.size a ≤ S4x1024x1024.size a)
    (h512 : ∀ a, (![j, 512, 0] : Fin 3 → ℕ) a + S1x256x1024.size a ≤ S4x1024x1024.size a)
    (h256 : ∀ a, (![j, 256, 0] : Fin 3 → ℕ) a + S1x256x1024.size a ≤ S4x1024x1024.size a)
    (h0 : ∀ a, (![j, 0, 0] : Fin 3 → ℕ) a + S1x256x1024.size a ≤ S4x1024x1024.size a)
    (w768 : (Rect.unit (s := S4x1024x1024) ![j, 768, 0] S1x256x1024.size h768).shape.Idx → Elt Ideal .bf16)
    (w512 : (Rect.unit (s := S4x1024x1024) ![j, 512, 0] S1x256x1024.size h512).shape.Idx → Elt Ideal .bf16)
    (w256 : (Rect.unit (s := S4x1024x1024) ![j, 256, 0] S1x256x1024.size h256).shape.Idx → Elt Ideal .bf16)
    (w0 : (Rect.unit (s := S4x1024x1024) ![j, 0, 0] S1x256x1024.size h0).shape.Idx → Elt Ideal .bf16)
    (y : S4x1024x1024.Idx) (hy : (y 0).val = j) :
    ∃ p ∈ ([⟨Rect.unit (s := S4x1024x1024) ![j, 768, 0] S1x256x1024.size h768, w768⟩, ⟨Rect.unit (s := S4x1024x1024) ![j, 512, 0] S1x256x1024.size h512, w512⟩,
        ⟨Rect.unit (s := S4x1024x1024) ![j, 256, 0] S1x256x1024.size h256, w256⟩, ⟨Rect.unit (s := S4x1024x1024) ![j, 0, 0] S1x256x1024.size h0, w0⟩] :
        List (View.Piece (Elt Ideal) S4x1024x1024 .bf16)), y ∈ p.1.set := by
  have h1 : (y 1).val < 1024 := (y 1).isLt
  have h2 : (y 2).val < 1024 := (y 2).isLt
  by_cases c3 : 768 ≤ (y 1).val
  · refine ⟨⟨Rect.unit (s := S4x1024x1024) ![j, 768, 0] S1x256x1024.size h768, w768⟩, List.mem_cons_self, ?_⟩
    show y ∈ (Rect.unit (s := S4x1024x1024) ![j, 768, 0] S1x256x1024.size h768).set
    rw [Rect.mem_set_unit]
    intro a
    match a with
    | ⟨0, _⟩ => show j ≤ (y 0).val ∧ (y 0).val < j + 1; omega
    | ⟨1, _⟩ => show 768 ≤ (y 1).val ∧ (y 1).val < 768 + 256; omega
    | ⟨2, _⟩ => show 0 ≤ (y 2).val ∧ (y 2).val < 0 + 1024; omega
  by_cases c2 : 512 ≤ (y 1).val
  · refine ⟨⟨Rect.unit (s := S4x1024x1024) ![j, 512, 0] S1x256x1024.size h512, w512⟩, List.mem_cons_of_mem _ List.mem_cons_self, ?_⟩
    show y ∈ (Rect.unit (s := S4x1024x1024) ![j, 512, 0] S1x256x1024.size h512).set
    rw [Rect.mem_set_unit]
    intro a
    match a with
    | ⟨0, _⟩ => show j ≤ (y 0).val ∧ (y 0).val < j + 1; omega
    | ⟨1, _⟩ => show 512 ≤ (y 1).val ∧ (y 1).val < 512 + 256; omega
    | ⟨2, _⟩ => show 0 ≤ (y 2).val ∧ (y 2).val < 0 + 1024; omega
  by_cases c1 : 256 ≤ (y 1).val
  · refine ⟨⟨Rect.unit (s := S4x1024x1024) ![j, 256, 0] S1x256x1024.size h256, w256⟩, List.mem_cons_of_mem _ (List.mem_cons_of_mem _ List.mem_cons_self), ?_⟩
    show y ∈ (Rect.unit (s := S4x1024x1024) ![j, 256, 0] S1x256x1024.size h256).set
    rw [Rect.mem_set_unit]
    intro a
    match a with
    | ⟨0, _⟩ => show j ≤ (y 0).val ∧ (y 0).val < j + 1; omega
    | ⟨1, _⟩ => show 256 ≤ (y 1).val ∧ (y 1).val < 256 + 256; omega
    | ⟨2, _⟩ => show 0 ≤ (y 2).val ∧ (y 2).val < 0 + 1024; omega
  · refine ⟨⟨Rect.unit (s := S4x1024x1024) ![j, 0, 0] S1x256x1024.size h0, w0⟩, List.mem_cons_of_mem _ (List.mem_cons_of_mem _ (List.mem_cons_of_mem _ List.mem_cons_self)), ?_⟩
    show y ∈ (Rect.unit (s := S4x1024x1024) ![j, 0, 0] S1x256x1024.size h0).set
    rw [Rect.mem_set_unit]
    intro a
    match a with
    | ⟨0, _⟩ => show j ≤ (y 0).val ∧ (y 0).val < j + 1; omega
    | ⟨1, _⟩ => show 0 ≤ (y 1).val ∧ (y 1).val < 0 + 256; omega
    | ⟨2, _⟩ => show 0 ≤ (y 2).val ∧ (y 2).val < 0 + 1024; omega

/-- The four stores of row 0 of the band store, newest first: the tiles of V·V − V for the transition matrix block `X` (cast to a matrix). -/
def bandRow0 (X : Vec Ideal S1x1x1024x1024 .f32) : List (View.Piece (Elt Ideal) S4x1024x1024 .bf16) :=
  [⟨Rect.unit (s := S4x1024x1024) ![0, 768, 0] S1x256x1024.size Facts₀.inb_S4x1024x1024_S1x256x1024_0_768_0, k0_pay20 (F := Ideal) (k0_pay3 (F := Ideal) X)⟩,
   ⟨Rect.unit (s := S4x1024x1024) ![0, 512, 0] S1x256x1024.size Facts₀.inb_S4x1024x1024_S1x256x1024_0_512_0, k0_pay16 (F := Ideal) (k0_pay14 (F := Ideal) X)⟩,
   ⟨Rect.unit (s := S4x1024x1024) ![0, 256, 0] S1x256x1024.size Facts₀.inb_S4x1024x1024_S1x256x1024_0_256_0, k0_pay11 (F := Ideal) X⟩,
   ⟨Rect.unit (s := S4x1024x1024) ![0, 0, 0] S1x256x1024.size Facts₀.inb_S4x1024x1024_S1x256x1024_0_0_0, k0_pay7 (F := Ideal) X⟩]

/-- Every piece of row 0 holds the band of its source, at the array index under each of its entries. -/
theorem band_row0_pieces (X : Vec Ideal S1x1x1024x1024 .f32) (Ms : Fin 4 → Mat 1024 1024)
    (hM : block4 X = Ms 0) :
    ∀ p ∈ bandRow0 X, ∀ x : p.1.shape.Idx, p.2 x = bandAll Ms (p.1.emb x) := by
  have hM' : mat (k0_pay3 (F := Ideal) X) = Ms 0 := (mat_block0 X).trans hM
  intro p hp
  unfold bandRow0 at hp
  simp only [List.mem_cons, List.not_mem_nil, or_false] at hp
  rcases hp with rfl | rfl | rfl | rfl
  · exact fun x => band_tile_at 0 (by omega) 768 (by omega) Facts₀.slices_S1024x1024_o768_0_S256x1024 Facts₀.inb_S4x1024x1024_S1x256x1024_0_768_0 (k0_pay3 (F := Ideal) X) Ms hM' x
  · exact fun x => band_tile_at 0 (by omega) 512 (by omega) Facts₀.slices_S1024x1024_o512_0_S256x1024 Facts₀.inb_S4x1024x1024_S1x256x1024_0_512_0 (k0_pay3 (F := Ideal) X) Ms hM' x
  · exact fun x => band_tile_at 0 (by omega) 256 (by omega) Facts₀.slices_S1024x1024_o256_0_S256x1024 Facts₀.inb_S4x1024x1024_S1x256x1024_0_256_0 (k0_pay3 (F := Ideal) X) Ms hM' x
  · exact fun x => band_tile_at 0 (by omega) 0 (by omega) Facts₀.slices_S1024x1024_o0_0_S256x1024 Facts₀.inb_S4x1024x1024_S1x256x1024_0_0_0 (k0_pay3 (F := Ideal) X) Ms hM' x

/-- The four pieces of row 0 cover row 0 of the band store. -/
theorem band_row0_cover (X : Vec Ideal S1x1x1024x1024 .f32) (y : S4x1024x1024.Idx) (hy : (y 0).val = 0) :
    ∃ p ∈ bandRow0 X, y ∈ p.1.set :=
  band_row_cover 0 Facts₀.inb_S4x1024x1024_S1x256x1024_0_768_0 Facts₀.inb_S4x1024x1024_S1x256x1024_0_512_0 Facts₀.inb_S4x1024x1024_S1x256x1024_0_256_0 Facts₀.inb_S4x1024x1024_S1x256x1024_0_0_0 _ _ _ _ y hy

/-- The four stores of row 1 of the band store, newest first: the tiles of V·V − V for the matrix `V`. -/
def bandRow1 (V : Vec Ideal S1024x1024 .f32) : List (View.Piece (Elt Ideal) S4x1024x1024 .bf16) :=
  [⟨Rect.unit (s := S4x1024x1024) ![1, 768, 0] S1x256x1024.size Facts₀.inb_S4x1024x1024_S1x256x1024_1_768_0, k0_pay40 (F := Ideal) V⟩,
   ⟨Rect.unit (s := S4x1024x1024) ![1, 512, 0] S1x256x1024.size Facts₀.inb_S4x1024x1024_S1x256x1024_1_512_0, k0_pay36 (F := Ideal) V⟩,
   ⟨Rect.unit (s := S4x1024x1024) ![1, 256, 0] S1x256x1024.size Facts₀.inb_S4x1024x1024_S1x256x1024_1_256_0, k0_pay32 (F := Ideal) V⟩,
   ⟨Rect.unit (s := S4x1024x1024) ![1, 0, 0] S1x256x1024.size Facts₀.inb_S4x1024x1024_S1x256x1024_1_0_0, k0_pay28 (F := Ideal) (k0_pay27 (F := Ideal) V)⟩]

/-- Every piece of row 1 holds the band of its source, at the array index under each of its entries. -/
theorem band_row1_pieces (V : Vec Ideal S1024x1024 .f32) (Ms : Fin 4 → Mat 1024 1024)
    (hM : mat (φ := .f32) V = Ms 1) :
    ∀ p ∈ bandRow1 V, ∀ x : p.1.shape.Idx, p.2 x = bandAll Ms (p.1.emb x) := by
  intro p hp
  unfold bandRow1 at hp
  simp only [List.mem_cons, List.not_mem_nil, or_false] at hp
  rcases hp with rfl | rfl | rfl | rfl
  · exact fun x => band_tile_at 1 (by omega) 768 (by omega) Facts₀.slices_S1024x1024_o768_0_S256x1024 Facts₀.inb_S4x1024x1024_S1x256x1024_1_768_0 V Ms hM x
  · exact fun x => band_tile_at 1 (by omega) 512 (by omega) Facts₀.slices_S1024x1024_o512_0_S256x1024 Facts₀.inb_S4x1024x1024_S1x256x1024_1_512_0 V Ms hM x
  · exact fun x => band_tile_at 1 (by omega) 256 (by omega) Facts₀.slices_S1024x1024_o256_0_S256x1024 Facts₀.inb_S4x1024x1024_S1x256x1024_1_256_0 V Ms hM x
  · exact fun x => band_tile_at 1 (by omega) 0 (by omega) Facts₀.slices_S1024x1024_o0_0_S256x1024 Facts₀.inb_S4x1024x1024_S1x256x1024_1_0_0 V Ms hM x

/-- The four pieces of row 1 cover row 1 of the band store. -/
theorem band_row1_cover (V : Vec Ideal S1024x1024 .f32) (y : S4x1024x1024.Idx) (hy : (y 0).val = 1) :
    ∃ p ∈ bandRow1 V, y ∈ p.1.set :=
  band_row_cover 1 Facts₀.inb_S4x1024x1024_S1x256x1024_1_768_0 Facts₀.inb_S4x1024x1024_S1x256x1024_1_512_0 Facts₀.inb_S4x1024x1024_S1x256x1024_1_256_0 Facts₀.inb_S4x1024x1024_S1x256x1024_1_0_0 _ _ _ _ y hy

/-- The four stores of row 2 of the band store, newest first: the tiles of V·V − V for the matrix `V`. -/
def bandRow2 (V : Vec Ideal S1024x1024 .f32) : List (View.Piece (Elt Ideal) S4x1024x1024 .bf16) :=
  [⟨Rect.unit (s := S4x1024x1024) ![2, 768, 0] S1x256x1024.size Facts₀.inb_S4x1024x1024_S1x256x1024_2_768_0, k0_pay59 (F := Ideal) V⟩,
   ⟨Rect.unit (s := S4x1024x1024) ![2, 512, 0] S1x256x1024.size Facts₀.inb_S4x1024x1024_S1x256x1024_2_512_0, k0_pay55 (F := Ideal) V (k0_pay52 (F := Ideal) V)⟩,
   ⟨Rect.unit (s := S4x1024x1024) ![2, 256, 0] S1x256x1024.size Facts₀.inb_S4x1024x1024_S1x256x1024_2_256_0, k0_pay51 (F := Ideal) V⟩,
   ⟨Rect.unit (s := S4x1024x1024) ![2, 0, 0] S1x256x1024.size Facts₀.inb_S4x1024x1024_S1x256x1024_2_0_0, k0_pay47 (F := Ideal) V⟩]

/-- Every piece of row 2 holds the band of its source, at the array index under each of its entries. -/
theorem band_row2_pieces (V : Vec Ideal S1024x1024 .f32) (Ms : Fin 4 → Mat 1024 1024)
    (hM : mat (φ := .f32) V = Ms 2) :
    ∀ p ∈ bandRow2 V, ∀ x : p.1.shape.Idx, p.2 x = bandAll Ms (p.1.emb x) := by
  intro p hp
  unfold bandRow2 at hp
  simp only [List.mem_cons, List.not_mem_nil, or_false] at hp
  rcases hp with rfl | rfl | rfl | rfl
  · exact fun x => band_tile_at 2 (by omega) 768 (by omega) Facts₀.slices_S1024x1024_o768_0_S256x1024 Facts₀.inb_S4x1024x1024_S1x256x1024_2_768_0 V Ms hM x
  · exact fun x => band_tile_at 2 (by omega) 512 (by omega) Facts₀.slices_S1024x1024_o512_0_S256x1024 Facts₀.inb_S4x1024x1024_S1x256x1024_2_512_0 V Ms hM x
  · exact fun x => band_tile_at 2 (by omega) 256 (by omega) Facts₀.slices_S1024x1024_o256_0_S256x1024 Facts₀.inb_S4x1024x1024_S1x256x1024_2_256_0 V Ms hM x
  · exact fun x => band_tile_at 2 (by omega) 0 (by omega) Facts₀.slices_S1024x1024_o0_0_S256x1024 Facts₀.inb_S4x1024x1024_S1x256x1024_2_0_0 V Ms hM x

/-- The four pieces of row 2 cover row 2 of the band store. -/
theorem band_row2_cover (V : Vec Ideal S1024x1024 .f32) (y : S4x1024x1024.Idx) (hy : (y 0).val = 2) :
    ∃ p ∈ bandRow2 V, y ∈ p.1.set :=
  band_row_cover 2 Facts₀.inb_S4x1024x1024_S1x256x1024_2_768_0 Facts₀.inb_S4x1024x1024_S1x256x1024_2_512_0 Facts₀.inb_S4x1024x1024_S1x256x1024_2_256_0 Facts₀.inb_S4x1024x1024_S1x256x1024_2_0_0 _ _ _ _ y hy

/-- The four stores of row 3 of the band store, newest first: the tiles of V·V − V for the matrix `V`. -/
def bandRow3 (V : Vec Ideal S1024x1024 .f32) : List (View.Piece (Elt Ideal) S4x1024x1024 .bf16) :=
  [⟨Rect.unit (s := S4x1024x1024) ![3, 768, 0] S1x256x1024.size Facts₀.inb_S4x1024x1024_S1x256x1024_3_768_0, k0_pay79 (F := Ideal) (k0_pay77 (F := Ideal) V)⟩,
   ⟨Rect.unit (s := S4x1024x1024) ![3, 512, 0] S1x256x1024.size Facts₀.inb_S4x1024x1024_S1x256x1024_3_512_0, k0_pay74 (F := Ideal) V⟩,
   ⟨Rect.unit (s := S4x1024x1024) ![3, 256, 0] S1x256x1024.size Facts₀.inb_S4x1024x1024_S1x256x1024_3_256_0, k0_pay70 (F := Ideal) V⟩,
   ⟨Rect.unit (s := S4x1024x1024) ![3, 0, 0] S1x256x1024.size Facts₀.inb_S4x1024x1024_S1x256x1024_3_0_0, k0_pay66 (F := Ideal) (k0_pay63 (F := Ideal) V) (k0_pay64 (F := Ideal) V)⟩]

/-- Every piece of row 3 holds the band of its source, at the array index under each of its entries. -/
theorem band_row3_pieces (V : Vec Ideal S1024x1024 .f32) (Ms : Fin 4 → Mat 1024 1024)
    (hM : mat (φ := .f32) V = Ms 3) :
    ∀ p ∈ bandRow3 V, ∀ x : p.1.shape.Idx, p.2 x = bandAll Ms (p.1.emb x) := by
  intro p hp
  unfold bandRow3 at hp
  simp only [List.mem_cons, List.not_mem_nil, or_false] at hp
  rcases hp with rfl | rfl | rfl | rfl
  · exact fun x => band_tile_at 3 (by omega) 768 (by omega) Facts₀.slices_S1024x1024_o768_0_S256x1024 Facts₀.inb_S4x1024x1024_S1x256x1024_3_768_0 V Ms hM x
  · exact fun x => band_tile_at 3 (by omega) 512 (by omega) Facts₀.slices_S1024x1024_o512_0_S256x1024 Facts₀.inb_S4x1024x1024_S1x256x1024_3_512_0 V Ms hM x
  · exact fun x => band_tile_at 3 (by omega) 256 (by omega) Facts₀.slices_S1024x1024_o256_0_S256x1024 Facts₀.inb_S4x1024x1024_S1x256x1024_3_256_0 V Ms hM x
  · exact fun x => band_tile_at 3 (by omega) 0 (by omega) Facts₀.slices_S1024x1024_o0_0_S256x1024 Facts₀.inb_S4x1024x1024_S1x256x1024_3_0_0 V Ms hM x

/-- The four pieces of row 3 cover row 3 of the band store. -/
theorem band_row3_cover (V : Vec Ideal S1024x1024 .f32) (y : S4x1024x1024.Idx) (hy : (y 0).val = 3) :
    ∃ p ∈ bandRow3 V, y ∈ p.1.set :=
  band_row_cover 3 Facts₀.inb_S4x1024x1024_S1x256x1024_3_768_0 Facts₀.inb_S4x1024x1024_S1x256x1024_3_512_0 Facts₀.inb_S4x1024x1024_S1x256x1024_3_256_0 Facts₀.inb_S4x1024x1024_S1x256x1024_3_0_0 _ _ _ _ y hy

end Cert.Wavelet.Kernel

end
-- ==== Proof.BandReads.lean ====
/-
  What the kernel's loads of the band store read back.

  Each squaring round writes one row of the [4, 1024, 1024] band store (four tiles) and then loads that row; after the
  four rounds the second-order stage loads rows 0, 1 and 2 again. A load of row j reads, at (0, r, c), the array's
  contents at (j, r, c): the payload of the newest piece holding that index. The pieces of row j all hold the band of
  the j-th power of the transition matrix, and later rounds write other rows only, so every load of row j reads the
  band ψ_j — whichever rows had been written when it was issued.
-/
import proofs.«144410_j46334107189751_2_alg».proof.Proof.BandRows

set_option maxRecDepth 16384

noncomputable section

namespace Cert.Wavelet.Kernel

open Idealize.ShloMosaic Idealize.ShloMosaic.TcCoe Idealize.ShloMosaic.Tactic Idealize.ShloMosaic.ValueIdx
open Cert.KernelIdeal Cert.KernelIdeal.Gen Cert.Wavelet Cert.Wavelet.Tiles Cert.Wavelet.Features

/-- The array index under entry (0, r, c) of a load of row j. -/
theorem band_idx (j : ℕ) (hj : j < 4)
    (hinb : ∀ a, (![j, 0, 0] : Fin 3 → ℕ) a + S1x1024x1024.size a ≤ S4x1024x1024.size a) (r cc : Fin 1024) :
    (Rect.unit (s := S4x1024x1024) ![j, 0, 0] S1x1024x1024.size hinb).toLoadRect.idx (ix3 (0 : Fin 1) r cc) = ix3 (⟨j, hj⟩ : Fin 4) r cc :=
  funext fun a => Fin.ext (by
    match a with
    | ⟨0, _⟩ => show j + 1 * 0 = j; omega
    | ⟨1, _⟩ => show 0 + 1 * r.val = r.val; omega
    | ⟨2, _⟩ => show 0 + 1 * cc.val = cc.val; omega)

/-- A load of row j after the writes L₁ ++ L₂, newest first: when every piece of L₁ holds `bandAll Ms` and the pieces
    of L₁ cover row j, the load reads the band of the j-th matrix — whatever the older writes L₂ were. -/
theorem band_read_row {κ : Kind} {sp : Space} (v : View sig κ sp S4x1024x1024 .bf16) (j : ℕ) (hj : j < 4)
    (hinb : ∀ a, (![j, 0, 0] : Fin 3 → ℕ) a + S1x1024x1024.size a ≤ S4x1024x1024.size a)
    (L L₁ L₂ : List (View.Piece (Elt Ideal) S4x1024x1024 .bf16)) (hL : L = L₁ ++ L₂) (Ms : Fin 4 → Mat 1024 1024)
    (hp : ∀ p ∈ L₁, ∀ x : p.1.shape.Idx, p.2 x = bandAll Ms (p.1.emb x))
    (hc : ∀ y : S4x1024x1024.Idx, (y 0).val = j → ∃ p ∈ L₁, y ∈ p.1.set) :
    mat3 (φ := .bf16) (v.readCov L (Rect.unit (s := S4x1024x1024) ![j, 0, 0] S1x1024x1024.size hinb).toLoadRect) = band (Ms ⟨j, hj⟩) := by
  subst hL
  funext r cc
  show v.readCov (L₁ ++ L₂) (Rect.unit (s := S4x1024x1024) ![j, 0, 0] S1x1024x1024.size hinb).toLoadRect (ix3 (0 : Fin 1) r cc) = _
  rw [Cert.LibCanonPrefix.readCov_apply, band_idx j hj hinb r cc]
  exact Cert.LibCanonPrefix.canon_append_of_pieces (bandAll Ms) L₁ L₂ hp (ix3 (⟨j, hj⟩ : Fin 4) r cc) (hc (ix3 (⟨j, hj⟩ : Fin 4) r cc) rfl)

section reads

variable (c : Dev nD) (arg2 : Memref sig .tc .vmem S1x1x1024x1024 .f32) (harg2 : arg2.IsWhole)
  (arg5 arg6 : Memref sig .tc .vmem S1024x1024 .f32) (arg7 : Memref sig .tc .vmem S4x1024x1024 .bf16)
  (x0 : Vec Ideal S1x1x1024x1024 .f32)

/-! ## The band store after each round, row by row -/

theorem band_store4 : kernelRun0_A.sl.HS2_4 (F := Ideal) c arg2 harg2 x0 = bandRow0 x0 ++ [] := by
  unfold kernelRun0_A.sl.HS2_4 kernelRun0_A.sl.r_1 kernelRun0_A.sl.r_2
  generalize hX : View.readAt (Elt Ideal) arg2.view _ (harg2.unread x0) = X
  obtain rfl : X = x0 := hX.symm.trans (load_block0 arg2 harg2 x0)
  rfl

theorem band_store8 : kernelRun0_A.sl.HS2_8 (F := Ideal) c arg2 harg2 arg6 x0 = bandRow1 (kernelRun0_A.sl.v55 (F := Ideal) c arg2 harg2 arg6 x0) ++ (bandRow0 x0 ++ []) := by
  unfold kernelRun0_A.sl.HS2_8
  rw [band_store4]
  rfl

theorem band_store12 : kernelRun0_A.sl.HS2_12 (F := Ideal) c arg2 harg2 arg5 arg6 x0
    = bandRow2 (kernelRun0_A.sl.v106 (F := Ideal) c arg2 harg2 arg5 arg6 x0) ++ (bandRow1 (kernelRun0_A.sl.v55 (F := Ideal) c arg2 harg2 arg6 x0) ++ (bandRow0 x0 ++ [])) := by
  unfold kernelRun0_A.sl.HS2_12
  rw [band_store8]
  rfl

theorem band_store16 : kernelRun0_A.sl.HS2_16 (F := Ideal) c arg2 harg2 arg5 arg6 x0
    = bandRow3 (kernelRun0_A.sl.v157 (F := Ideal) c arg2 harg2 arg5 arg6 x0) ++ (bandRow2 (kernelRun0_A.sl.v106 (F := Ideal) c arg2 harg2 arg5 arg6 x0) ++ (bandRow1 (kernelRun0_A.sl.v55 (F := Ideal) c arg2 harg2 arg6 x0) ++ (bandRow0 x0 ++ []))) := by
  unfold kernelRun0_A.sl.HS2_16
  rw [band_store12]
  rfl

/-! ## Each round's load of its own row -/

/-- Round 0 reads back ψ₀ = P·P − P. -/
theorem band45 : mat3 (φ := .bf16) (kernelRun0_A.sl.v45 (F := Ideal) c arg2 harg2 arg7 x0) = psi0 (block4 x0) := by
  unfold kernelRun0_A.sl.v45
  exact band_read_row arg7.view 0 (by omega) Facts₀.inb_S4x1024x1024_S1x1024x1024_0_0_0 _ (bandRow0 x0) [] (band_store4 c arg2 harg2 x0)
    (fun _ => block4 x0) (band_row0_pieces x0 _ rfl) (fun y hy => band_row0_cover x0 y hy)

/-- Round 1 reads back ψ₁, the band of P². -/
theorem band96 (h55 : mat (φ := .f32) (kernelRun0_A.sl.v55 (F := Ideal) c arg2 harg2 arg6 x0) = pow1 (block4 x0)) :
    mat3 (φ := .bf16) (kernelRun0_A.sl.v96 (F := Ideal) c arg2 harg2 arg6 arg7 x0) = psi1 (block4 x0) := by
  unfold kernelRun0_A.sl.v96
  exact band_read_row arg7.view 1 (by omega) Facts₀.inb_S4x1024x1024_S1x1024x1024_1_0_0 _ (bandRow1 (kernelRun0_A.sl.v55 (F := Ideal) c arg2 harg2 arg6 x0)) _ (band_store8 c arg2 harg2 arg6 x0)
    (fun _ => pow1 (block4 x0)) (band_row1_pieces _ _ h55) (fun y hy => band_row1_cover _ y hy)

/-- Round 2 reads back ψ₂, the band of P⁴. -/
theorem band147 (h106 : mat (φ := .f32) (kernelRun0_A.sl.v106 (F := Ideal) c arg2 harg2 arg5 arg6 x0) = pow2 (block4 x0)) :
    mat3 (φ := .bf16) (kernelRun0_A.sl.v147 (F := Ideal) c arg2 harg2 arg5 arg6 arg7 x0) = psi2 (block4 x0) := by
  unfold kernelRun0_A.sl.v147
  exact band_read_row arg7.view 2 (by omega) Facts₀.inb_S4x1024x1024_S1x1024x1024_2_0_0 _ (bandRow2 (kernelRun0_A.sl.v106 (F := Ideal) c arg2 harg2 arg5 arg6 x0)) _ (band_store12 c arg2 harg2 arg5 arg6 x0)
    (fun _ => pow2 (block4 x0)) (band_row2_pieces _ _ h106) (fun y hy => band_row2_cover _ y hy)

/-- Round 3 reads back ψ₃, the band of P⁸. -/
theorem band198 (h157 : mat (φ := .f32) (kernelRun0_A.sl.v157 (F := Ideal) c arg2 harg2 arg5 arg6 x0) = pow3 (block4 x0)) :
    mat3 (φ := .bf16) (kernelRun0_A.sl.v198 (F := Ideal) c arg2 harg2 arg5 arg6 arg7 x0) = psi3 (block4 x0) := by
  unfold kernelRun0_A.sl.v198
  exact band_read_row arg7.view 3 (by omega) Facts₀.inb_S4x1024x1024_S1x1024x1024_3_0_0 _ (bandRow3 (kernelRun0_A.sl.v157 (F := Ideal) c arg2 harg2 arg5 arg6 x0)) _ (band_store16 c arg2 harg2 arg5 arg6 x0)
    (fun _ => pow3 (block4 x0)) (band_row3_pieces _ _ h157) (fun y hy => band_row3_cover _ y hy)

/-! ## The loads of the full store -/

/-- The four powers whose bands the store's rows hold. -/
def bandMats (P : Mat 1024 1024) : Fin 4 → Mat 1024 1024 := ![P, pow1 P, pow2 P, pow3 P]

theorem bandMats_zero (P : Mat 1024 1024) : bandMats P ⟨0, by omega⟩ = P := rfl
theorem bandMats_one (P : Mat 1024 1024) : bandMats P ⟨1, by omega⟩ = pow1 P := rfl
theorem bandMats_two (P : Mat 1024 1024) : bandMats P ⟨2, by omega⟩ = pow2 P := rfl

/-- After the four rounds every piece of the store holds the band of its row's power. -/
theorem band_all_pieces (h55 : mat (φ := .f32) (kernelRun0_A.sl.v55 (F := Ideal) c arg2 harg2 arg6 x0) = pow1 (block4 x0)) (h106 : mat (φ := .f32) (kernelRun0_A.sl.v106 (F := Ideal) c arg2 harg2 arg5 arg6 x0) = pow2 (block4 x0))
    (h157 : mat (φ := .f32) (kernelRun0_A.sl.v157 (F := Ideal) c arg2 harg2 arg5 arg6 x0) = pow3 (block4 x0)) :
    ∀ p ∈ bandRow3 (kernelRun0_A.sl.v157 (F := Ideal) c arg2 harg2 arg5 arg6 x0) ++ (bandRow2 (kernelRun0_A.sl.v106 (F := Ideal) c arg2 harg2 arg5 arg6 x0) ++ (bandRow1 (kernelRun0_A.sl.v55 (F := Ideal) c arg2 harg2 arg6 x0) ++ (bandRow0 x0 ++ []))),
      ∀ x : p.1.shape.Idx, p.2 x = bandAll (bandMats (block4 x0)) (p.1.emb x) := by
  intro p hp
  rcases List.mem_append.mp hp with h | hp
  · exact band_row3_pieces _ _ h157 p h
  rcases List.mem_append.mp hp with h | hp
  · exact band_row2_pieces _ _ h106 p h
  rcases List.mem_append.mp hp with h | hp
  · exact band_row1_pieces _ _ h55 p h
  rcases List.mem_append.mp hp with h | hp
  · exact band_row0_pieces x0 _ rfl p h
  · exact absurd hp List.not_mem_nil

/-- A load of row j of the full store reads the band of the j-th power. -/
theorem band_read_full (j : ℕ) (hj : j < 4)
    (hinb : ∀ a, (![j, 0, 0] : Fin 3 → ℕ) a + S1x1024x1024.size a ≤ S4x1024x1024.size a)
    (h55 : mat (φ := .f32) (kernelRun0_A.sl.v55 (F := Ideal) c arg2 harg2 arg6 x0) = pow1 (block4 x0)) (h106 : mat (φ := .f32) (kernelRun0_A.sl.v106 (F := Ideal) c arg2 harg2 arg5 arg6 x0) = pow2 (block4 x0))
    (h157 : mat (φ := .f32) (kernelRun0_A.sl.v157 (F := Ideal) c arg2 harg2 arg5 arg6 x0) = pow3 (block4 x0)) :
    mat3 (φ := .bf16) (arg7.view.readCov (kernelRun0_A.sl.HS2_16 (F := Ideal) c arg2 harg2 arg5 arg6 x0)
        (Rect.unit (s := S4x1024x1024) ![j, 0, 0] S1x1024x1024.size hinb).toLoadRect) = band (bandMats (block4 x0) ⟨j, hj⟩) := by
  refine band_read_row arg7.view j hj hinb _ (bandRow3 (kernelRun0_A.sl.v157 (F := Ideal) c arg2 harg2 arg5 arg6 x0) ++ (bandRow2 (kernelRun0_A.sl.v106 (F := Ideal) c arg2 harg2 arg5 arg6 x0) ++ (bandRow1 (kernelRun0_A.sl.v55 (F := Ideal) c arg2 harg2 arg6 x0) ++ (bandRow0 x0 ++ [])))) []
    ((band_store16 c arg2 harg2 arg5 arg6 x0).trans (List.append_nil _).symm) (bandMats (block4 x0))
    (band_all_pieces c arg2 harg2 arg5 arg6 x0 h55 h106 h157) (fun y hy => ?_)
  have hy0 : (y 0).val < 4 := (y 0).isLt
  by_cases e3 : (y 0).val = 3
  · obtain ⟨p, hp, hyp⟩ := band_row3_cover (kernelRun0_A.sl.v157 (F := Ideal) c arg2 harg2 arg5 arg6 x0) y e3
    exact ⟨p, List.mem_append_left _ hp, hyp⟩
  by_cases e2 : (y 0).val = 2
  · obtain ⟨p, hp, hyp⟩ := band_row2_cover (kernelRun0_A.sl.v106 (F := Ideal) c arg2 harg2 arg5 arg6 x0) y e2
    exact ⟨p, List.mem_append_right _ (List.mem_append_left _ hp), hyp⟩
  by_cases e1 : (y 0).val = 1
  · obtain ⟨p, hp, hyp⟩ := band_row1_cover (kernelRun0_A.sl.v55 (F := Ideal) c arg2 harg2 arg6 x0) y e1
    exact ⟨p, List.mem_append_right _ (List.mem_append_right _ (List.mem_append_left _ hp)), hyp⟩
  · obtain ⟨p, hp, hyp⟩ := band_row0_cover x0 y (by omega)
    exact ⟨p, List.mem_append_right _ (List.mem_append_right _ (List.mem_append_right _ (List.mem_append_left _ hp))), hyp⟩

variable (h55 : mat (φ := .f32) (kernelRun0_A.sl.v55 (F := Ideal) c arg2 harg2 arg6 x0) = pow1 (block4 x0)) (h106 : mat (φ := .f32) (kernelRun0_A.sl.v106 (F := Ideal) c arg2 harg2 arg5 arg6 x0) = pow2 (block4 x0))
  (h157 : mat (φ := .f32) (kernelRun0_A.sl.v157 (F := Ideal) c arg2 harg2 arg5 arg6 x0) = pow3 (block4 x0))

include h55 h106 h157

/-- The second-order stage reads ψ₀ again. -/
theorem band220 : mat3 (φ := .bf16) (kernelRun0_A.sl.v220 (F := Ideal) c arg2 harg2 arg5 arg6 arg7 x0) = psi0 (block4 x0) := by
  unfold kernelRun0_A.sl.v220
  exact (band_read_full c arg2 harg2 arg5 arg6 arg7 x0 0 (by omega) Facts₀.inb_S4x1024x1024_S1x1024x1024_0_0_0 h55 h106 h157).trans
    (congrArg band (bandMats_zero (block4 x0)))

/-- … and ψ₁ … -/
theorem band238 : mat3 (φ := .bf16) (kernelRun0_A.sl.v238 (F := Ideal) c arg2 harg2 arg5 arg6 arg7 x0) = psi1 (block4 x0) := by
  unfold kernelRun0_A.sl.v238
  exact (band_read_full c arg2 harg2 arg5 arg6 arg7 x0 1 (by omega) Facts₀.inb_S4x1024x1024_S1x1024x1024_1_0_0 h55 h106 h157).trans
    (congrArg band (bandMats_one (block4 x0)))

/-- … and ψ₂. -/
theorem band250 : mat3 (φ := .bf16) (kernelRun0_A.sl.v250 (F := Ideal) c arg2 harg2 arg5 arg6 arg7 x0) = psi2 (block4 x0) := by
  unfold kernelRun0_A.sl.v250
  exact (band_read_full c arg2 harg2 arg5 arg6 arg7 x0 2 (by omega) Facts₀.inb_S4x1024x1024_S1x1024x1024_2_0_0 h55 h106 h157).trans
    (congrArg band (bandMats_two (block4 x0)))

end reads

end Cert.Wavelet.Kernel

end
-- ==== Proof.FeatureRows.lean ====
/-
  The kernel's scattering stores and its output block, read at an entry.

  * A first-order scattering array |ψ·X| is stored with a unit axis in front: entry (u, n, f) is |ψ·X| at (n, f).
  * The output block of a grid point is a [1, 1, 11, 64] array: eleven [1, 64] rows stacked, row k holding, at
    column f, the sum over the 1024 nodes of feature array k at (n, f). Row 0 sums P¹⁶·X; rows 1–4 sum |ψ_j·X|;
    the second-order rows come from products against several first-order arrays laid side by side — columns
    64·q … 64·q+63 of |ψ·[Y₀ Y₁ …]| are |ψ·Y_q|, because column c of a product depends on the right factor only
    through its column c — and the last row sums |ψ₂·s₃|.
-/
import proofs.«144410_j46334107189751_2_alg».proof.Proof.Gen.KernelIdeal.Skeleton
import proofs.«144410_j46334107189751_2_alg».proof.Proof.Features

noncomputable section

namespace Cert.Wavelet.Rows

open Idealize.ShloMosaic Idealize.ShloMosaic.ValueIdx
open Cert.KernelIdeal Cert.KernelIdeal.Gen Cert.Wavelet Cert.Wavelet.Tiles Cert.Wavelet.Features

/-! ### The stored first-order arrays -/

/-- |ψ·Y| stored with a unit axis in front: entry (u, n, f) is entry (n, f) of |ψ·Y|. -/
theorem absStore_apply (x2 : FVec Ideal S1024x64 .bf16) (A : FVec Ideal S1x1024x1024 .bf16) (u : Fin 1)
    (n : Fin 1024) (f : Fin 64) :
    shapeCast S1x1024x64
        (truncf .bf16 (absf (matmul dot_S1024x1024_S1024x64_S1024x64_1_0_0_1_n_n none
          (shapeCast S1024x1024 A Facts₀.shapeCasts_S1x1024x1024_S1024x1024) x2 (constant S1024x64 .f32 0x00000000#32)))
          bitsLt_bf16_f32)
        Facts₀.shapeCasts_S1024x64_S1x1024x64 (ix3 u n f)
      = scat (mat3 A) (mat x2) n f := by
  refine (shapeCast_addUnit_apply ![1024, 64] _ Facts₀.shapeCasts_S1024x64_S1x1024x64 (ix3 u n f)).trans ?_
  have e : (fun a : Fin 2 => ix3 u n f a.succ) = ix2 n f :=
    funext fun a => by match a with | ⟨0, _⟩ => rfl | ⟨1, _⟩ => rfl
  rw [e]
  exact absProduct_apply dot_S1024x1024_S1024x64_S1024x64_1_0_0_1_n_n rfl rfl rfl rfl rfl rfl A x2 n f

/-- The stored s₀ = |ψ₀·X|. -/
theorem scStore23 (x2 : FVec Ideal S1024x64 .bf16) (A : Vec Ideal S1x1024x1024 .bf16) (u : Fin 1) (n : Fin 1024)
    (f : Fin 64) : k0_pay23 (F := Ideal) x2 A (ix3 u n f) = scat (mat3 (φ := .bf16) A) (mat x2) n f :=
  absStore_apply x2 A u n f

/-- The stored s₁ = |ψ₁·X|. -/
theorem scStore43 (x2 : FVec Ideal S1024x64 .bf16) (A : Vec Ideal S1x1024x1024 .bf16) (u : Fin 1) (n : Fin 1024)
    (f : Fin 64) : k0_pay43 (F := Ideal) x2 A (ix3 u n f) = scat (mat3 (φ := .bf16) A) (mat x2) n f :=
  absStore_apply x2 A u n f

/-- The stored s₂ = |ψ₂·X|. -/
theorem scStore62 (x2 : FVec Ideal S1024x64 .bf16) (A : Vec Ideal S1x1024x1024 .bf16) (u : Fin 1) (n : Fin 1024)
    (f : Fin 64) : k0_pay62 (F := Ideal) x2 A (ix3 u n f) = scat (mat3 (φ := .bf16) A) (mat x2) n f :=
  absStore_apply x2 A u n f

/-- The stored s₃ = |ψ₃·X|. -/
theorem scStore82 (x2 : FVec Ideal S1024x64 .bf16) (A : Vec Ideal S1x1024x1024 .bf16) (u : Fin 1) (n : Fin 1024)
    (f : Fin 64) : k0_pay82 (F := Ideal) x2 A (ix3 u n f) = scat (mat3 (φ := .bf16) A) (mat x2) n f :=
  absStore_apply x2 A u n f

/-! ### One row of the output block -/

/-- The sum over the nodes of |ψ·Y|, as a [1, 64] row. -/
theorem absSum_apply (x2 : FVec Ideal S1024x64 .bf16) (A : FVec Ideal S1x1024x1024 .bf16) (u : Fin 1) (f : Fin 64) :
    shapeCast S1x64 (multiReduction .add [0] S64
        (absf (matmul dot_S1024x1024_S1024x64_S1024x64_1_0_0_1_n_n none
          (shapeCast S1024x1024 A Facts₀.shapeCasts_S1x1024x1024_S1024x1024) x2 (constant S1024x64 .f32 0x00000000#32)))
        0x00000000#32 Facts₀.reduces_S1024x64_S64 (.inl rfl) rfl) Facts₀.shapeCasts_S64_S1x64 (ix2 u f)
      = ∑ n : Fin 1024, scat (mat3 A) (mat x2) n f :=
  (colsum_apply _ u f).trans (Finset.sum_congr rfl fun n _ =>
    absProduct_apply dot_S1024x1024_S1024x64_S1024x64_1_0_0_1_n_n rfl rfl rfl rfl rfl rfl A x2 n f)

/-- The same when the right factor is itself kept with a unit axis in front. -/
theorem absSum3_apply (Y : FVec Ideal S1x1024x64 .bf16) (A : FVec Ideal S1x1024x1024 .bf16) (u : Fin 1) (f : Fin 64) :
    shapeCast S1x64 (multiReduction .add [0] S64
        (absf (matmul dot_S1024x1024_S1024x64_S1024x64_1_0_0_1_n_n none
          (shapeCast S1024x1024 A Facts₀.shapeCasts_S1x1024x1024_S1024x1024)
          (shapeCast S1024x64 Y Facts₀.shapeCasts_S1x1024x64_S1024x64) (constant S1024x64 .f32 0x00000000#32)))
        0x00000000#32 Facts₀.reduces_S1024x64_S64 (.inl rfl) rfl) Facts₀.shapeCasts_S64_S1x64 (ix2 u f)
      = ∑ n : Fin 1024, scat (mat3 A) (mat3 Y) n f :=
  (absSum_apply (shapeCast S1024x64 Y Facts₀.shapeCasts_S1x1024x64_S1024x64) A u f).trans
    (Finset.sum_congr rfl fun n _ =>
      scat_col (mat3 A) _ (mat3 Y) f f (fun k => dropUnit64_apply Y k f) n)

/-- The sum over the nodes of V·X, as a [1, 64] row. -/
theorem prodSum_apply (x2 : FVec Ideal S1024x64 .bf16) (V : FVec Ideal S1024x1024 .f32) (u : Fin 1) (f : Fin 64) :
    shapeCast S1x64 (multiReduction .add [0] S64
        (matmul dot_S1024x1024_S1024x64_S1024x64_1_0_0_1_n_n none (truncf .bf16 V bitsLt_bf16_f32) x2
          (constant S1024x64 .f32 0x00000000#32))
        0x00000000#32 Facts₀.reduces_S1024x64_S64 (.inl rfl) rfl) Facts₀.shapeCasts_S64_S1x64 (ix2 u f)
      = ∑ n : Fin 1024, mmul (mat V) (mat x2) n f :=
  (colsum_apply _ u f).trans (Finset.sum_congr rfl fun n _ => product_apply V x2 n f)

/-- Columns off … off+63 of a [1024, m] array, summed over the rows, as a [1, 64] row. -/
def colBlockSum {m : ℕ} (off : ℕ) (W : FVec Ideal ⟨2, ![1024, m]⟩ .f32)
    (hs : (⟨2, ![1024, m]⟩ : Shape).Slices ![0, off] S1024x64) : FVec Ideal S1x64 .f32 :=
  shapeCast S1x64 (multiReduction .add [0] S64 (extractStridedSlice S1024x64 ![0, off] W hs) 0x00000000#32
    Facts₀.reduces_S1024x64_S64 (.inl rfl) rfl) Facts₀.shapeCasts_S64_S1x64

/-- A block of 64 columns of |ψ·Y|, Y of any width, summed over the nodes: when columns off … off+63 of Y are the
    columns of Y', the row is the sum over the nodes of |ψ·Y'|. -/
theorem colBlockSum_abs {m : ℕ} (d : DotDims S1024x1024 ⟨2, ![1024, m]⟩ ⟨2, ![1024, m]⟩)
    (h1 : d.lhsContracting = [1]) (h2 : d.rhsContracting = [0]) (h3 : d.lhsNonContracting = [0])
    (h4 : d.rhsNonContracting = [1]) (h5 : d.lhsBatch = []) (h6 : d.rhsBatch = [])
    (off : ℕ) (hoff : off + 64 ≤ m) (hs : (⟨2, ![1024, m]⟩ : Shape).Slices ![0, off] S1024x64)
    (A : FVec Ideal S1x1024x1024 .bf16) (Y : FVec Ideal ⟨2, ![1024, m]⟩ .bf16) (Y' : Mat 1024 64)
    (hY : ∀ (k : Fin 1024) (f : Fin 64), Y (ix2 k (⟨off + f.val, by omega⟩ : Fin m)) = Y' k f)
    (u : Fin 1) (f : Fin 64) :
    colBlockSum off
        (absf (matmul d none (shapeCast S1024x1024 A Facts₀.shapeCasts_S1x1024x1024_S1024x1024) Y
          (constant ⟨2, ![1024, m]⟩ .f32 0x00000000#32))) hs (ix2 u f)
      = ∑ n : Fin 1024, scat (mat3 A) Y' n f := by
  unfold colBlockSum
  refine (colsum_apply _ u f).trans (Finset.sum_congr rfl fun n _ => ?_)
  refine (cols_apply off hoff _ hs n f).trans ?_
  refine (absProduct_apply d h1 h2 h3 h4 h5 h6 A Y n (⟨off + f.val, by omega⟩ : Fin m)).trans ?_
  exact scat_col (mat3 A) (mat Y) Y' (⟨off + f.val, by omega⟩ : Fin m) f (fun k => hY k f) n

/-! ### The two wide products -/

/-- Three [1, 1024, 64] arrays laid side by side as a [1024, 192] array. -/
def side3 (Y0 Y1 Y2 : FVec Ideal S1x1024x64 .bf16) : FVec Ideal S1024x192 .bf16 :=
  concatenate S1024x192 1
    [⟨S1024x64, shapeCast S1024x64 Y0 Facts₀.shapeCasts_S1x1024x64_S1024x64⟩,
      ⟨S1024x64, shapeCast S1024x64 Y1 Facts₀.shapeCasts_S1x1024x64_S1024x64⟩,
      ⟨S1024x64, shapeCast S1024x64 Y2 Facts₀.shapeCasts_S1x1024x64_S1024x64⟩]
    Facts₀.concatenates_S1024x64_S1024x64_S1024x64_S1024x192_d1

/-- Two [1, 1024, 64] arrays laid side by side as a [1024, 128] array. -/
def side2 (Y0 Y1 : FVec Ideal S1x1024x64 .bf16) : FVec Ideal S1024x128 .bf16 :=
  concatenate S1024x128 1
    [⟨S1024x64, shapeCast S1024x64 Y0 Facts₀.shapeCasts_S1x1024x64_S1024x64⟩,
      ⟨S1024x64, shapeCast S1024x64 Y1 Facts₀.shapeCasts_S1x1024x64_S1024x64⟩]
    Facts₀.concatenates_S1024x64_S1024x64_S1024x128_d1

theorem side3_first (Y0 Y1 Y2 : FVec Ideal S1x1024x64 .bf16) (k : Fin 1024) (f : Fin 64) :
    side3 Y0 Y1 Y2 (ix2 k (⟨0 + f.val, by omega⟩ : Fin 192)) = mat3 Y0 k f :=
  (Cert.LibConcatBands.join3_first _ _ _ Facts₀.concatenates_S1024x64_S1024x64_S1024x64_S1024x192_d1 k
    (⟨0 + f.val, by omega⟩ : Fin 192) f (by show 0 + f.val = f.val; omega)).trans (dropUnit64_apply Y0 k f)

theorem side3_second (Y0 Y1 Y2 : FVec Ideal S1x1024x64 .bf16) (k : Fin 1024) (f : Fin 64) :
    side3 Y0 Y1 Y2 (ix2 k (⟨64 + f.val, by omega⟩ : Fin 192)) = mat3 Y1 k f :=
  (Cert.LibConcatBands.join3_second _ _ _ Facts₀.concatenates_S1024x64_S1024x64_S1024x64_S1024x192_d1 k
    (⟨64 + f.val, by omega⟩ : Fin 192) f rfl).trans (dropUnit64_apply Y1 k f)

theorem side3_third (Y0 Y1 Y2 : FVec Ideal S1x1024x64 .bf16) (k : Fin 1024) (f : Fin 64) :
    side3 Y0 Y1 Y2 (ix2 k (⟨128 + f.val, by omega⟩ : Fin 192)) = mat3 Y2 k f :=
  (Cert.LibConcatBands.join3_third _ _ _ Facts₀.concatenates_S1024x64_S1024x64_S1024x64_S1024x192_d1 k
    (⟨128 + f.val, by omega⟩ : Fin 192) f (by show 128 + f.val = 64 + 64 + f.val; omega)).trans
    (dropUnit64_apply Y2 k f)

theorem side2_first (Y0 Y1 : FVec Ideal S1x1024x64 .bf16) (k : Fin 1024) (f : Fin 64) :
    side2 Y0 Y1 (ix2 k (⟨0 + f.val, by omega⟩ : Fin 128)) = mat3 Y0 k f :=
  (join2_first _ _ Facts₀.concatenates_S1024x64_S1024x64_S1024x128_d1 k
    (⟨0 + f.val, by omega⟩ : Fin 128) f (by show 0 + f.val = f.val; omega)).trans (dropUnit64_apply Y0 k f)

theorem side2_second (Y0 Y1 : FVec Ideal S1x1024x64 .bf16) (k : Fin 1024) (f : Fin 64) :
    side2 Y0 Y1 (ix2 k (⟨64 + f.val, by omega⟩ : Fin 128)) = mat3 Y1 k f :=
  (join2_second _ _ Facts₀.concatenates_S1024x64_S1024x64_S1024x128_d1 k
    (⟨64 + f.val, by omega⟩ : Fin 128) f rfl).trans (dropUnit64_apply Y1 k f)

/-- |ψ·[Y₀ Y₁]|. -/
def absWide2 (Y0 Y1 : FVec Ideal S1x1024x64 .bf16) (A : FVec Ideal S1x1024x1024 .bf16) : FVec Ideal S1024x128 .f32 :=
  absf (matmul dot_S1024x1024_S1024x128_S1024x128_1_0_0_1_n_n none
    (shapeCast S1024x1024 A Facts₀.shapeCasts_S1x1024x1024_S1024x1024) (side2 Y0 Y1)
    (constant S1024x128 .f32 0x00000000#32))

/-- The row that sums |ψ·Y| for Y kept with a unit axis in front. -/
def absSumRow (Y : FVec Ideal S1x1024x64 .bf16) (A : FVec Ideal S1x1024x1024 .bf16) : FVec Ideal S1x64 .f32 :=
  shapeCast S1x64 (multiReduction .add [0] S64
    (absf (matmul dot_S1024x1024_S1024x64_S1024x64_1_0_0_1_n_n none
      (shapeCast S1024x1024 A Facts₀.shapeCasts_S1x1024x1024_S1024x1024)
      (shapeCast S1024x64 Y Facts₀.shapeCasts_S1x1024x64_S1024x64) (constant S1024x64 .f32 0x00000000#32)))
    0x00000000#32 Facts₀.reduces_S1024x64_S64 (.inl rfl) rfl) Facts₀.shapeCasts_S64_S1x64

/-! ### The stack of eleven rows -/

/-- The eleven rows of the output block, in the order they are stacked. -/
def rowsOf (r50 r101 r152 r203 r212 : FVec Ideal S1x64 .f32) (W : FVec Ideal S1024x192 .f32)
    (v233 v235 : FVec Ideal S1x1024x64 .bf16) (v238 : FVec Ideal S1x1024x1024 .bf16)
    (v248 : FVec Ideal S1x1024x64 .bf16) (v250 : FVec Ideal S1x1024x1024 .bf16) : Fin 11 → FVec Ideal S1x64 .f32 :=
  ![r212, r50, r101, r152, r203,
    colBlockSum 0 (absf W) Facts₀.slices_S1024x192_o0_0_S1024x64,
    colBlockSum 64 (absf W) Facts₀.slices_S1024x192_o0_64_S1024x64,
    colBlockSum 0 (absWide2 v233 v235 v238) Facts₀.slices_S1024x128_o0_0_S1024x64,
    colBlockSum 128 (absf W) Facts₀.slices_S1024x192_o0_128_S1024x64,
    colBlockSum 64 (absWide2 v233 v235 v238) Facts₀.slices_S1024x128_o0_64_S1024x64,
    absSumRow v248 v250]

/-- Row k of the stacked block is the k-th of the eleven rows. -/
theorem stack_apply (r50 r101 r152 r203 r212 : FVec Ideal S1x64 .f32) (W : FVec Ideal S1024x192 .f32)
    (v233 v235 : FVec Ideal S1x1024x64 .bf16) (v238 : FVec Ideal S1x1024x1024 .bf16)
    (v248 : FVec Ideal S1x1024x64 .bf16) (v250 : FVec Ideal S1x1024x1024 .bf16) (k : Fin 11) (f : Fin 64) :
    k0_pay85 (F := Ideal) r50 r101 r152 r203 r212 W v233 v235 v238 v248 v250 (ix2 k f)
      = rowsOf r50 r101 r152 r203 r212 W v233 v235 v238 v248 v250 k (ix2 (0 : Fin 1) f) :=
  stack11_apply (rowsOf r50 r101 r152 r203 r212 W v233 v235 v238 v248 v250)
    Facts₀.concatenates_S1x64_S1x64_S1x64_S1x64_S1x64_S1x64_S1x64_S1x64_S1x64_S1x64_S1x64_S11x64_d0 k f

/-- Two unit axes put in front of an [11, 64] array keep the entries. -/
theorem addUnits_apply (Z : FVec Ideal S11x64 .f32) (u v : Fin 1) (k : Fin 11) (f : Fin 64) :
    shapeCast S1x1x11x64 Z Facts₀.shapeCasts_S11x64_S1x1x11x64 (ix4 u v k f) = Z (ix2 k f) :=
  shapeCast_apply Z Facts₀.shapeCasts_S11x64_S1x1x11x64 (ix4 u v k f) (ix2 k f) (by
    have hu : u.val = 0 := by omega
    have hv : v.val = 0 := by omega
    rw [Shape.rowMajor_val_two, Shape.rowMajor_val_four]
    show k.val * 64 + f.val = ((u.val * 1 + v.val) * 11 + k.val) * 64 + f.val
    rw [hu, hv]; omega)

/-- The block as stored, with its two unit axes in front, at (u, v, k, f): row k of the stack at column f. -/
theorem block_apply (Z : FVec Ideal S11x64 .f32) (u v : Fin 1) (k : Fin 11) (f : Fin 64) :
    k0_pay1 (F := Ideal) Z (ix4 u v k f) = Z (ix2 k f) :=
  addUnits_apply Z u v k f

/-! ### The output block -/

/-- The output block of a grid point from the values it loads: when the loaded bands, the loaded sixteenth power and
    the loaded first-order arrays are those of P and X, entry (u, v, k, f) of the block is the pooled feature (k, f):
    the sum over the nodes of feature array k at column f. -/
theorem rows_eq (P : Mat 1024 1024) (X : Mat 1024 64)
    (x2 : FVec Ideal S1024x64 .bf16) (hx2 : mat x2 = X)
    (v45 v96 v147 v198 v220 v238 v250 : Vec Ideal S1x1024x1024 .bf16)
    (h45 : mat3 (φ := .bf16) v45 = psi0 P) (h96 : mat3 (φ := .bf16) v96 = psi1 P)
    (h147 : mat3 (φ := .bf16) v147 = psi2 P) (h198 : mat3 (φ := .bf16) v198 = psi3 P)
    (h220 : mat3 (φ := .bf16) v220 = psi0 P) (h238 : mat3 (φ := .bf16) v238 = psi1 P)
    (h250 : mat3 (φ := .bf16) v250 = psi2 P)
    (v208 : Vec Ideal S1024x1024 .f32) (h208 : mat (φ := .f32) v208 = pow4 P)
    (v213 v215 v217 : Vec Ideal S1x1024x64 .bf16)
    (h213 : mat3 (φ := .bf16) v213 = sc1 P X) (h215 : mat3 (φ := .bf16) v215 = sc2 P X)
    (h217 : mat3 (φ := .bf16) v217 = sc3 P X)
    (y : S1x1x11x64.Idx) :
    k0_pay1 (F := Ideal) (k0_pay85 (k0_pay22 x2 v45) (k0_pay42 x2 v96) (k0_pay61 x2 v147) (k0_pay81 x2 v198) (k0_pay83 x2 v208)
        (k0_pay84 v213 v215 v217 v220) v215 v217 v238 v217 v250) y
      = pooled P X (y 2) (y 3) := by
  obtain ⟨u, v, k, f, rfl⟩ : ∃ (u v : Fin 1) (k : Fin 11) (f : Fin 64), y = ix4 u v k f :=
    ⟨y 0, y 1, y 2, y 3, eq_ix4 y⟩
  show _ = pooled P X k f
  refine (block_apply _ u v k f).trans ?_
  refine (stack_apply _ _ _ _ _ _ _ _ _ _ _ k f).trans ?_
  match k with
  | ⟨0, _⟩ =>
    refine (prodSum_apply x2 v208 0 f).trans ?_
    rw [h208, hx2]
    rfl
  | ⟨1, _⟩ =>
    refine (absSum_apply x2 v45 0 f).trans ?_
    rw [h45, hx2]
    rfl
  | ⟨2, _⟩ =>
    refine (absSum_apply x2 v96 0 f).trans ?_
    rw [h96, hx2]
    rfl
  | ⟨3, _⟩ =>
    refine (absSum_apply x2 v147 0 f).trans ?_
    rw [h147, hx2]
    rfl
  | ⟨4, _⟩ =>
    refine (absSum_apply x2 v198 0 f).trans ?_
    rw [h198, hx2]
    rfl
  | ⟨5, _⟩ =>
    refine (colBlockSum_abs dot_S1024x1024_S1024x192_S1024x192_1_0_0_1_n_n rfl rfl rfl rfl rfl rfl 0 (by omega)
      Facts₀.slices_S1024x192_o0_0_S1024x64 v220 (side3 v213 v215 v217) (mat3 (φ := .bf16) v213)
      (side3_first v213 v215 v217) 0 f).trans ?_
    rw [h220, h213]
    rfl
  | ⟨6, _⟩ =>
    refine (colBlockSum_abs dot_S1024x1024_S1024x192_S1024x192_1_0_0_1_n_n rfl rfl rfl rfl rfl rfl 64 (by omega)
      Facts₀.slices_S1024x192_o0_64_S1024x64 v220 (side3 v213 v215 v217) (mat3 (φ := .bf16) v215)
      (side3_second v213 v215 v217) 0 f).trans ?_
    rw [h220, h215]
    rfl
  | ⟨7, _⟩ =>
    refine (colBlockSum_abs dot_S1024x1024_S1024x128_S1024x128_1_0_0_1_n_n rfl rfl rfl rfl rfl rfl 0 (by omega)
      Facts₀.slices_S1024x128_o0_0_S1024x64 v238 (side2 v215 v217) (mat3 (φ := .bf16) v215)
      (side2_first v215 v217) 0 f).trans ?_
    rw [h238, h215]
    rfl
  | ⟨8, _⟩ =>
    refine (colBlockSum_abs dot_S1024x1024_S1024x192_S1024x192_1_0_0_1_n_n rfl rfl rfl rfl rfl rfl 128 (by omega)
      Facts₀.slices_S1024x192_o0_128_S1024x64 v220 (side3 v213 v215 v217) (mat3 (φ := .bf16) v217)
      (side3_third v213 v215 v217) 0 f).trans ?_
    rw [h220, h217]
    rfl
  | ⟨9, _⟩ =>
    refine (colBlockSum_abs dot_S1024x1024_S1024x128_S1024x128_1_0_0_1_n_n rfl rfl rfl rfl rfl rfl 64 (by omega)
      Facts₀.slices_S1024x128_o0_64_S1024x64 v238 (side2 v215 v217) (mat3 (φ := .bf16) v217)
      (side2_second v215 v217) 0 f).trans ?_
    rw [h238, h217]
    rfl
  | ⟨10, _⟩ =>
    refine (absSum3_apply v217 v250 0 f).trans ?_
    rw [h250, h217]
    rfl

end Cert.Wavelet.Rows

end
-- ==== Proof.ScatterReads.lean ====
/-
  The first-order scattering arrays, as the kernel reads them back from its scattering store.

  Round j leaves s_j = |ψ_j · X| in row j of a [4, 1024, 64] scratch array, one whole row per store; the four rows tile
  the array. The second-order stage loads rows 1, 2 and 3 back: row j at (n, f) is s_j (n, f).
-/
import proofs.«144410_j46334107189751_2_alg».proof.Proof.Powers
import proofs.«144410_j46334107189751_2_alg».proof.Proof.FeatureRows

set_option maxRecDepth 16384

noncomputable section

namespace Cert.Wavelet.Kernel

open Idealize.ShloMosaic Idealize.ShloMosaic.TcCoe Idealize.ShloMosaic.Tactic Idealize.ShloMosaic.ValueIdx
open Cert.KernelIdeal Cert.KernelIdeal.Gen Cert.Wavelet Cert.Wavelet.Tiles Cert.Wavelet.Features

/-- Row j of the scattering store holds s_j. -/
def scRow (P : Mat 1024 1024) (X : Mat 1024 64) : Fin 4 → Mat 1024 64
  | ⟨0, _⟩ => sc0 P X
  | ⟨1, _⟩ => sc1 P X
  | ⟨2, _⟩ => sc2 P X
  | ⟨3, _⟩ => sc3 P X
  | ⟨_ + 4, h⟩ => absurd h (by omega)

section
variable (c : Dev nD) (arg2 : Memref sig .tc .vmem S1x1x1024x1024 .f32) (harg2 : arg2.IsWhole)
  (arg3 : Memref sig .tc .vmem S1x1x1024x64 .f32) (harg3 : arg3.IsWhole)
  (arg5 arg6 : Memref sig .tc .vmem S1024x1024 .f32) (arg7 : Memref sig .tc .vmem S4x1024x1024 .bf16)
  (arg8 : Memref sig .tc .vmem S4x1024x64 .bf16)
  (x0 : Vec Ideal S1x1x1024x1024 .f32) (x1 : Vec Ideal S1x1x1024x64 .f32)
  (h45 : mat3 (φ := .bf16) (kernelRun0_A.sl.v45 (F := Ideal) c arg2 harg2 arg7 x0) = psi0 (block4 x0))
  (h96 : mat3 (φ := .bf16) (kernelRun0_A.sl.v96 (F := Ideal) c arg2 harg2 arg6 arg7 x0) = psi1 (block4 x0))
  (h147 : mat3 (φ := .bf16) (kernelRun0_A.sl.v147 (F := Ideal) c arg2 harg2 arg5 arg6 arg7 x0) = psi2 (block4 x0))
  (h198 : mat3 (φ := .bf16) (kernelRun0_A.sl.v198 (F := Ideal) c arg2 harg2 arg5 arg6 arg7 x0) = psi3 (block4 x0))

include h45 h96 h147 h198 in
/-- What the four stores leave in the scattering store, at (j, n, f): s_j (n, f). -/
theorem sc_store (j : Fin 4) (n : Fin 1024) (f : Fin 64) :
    View.canon (kernelRun0_A.sl.HS3_4 (F := Ideal) c arg2 harg2 arg3 harg3 arg5 arg6 arg7 x0 x1) (ix3 j n f)
      = scRow (block4 x0) (block4 x1) j n f := by
  have hx2 := mat_features c arg3 harg3 x1
  refine View.canon_apply_of_pieces (fun y : S4x1024x64.Idx => scRow (block4 x0) (block4 x1) (y 0) (y 1) (y 2)) _ ?_ (ix3 j n f)
    (View.cover_of_tiledL (kernelRun0_A.sl.HS3_4 c arg2 harg2 arg3 harg3 arg5 arg6 arg7 x0 x1) S1x1024x64.size (by sl_kernel_rfl) (ix3 j n f))
  unfold kernelRun0_A.sl.HS3_4
  generalize kernelRun0_A.sl.r (F := Ideal) c arg3 harg3 x1 = x2 at hx2 ⊢
  generalize kernelRun0_A.sl.v198 (F := Ideal) c arg2 harg2 arg5 arg6 arg7 x0 = A3 at h198 ⊢
  generalize kernelRun0_A.sl.v147 (F := Ideal) c arg2 harg2 arg5 arg6 arg7 x0 = A2 at h147 ⊢
  generalize kernelRun0_A.sl.v96 (F := Ideal) c arg2 harg2 arg6 arg7 x0 = A1 at h96 ⊢
  generalize kernelRun0_A.sl.v45 (F := Ideal) c arg2 harg2 arg7 x0 = A0 at h45 ⊢
  intro p hp
  simp only [List.mem_cons, List.not_mem_nil, or_false] at hp
  rcases hp with rfl | rfl | rfl | rfl
  all_goals
    intro x
    obtain ⟨u, n', f', rfl⟩ : ∃ (u : Fin 1) (n' : Fin 1024) (f' : Fin 64), x = ix3 u n' f' := ⟨x 0, x 1, x 2, eq_ix3 x⟩
    dsimp only
  · refine (Cert.Wavelet.Rows.scStore82 x2 A3 u n' f').trans ?_
    rw [h198, hx2]
    have e0 : (Rect.unit (s := S4x1024x64) ![3, 0, 0] S1x1024x64.size Facts₀.inb_S4x1024x64_S1x1024x64_3_0_0).emb (ix3 u n' f')
        = ix3 (3 : Fin 4) n' f' :=
      funext fun a => Fin.ext (by
        match a with
        | ⟨0, _⟩ => show 3 + 1 * u.val = 3; omega
        | ⟨1, _⟩ => show 0 + 1 * n'.val = n'.val; omega
        | ⟨2, _⟩ => show 0 + 1 * f'.val = f'.val; omega)
    rw [e0]
    rfl
  · refine (Cert.Wavelet.Rows.scStore62 x2 A2 u n' f').trans ?_
    rw [h147, hx2]
    have e0 : (Rect.unit (s := S4x1024x64) ![2, 0, 0] S1x1024x64.size Facts₀.inb_S4x1024x64_S1x1024x64_2_0_0).emb (ix3 u n' f')
        = ix3 (2 : Fin 4) n' f' :=
      funext fun a => Fin.ext (by
        match a with
        | ⟨0, _⟩ => show 2 + 1 * u.val = 2; omega
        | ⟨1, _⟩ => show 0 + 1 * n'.val = n'.val; omega
        | ⟨2, _⟩ => show 0 + 1 * f'.val = f'.val; omega)
    rw [e0]
    rfl
  · refine (Cert.Wavelet.Rows.scStore43 x2 A1 u n' f').trans ?_
    rw [h96, hx2]
    have e0 : (Rect.unit (s := S4x1024x64) ![1, 0, 0] S1x1024x64.size Facts₀.inb_S4x1024x64_S1x1024x64_1_0_0).emb (ix3 u n' f')
        = ix3 (1 : Fin 4) n' f' :=
      funext fun a => Fin.ext (by
        match a with
        | ⟨0, _⟩ => show 1 + 1 * u.val = 1; omega
        | ⟨1, _⟩ => show 0 + 1 * n'.val = n'.val; omega
        | ⟨2, _⟩ => show 0 + 1 * f'.val = f'.val; omega)
    rw [e0]
    rfl
  · refine (Cert.Wavelet.Rows.scStore23 x2 A0 u n' f').trans ?_
    rw [h45, hx2]
    have e0 : (Rect.unit (s := S4x1024x64) ![0, 0, 0] S1x1024x64.size Facts₀.inb_S4x1024x64_S1x1024x64_0_0_0).emb (ix3 u n' f')
        = ix3 (0 : Fin 4) n' f' :=
      funext fun a => Fin.ext (by
        match a with
        | ⟨0, _⟩ => show 0 + 1 * u.val = 0; omega
        | ⟨1, _⟩ => show 0 + 1 * n'.val = n'.val; omega
        | ⟨2, _⟩ => show 0 + 1 * f'.val = f'.val; omega)
    rw [e0]
    rfl

include h45 h96 h147 h198

/-- The load of row 1 of the scattering store reads s1. -/
theorem scv213 : mat3 (φ := .bf16) (kernelRun0_A.sl.v213 (F := Ideal) c arg2 harg2 arg3 harg3 arg5 arg6 arg7 arg8 x0 x1)
    = sc1 (block4 x0) (block4 x1) := by
  funext n f
  unfold mat3 kernelRun0_A.sl.v213
  rw [Cert.LibCanonPrefix.readCov_apply]
  have hidx : (Rect.unit (s := S4x1024x64) ![1, 0, 0] S1x1024x64.size Facts₀.inb_S4x1024x64_S1x1024x64_1_0_0).toLoadRect.idx (ix3 (0 : Fin 1) n f)
      = ix3 (1 : Fin 4) n f :=
    funext fun a => Fin.ext (by
      match a with
      | ⟨0, _⟩ => show 1 + 1 * 0 = 1; omega
      | ⟨1, _⟩ => show 0 + 1 * n.val = n.val; omega
      | ⟨2, _⟩ => show 0 + 1 * f.val = f.val; omega)
  rw [hidx]
  exact sc_store c arg2 harg2 arg3 harg3 arg5 arg6 arg7 x0 x1 h45 h96 h147 h198 (1 : Fin 4) n f

/-- The load of row 2 of the scattering store reads s2. -/
theorem scv215 : mat3 (φ := .bf16) (kernelRun0_A.sl.v215 (F := Ideal) c arg2 harg2 arg3 harg3 arg5 arg6 arg7 arg8 x0 x1)
    = sc2 (block4 x0) (block4 x1) := by
  funext n f
  unfold mat3 kernelRun0_A.sl.v215
  rw [Cert.LibCanonPrefix.readCov_apply]
  have hidx : (Rect.unit (s := S4x1024x64) ![2, 0, 0] S1x1024x64.size Facts₀.inb_S4x1024x64_S1x1024x64_2_0_0).toLoadRect.idx (ix3 (0 : Fin 1) n f)
      = ix3 (2 : Fin 4) n f :=
    funext fun a => Fin.ext (by
      match a with
      | ⟨0, _⟩ => show 2 + 1 * 0 = 2; omega
      | ⟨1, _⟩ => show 0 + 1 * n.val = n.val; omega
      | ⟨2, _⟩ => show 0 + 1 * f.val = f.val; omega)
  rw [hidx]
  exact sc_store c arg2 harg2 arg3 harg3 arg5 arg6 arg7 x0 x1 h45 h96 h147 h198 (2 : Fin 4) n f

/-- The load of row 3 of the scattering store reads s3. -/
theorem scv217 : mat3 (φ := .bf16) (kernelRun0_A.sl.v217 (F := Ideal) c arg2 harg2 arg3 harg3 arg5 arg6 arg7 arg8 x0 x1)
    = sc3 (block4 x0) (block4 x1) := by
  funext n f
  unfold mat3 kernelRun0_A.sl.v217
  rw [Cert.LibCanonPrefix.readCov_apply]
  have hidx : (Rect.unit (s := S4x1024x64) ![3, 0, 0] S1x1024x64.size Facts₀.inb_S4x1024x64_S1x1024x64_3_0_0).toLoadRect.idx (ix3 (0 : Fin 1) n f)
      = ix3 (3 : Fin 4) n f :=
    funext fun a => Fin.ext (by
      match a with
      | ⟨0, _⟩ => show 3 + 1 * 0 = 3; omega
      | ⟨1, _⟩ => show 0 + 1 * n.val = n.val; omega
      | ⟨2, _⟩ => show 0 + 1 * f.val = f.val; omega)
  rw [hidx]
  exact sc_store c arg2 harg2 arg3 harg3 arg5 arg6 arg7 x0 x1 h45 h96 h147 h198 (3 : Fin 4) n f

end

end Cert.Wavelet.Kernel

end
-- ==== Proof.KernelPoint.lean ====
/-
  What one grid point of the kernel leaves in its output block: the pooled features of the point's slice.

  The body stores its output block once, whole: eleven [1, 64] rows stacked, each the sum over the nodes of one feature
  array. Everything those rows are computed from is either an input block or a load of the body's own scratch: the
  dyadic powers read back from the two square buffers, the wavelet bands from the band store, the first-order
  scattering arrays from the scattering store. With each load identified — P², P⁴, P⁸, P¹⁶; ψ₀ … ψ₃; s₁, s₂, s₃ — the
  stacked rows are the pooled features of the slice whose transition matrix and node features the input blocks hold.
-/
import proofs.«144410_j46334107189751_2_alg».proof.Proof.Gen.KernelIdeal.Frame
import proofs.«144410_j46334107189751_2_alg».proof.Proof.WaveletSpec
import proofs.«144410_j46334107189751_2_alg».proof.Proof.Powers
import proofs.«144410_j46334107189751_2_alg».proof.Proof.BandReads
import proofs.«144410_j46334107189751_2_alg».proof.Proof.ScatterReads
import proofs.«144410_j46334107189751_2_alg».proof.Proof.FeatureRows

set_option maxRecDepth 16384

noncomputable section

namespace Cert.Wavelet.Kernel

open Idealize.ShloMosaic Idealize.ShloMosaic.TcCoe Idealize.ShloMosaic.ValueIdx
open Cert.KernelIdeal Cert.KernelIdeal.Gen Cert.Wavelet Cert.Wavelet.Tiles Cert.Wavelet.Features

/-- At a grid point whose input blocks are `x0` (the slice's transition matrix) and `x1` (its node features), the
    output block holds, at (0, 0, k, f), the pooled feature (k, f) of that slice. -/
theorem point_eq (c : Dev nD) (i : grid0.Coords) (arg2 : Memref sig .tc .vmem S1x1x1024x1024 .f32) (harg2 : arg2.IsWhole) (arg3 : Memref sig .tc .vmem S1x1x1024x64 .f32) (harg3 : arg3.IsWhole) (arg4 : Memref sig .tc .vmem S1x1x11x64 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S4x1024x1024 .bf16) (harg7 : arg7.IsWhole) (arg8 : Memref sig .tc .vmem S4x1024x64 .bf16) (harg8 : arg8.IsWhole)
    (x0 : Vec Ideal S1x1x1024x1024 .f32) (x1 : Vec Ideal S1x1x1024x64 .f32) (y : S1x1x11x64.Idx) :
    out0_A_2 (F := Ideal) c i arg2 harg2 arg3 harg3 arg4 harg4 arg5 harg5 arg6 harg6 arg7 harg7 arg8 harg8 x0 x1 y
      = pooled (block4 x0) (block4 x1) (y 2) (y 3) := by
  have hz : (![0, 0, 0, 0] : Fin 4 → ℕ) = fun _ => 0 :=
    funext fun a => by match a with | ⟨0, _⟩ => rfl | ⟨1, _⟩ => rfl | ⟨2, _⟩ => rfl | ⟨3, _⟩ => rfl
  -- the block is what its one whole store left
  unfold out0_A_2
  rw [View.read_writes_junk_eq_canon]
  unfold kernelRun0_A
  dsimp only
  refine (congrFun (View.canon_unit_zero (S := S1x1x11x64) hz _ _) y).trans ?_
  unfold kernelRun0_A.sl.r_17 kernelRun0_A.sl.r_4 kernelRun0_A.sl.r_7 kernelRun0_A.sl.r_9 kernelRun0_A.sl.r_14
    kernelRun0_A.sl.r_15 kernelRun0_A.sl.r_16
  -- the powers, the bands and the scattering arrays the loads read
  have h55 := pow55 c arg2 harg2 arg6 x0
  have h106 := pow106 c arg2 harg2 arg5 arg6 x0
  have h157 := pow157 c arg2 harg2 arg5 arg6 x0
  have h45 := band45 c arg2 harg2 arg7 x0
  have h96 := band96 c arg2 harg2 arg6 arg7 x0 h55
  have h147 := band147 c arg2 harg2 arg5 arg6 arg7 x0 h106
  have h198 := band198 c arg2 harg2 arg5 arg6 arg7 x0 h157
  exact Cert.Wavelet.Rows.rows_eq (block4 x0) (block4 x1) _ (mat_features c arg3 harg3 x1) _ _ _ _ _ _ _ h45 h96 h147 h198
    (band220 c arg2 harg2 arg5 arg6 arg7 x0 h55 h106 h157) (band238 c arg2 harg2 arg5 arg6 arg7 x0 h55 h106 h157)
    (band250 c arg2 harg2 arg5 arg6 arg7 x0 h55 h106 h157)
    _ (pow208 c arg2 harg2 arg5 arg6 x0) _ _ _
    (scv213 c arg2 harg2 arg3 harg3 arg5 arg6 arg7 arg8 x0 x1 h45 h96 h147 h198)
    (scv215 c arg2 harg2 arg3 harg3 arg5 arg6 arg7 arg8 x0 x1 h45 h96 h147 h198)
    (scv217 c arg2 harg2 arg3 harg3 arg5 arg6 arg7 arg8 x0 x1 h45 h96 h147 h198) y

end Cert.Wavelet.Kernel

end
-- ==== Proof.KernelArray.lean ====
/-
  From the kernel's grid points to its output array.

  The grid has 8 × 4 points. Every window's index map sends the point (b, t) to block (b, t, 0, 0): the inputs' blocks
  are the [1, 1, 1024, ·] slices (b, t) of the transition matrices and of the node features, the output's block is the
  [1, 1, 11, 64] slice (b, t) of the result. Each point writes the pooled features of its own slice into its own block
  and the 32 blocks tile the [8, 4, 11, 64] array, so the array ends holding the pooled features of every slice.
-/
import proofs.«144410_j46334107189751_2_alg».proof.Proof.KernelPoint
import Idealize.ShloMosaic.Lib.Pipeline.Value

set_option maxRecDepth 16384

noncomputable section

namespace Cert.Wavelet.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The three index maps, decided over the grid: at every point the inputs' block indices on the two slice axes are
    the output's, which stay below 8 and 4; every block index on the two inner axes is 0. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 8 ∧ win0_2.index t (1 : Fin 4) < 4
    ∧ win0_2.index t (2 : Fin 4) = 0 ∧ win0_2.index t (3 : Fin 4) = 0 :=
  (by decide +kernel : ∀ t : Fin grid0.N, _)

/-- Every slice (b, t) is some point's output block. -/
theorem idx_onto : ∀ (b : Fin 8) (t' : Fin 4), ∃ t : Fin cfg0.N, win0_2.index t = ![b.val, t'.val, 0, 0] :=
  (by decide +kernel : ∀ (b : Fin 8) (t' : Fin 4), ∃ t : Fin grid0.N, win0_2.index t = ![b.val, t'.val, 0, 0])

/-- The pooled features of the one blocks `x0`, `x1` are entry `i` of the pooled array of `P`, `X`, when the blocks
    are the slices of `P` and `X` that `i` lies in and `i`'s inner coordinates are (k, f). -/
theorem pooled_at (P : (⟨4, ![8, 4, 1024, 1024]⟩ : Shape).Idx → EReal) (X : (⟨4, ![8, 4, 1024, 64]⟩ : Shape).Idx → EReal)
    (x0 : (⟨4, ![1, 1, 1024, 1024]⟩ : Shape).Idx → EReal) (x1 : (⟨4, ![1, 1, 1024, 64]⟩ : Shape).Idx → EReal)
    (i : (⟨4, ![8, 4, 11, 64]⟩ : Shape).Idx) (k : Fin 11) (f : Fin 64)
    (h0 : ∀ (r : Fin 1024) (cc : Fin 1024), x0 (ix4 (0 : Fin 1) (0 : Fin 1) r cc) = P (ix4 (i 0) (i 1) r cc))
    (h1 : ∀ (r : Fin 1024) (cc : Fin 64), x1 (ix4 (0 : Fin 1) (0 : Fin 1) r cc) = X (ix4 (i 0) (i 1) r cc))
    (hk : i 2 = k) (hf : i 3 = f) :
    pooled (block4 x0) (block4 x1) k f = pooledArr P X i := by
  subst hk hf
  have e0 : block4 x0 = slice4 P (i 0) (i 1) := funext fun r => funext fun cc => h0 r cc
  have e1 : block4 x1 = slice4 X (i 0) (i 1) := funext fun r => funext fun cc => h1 r cc
  unfold pooledArr
  rw [e0, e1]

/-- WHAT POINT `t` WRITES BACK is block `t` of the pooled array of the argument arrays as the region finds them. -/
theorem flushed_eq (c : Dev nD) (t : Fin cfg0.N) :
    (dats m 0 c).flushed 2 t = ((cfg0.win 2).blk t).view.read (Elt Ideal) (pooledArr (V m c main_arg0) (V m c main_arg1)) := by
  show (cfg0.win 2).cut (grid0.coords t) ((dats m 0 c).after 2 t) = _
  rw [after0_2]
  unfold outsAt0
  obtain ⟨e00, e01, e02, e03, e10, e11, e12, e13, h20, h21, e22, e23⟩ := idx_facts t
  funext y
  show out0_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) y
    = pooledArr (V m c main_arg0) (V m c main_arg1) (((cfg0.win 2).blk t).view.emb y)
  refine (point_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (iblk m c 0 t) (iblk m c 1 t) y).trans ?_
  have hy0 : (y 0).val < 1 := (y 0).isLt
  have hy1 : (y 1).val < 1 := (y 1).isLt
  refine pooled_at (V m c main_arg0) (V m c main_arg1) (iblk m c 0 t) (iblk m c 1 t) (((cfg0.win 2).blk t).view.emb y) (y 2) (y 3) ?_ ?_ ?_ ?_
  · intro r cc
    show V m c main_arg0 (((cfg0.win 0).blk t).view.emb (ix4 (0 : Fin 1) (0 : Fin 1) r cc)) = V m c main_arg0 _
    refine congrArg (V m c main_arg0) (funext fun a => Fin.ext ?_)
    match a with
    | ⟨0, _⟩ => show win0_0.index t (0 : Fin 4) * 1 + 1 * 0 = win0_2.index t (0 : Fin 4) * 1 + 1 * (y 0).val; omega
    | ⟨1, _⟩ => show win0_0.index t (1 : Fin 4) * 1 + 1 * 0 = win0_2.index t (1 : Fin 4) * 1 + 1 * (y 1).val; omega
    | ⟨2, _⟩ => show win0_0.index t (2 : Fin 4) * 1024 + 1 * r.val = r.val; omega
    | ⟨3, _⟩ => show win0_0.index t (3 : Fin 4) * 1024 + 1 * cc.val = cc.val; omega
  · intro r cc
    show V m c main_arg1 (((cfg0.win 1).blk t).view.emb (ix4 (0 : Fin 1) (0 : Fin 1) r cc)) = V m c main_arg1 _
    refine congrArg (V m c main_arg1) (funext fun a => Fin.ext ?_)
    match a with
    | ⟨0, _⟩ => show win0_1.index t (0 : Fin 4) * 1 + 1 * 0 = win0_2.index t (0 : Fin 4) * 1 + 1 * (y 0).val; omega
    | ⟨1, _⟩ => show win0_1.index t (1 : Fin 4) * 1 + 1 * 0 = win0_2.index t (1 : Fin 4) * 1 + 1 * (y 1).val; omega
    | ⟨2, _⟩ => show win0_1.index t (2 : Fin 4) * 1024 + 1 * r.val = r.val; omega
    | ⟨3, _⟩ => show win0_1.index t (3 : Fin 4) * 64 + 1 * cc.val = cc.val; omega
  · refine Fin.ext ?_
    show win0_2.index t (2 : Fin 4) * 11 + 1 * (y 2).val = (y 2).val
    omega
  · refine Fin.ext ?_
    show win0_2.index t (3 : Fin 4) * 64 + 1 * (y 3).val = (y 3).val
    omega

/-- An index of the output array is in point `t`'s block iff each coordinate is in the block's range on its axis. -/
theorem mem_blk (t : Fin cfg0.N) (i : S8x4x11x64.Idx) :
    i ∈ ((cfg0.win 2).blk t).view.set ↔ ∀ a : Fin 4, win0_2.index t a * S1x1x11x64.size a ≤ (i a).val ∧ (i a).val < win0_2.index t a * S1x1x11x64.size a + S1x1x11x64.size a := by
  show i ∈ ((View.whole main_v0).slice (win0_2.rect t)).set ↔ _
  rw [View.set_slice_whole, Rect.mem_set_unit]
  exact Iff.rfl

/-- The output's blocks cover its array: index (b, t, k, f) lies in the block of the point whose slice is (b, t). -/
theorem cover (i : S8x4x11x64.Idx) : ∃ t : Fin cfg0.N, (cfg0.win 2).flush t = true ∧ i ∈ ((cfg0.win 2).blk t).view.set := by
  obtain ⟨t, ht⟩ := idx_onto ⟨(i 0).val, (i 0).isLt⟩ ⟨(i 1).val, (i 1).isLt⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  have h2 : (i 2).val < 11 := (i 2).isLt
  have h3 : (i 3).val < 64 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 11 ≤ (i 2).val ∧ (i 2).val < win0_2.index t (2 : Fin 4) * 11 + 11; omega
  | ⟨3, _⟩ => show win0_2.index t (3 : Fin 4) * 64 ≤ (i 3).val ∧ (i 3).val < win0_2.index t (3 : Fin 4) * 64 + 64; omega

/-- THE OUTPUT ARRAY after the run: the pooled features of every slice of the argument arrays. -/
theorem final (c : Dev nD) :
    (dats (F := Ideal) m 0 c).arrAt 2 cfg0.N = pooledArr (V m c main_arg0) (V m c main_arg1) :=
  (dats m 0 c).arrAt_eq_of_cover 2 (pooledArr (V m c main_arg0) (V m c main_arg1)) (fun t _ => flushed_eq m c t) cover

end Cert.Wavelet.Kernel

end
-- ==== Proof.Tail.lean ====
/-
  The host operations that end the two programs, compared.

  Once the pooled features A : [8, 4, 11, 64] are known, the kernel's program flattens A to [8, 4, 704] and divides
  it by the slice's mask sum broadcast along the flattened axis; the reference divides A by the mask sum broadcast
  along (feature, column) and flattens the quotient. Entry (b, t, q) of either is A (b, t, q / 64, q % 64) divided by
  the mask sum of slice (b, t): flattening commutes with an entrywise quotient whose divisor depends on (b, t) only.
  The mask sum is the same sum of the same array on both sides; it is never evaluated.
-/
import proofs.«144410_j46334107189751_2_alg».proof.Proof.Gen.KernelIdeal
import proofs.«144410_j46334107189751_2_alg».proof.Proof.Gen.ReferenceIdeal.Read

noncomputable section

namespace Cert.Wavelet.Tail

open Idealize.ShloMosaic Idealize.ShloMosaic.TcCoe
open Cert.ReferenceIdeal.Read

/-- The sum of the mask over the nodes of each slice, as the kernel's program computes it. -/
def maskSum (x2 : (⟨Cert.KernelIdeal.S8x4x1024, .f32⟩ : BufTy).Contents (Elt Ideal)) : (⟨Cert.KernelIdeal.S8x4, .f32⟩ : BufTy).Contents (Elt Ideal) :=
  Host.reduceAdd (F := Ideal) x2 (constant (F := Ideal) Cert.KernelIdeal.S_ .f32 0x00000000#32) Cert.KernelIdeal.Facts₀.reducesTo_S8x4x1024_S8x4_d2 Cert.KernelIdeal.Facts₀.h_S_

/-- The kernel program's host operations after its region, as one function of the region's output `A` and the mask:
    `A` flattened to [8, 4, 704], divided by the mask sum broadcast to [8, 4, 1] and then to [8, 4, 704]. -/
def kernelTail (A : (⟨Cert.KernelIdeal.S8x4x11x64, .f32⟩ : BufTy).Contents (Elt Ideal))
    (x2 : (⟨Cert.KernelIdeal.S8x4x1024, .f32⟩ : BufTy).Contents (Elt Ideal)) : (⟨Cert.KernelIdeal.S8x4x704, .f32⟩ : BufTy).Contents (Elt Ideal) :=
  Host.divf (F := Ideal) (s := Cert.KernelIdeal.S8x4x704) (φ := .f32) (shapeCast Cert.KernelIdeal.S8x4x704 A Cert.KernelIdeal.Facts₀.shapeCasts_S8x4x11x64_S8x4x704)
    (broadcastInDim Cert.KernelIdeal.S8x4x704 ![0, 1, 2] Cert.KernelIdeal.Facts₀.bcast_S8x4x1_S8x4x704_0_1_2
      (broadcastInDim Cert.KernelIdeal.S8x4x1 ![0, 1] Cert.KernelIdeal.Facts₀.bcast_S8x4_S8x4x1_0_1 (maskSum x2)))

/-- The slice (b, t) of an index (b, t, q) of the flattened result. -/
abbrev sliceOf (i : Cert.KernelIdeal.S8x4x704.Idx) : Cert.KernelIdeal.S8x4.Idx := fun a => match a with
  | ⟨0, _⟩ => ⟨(i 0).val, (i 0).isLt⟩
  | ⟨1, _⟩ => ⟨(i 1).val, (i 1).isLt⟩

/-- The same with a unit third axis. -/
abbrev sliceOf1 (i : Cert.KernelIdeal.S8x4x704.Idx) : Cert.KernelIdeal.S8x4x1.Idx := fun a => match a with
  | ⟨0, _⟩ => ⟨(i 0).val, (i 0).isLt⟩
  | ⟨1, _⟩ => ⟨(i 1).val, (i 1).isLt⟩
  | ⟨2, _⟩ => ⟨0, Nat.one_pos⟩

/-- A [8, 4, 11, 64] array flattened to [8, 4, 704], read at (b, t, q): the array at (b, t, q / 64, q % 64). -/
theorem flat_apply (y : (⟨Cert.KernelIdeal.S8x4x11x64, .f32⟩ : BufTy).Contents (Elt Ideal)) (i : Cert.KernelIdeal.S8x4x704.Idx) :
    shapeCast Cert.KernelIdeal.S8x4x704 y Cert.KernelIdeal.Facts₀.shapeCasts_S8x4x11x64_S8x4x704 i = y (idx_main_v47 i) :=
  shapeCast_apply y Cert.KernelIdeal.Facts₀.shapeCasts_S8x4x11x64_S8x4x704 i (idx_main_v47 i)
    (by rewrite [Shape.rowMajor_val_four, Shape.rowMajor_val_three]; have h0 : (i 0).val < 8 := (i 0).isLt; have h1 : (i 1).val < 4 := (i 1).isLt; have h2 : (i 2).val < 704 := (i 2).isLt; show (((((i 0).val * 4 + (i 1).val) * 704 + (i 2).val) / 2816 * 4 + (((i 0).val * 4 + (i 1).val) * 704 + (i 2).val) / 704 % 4) * 11 + (((i 0).val * 4 + (i 1).val) * 704 + (i 2).val) / 64 % 11) * 64 + (((i 0).val * 4 + (i 1).val) * 704 + (i 2).val) % 64 = ((i 0).val * 4 + (i 1).val) * 704 + (i 2).val; omega)

/-- A per-slice quantity broadcast to [8, 4, 1] and then along the flattened axis, read at (b, t, q): its value at (b, t). -/
theorem bcast_apply (s : (⟨Cert.KernelIdeal.S8x4, .f32⟩ : BufTy).Contents (Elt Ideal)) (i : Cert.KernelIdeal.S8x4x704.Idx) :
    broadcastInDim Cert.KernelIdeal.S8x4x704 ![0, 1, 2] Cert.KernelIdeal.Facts₀.bcast_S8x4x1_S8x4x704_0_1_2
      (broadcastInDim Cert.KernelIdeal.S8x4x1 ![0, 1] Cert.KernelIdeal.Facts₀.bcast_S8x4_S8x4x1_0_1 s) i = s (sliceOf i) := by
  rw [broadcastInDim_apply _ Cert.KernelIdeal.Facts₀.bcast_S8x4x1_S8x4x704_0_1_2 _ i (sliceOf1 i) (fun a => match a with
    | ⟨0, _⟩ => by show (i 0).val = if (8 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])]
  exact broadcastInDim_apply _ Cert.KernelIdeal.Facts₀.bcast_S8x4_S8x4x1_0_1 s (sliceOf1 i) (sliceOf i) (fun a => match a with
    | ⟨0, _⟩ => by show (i 0).val = if (8 : Nat) = 1 then 0 else (i 0).val; rw [if_neg (by decide)]
    | ⟨1, _⟩ => by show (i 1).val = if (4 : Nat) = 1 then 0 else (i 1).val; rw [if_neg (by decide)])

/-- The slice of the index the flattening reads is the slice of the flattened index: (b·4 + t)·704 + q, divided by
    2816 = 4·704, is b, and divided by 704 is t modulo 4. -/
theorem slice_flat (i : Cert.KernelIdeal.S8x4x704.Idx) : idx_main_v44 (idx_main_v45 (idx_main_v47 i)) = sliceOf i := by
  have h0 : (i 0).val < 8 := (i 0).isLt
  have h1 : (i 1).val < 4 := (i 1).isLt
  have h2 : (i 2).val < 704 := (i 2).isLt
  funext a
  apply Fin.ext
  match a with
  | ⟨0, _⟩ => show (((i 0).val * 4 + (i 1).val) * 704 + (i 2).val) / 2816 = (i 0).val; omega
  | ⟨1, _⟩ => show (((i 0).val * 4 + (i 1).val) * 704 + (i 2).val) / 704 % 4 = (i 1).val; omega

/-- The reference's mask sum is the kernel program's: the same sum, from the same zero, of the same array. -/
theorem maskSum_eq (x2 : (⟨Cert.ReferenceIdeal.S8x4x1024, .f32⟩ : BufTy).Contents (Elt Ideal)) :
    val_main_v42 (F := Ideal) x2 = maskSum x2 := rfl

/-- THE TWO TAILS AGREE: the kernel program's tail applied to the reference's pooled array is the reference's result. -/
theorem tail_eq (x0 : (⟨Cert.ReferenceIdeal.S8x4x1024x1024, .f32⟩ : BufTy).Contents (Elt Ideal))
    (x1 : (⟨Cert.ReferenceIdeal.S8x4x1024x64, .f32⟩ : BufTy).Contents (Elt Ideal))
    (x2 : (⟨Cert.ReferenceIdeal.S8x4x1024, .f32⟩ : BufTy).Contents (Elt Ideal)) :
    kernelTail (val_main_v43 (F := Ideal) x0 x1) x2 = val_main_v47 (F := Ideal) x0 x1 x2 := by
  funext i
  rw [val_main_v47_apply, val_main_v46_apply, val_main_v45_apply, val_main_v44_apply, slice_flat, maskSum_eq]
  unfold kernelTail
  show FloatOps.hostDivf (F := Ideal) (φ := .f32) (shapeCast _ _ _ i) (broadcastInDim _ _ _ (broadcastInDim _ _ _ _) i) = _
  rw [flat_apply, bcast_apply]

end Cert.Wavelet.Tail

end
-- ==== Proof.KernelRun.lean ====
/-
  The kernel program's run, read.

  The region leaves the pooled features of every slice in its output array. The host operations that follow sum the
  mask over the nodes of each slice, flatten the [8, 4, 11, 64] array to [8, 4, 704] and divide it by the mask sum
  broadcast along the flattened axis: the program's result is that tail of the pooled array of its first two arguments
  and of its third, and the arguments end as they were.
-/
import proofs.«144410_j46334107189751_2_alg».proof.Proof.KernelArray
import proofs.«144410_j46334107189751_2_alg».proof.Proof.Tail

set_option maxRecDepth 16384

noncomputable section

namespace Cert.Wavelet.Kernel

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- What the result buffer holds after the host operations that follow the region: the tail of the pooled array. -/
theorem tail_result (c : Dev nD) :
    Pipeline.afterTail₀ cfgs (dats (F := Ideal) m) 0 (V0 m) [hostOps1] c main_v5
      = Tail.kernelTail (pooledArr (m ((c : Thread nD τ).loc main_arg0)) (m ((c : Thread nD τ).loc main_arg1))) (m ((c : Thread nD τ).loc main_arg2)) := by
  have hA : Pipeline.withArrays (cfgs 0).spec c (V0 m c) (fun w => (dats m 0 c).arrAt w (cfgs 0).N) (Proc.devRef .tc main_v0)
      = pooledArr (V m c main_arg0) (V m c main_arg1) :=
    (Pipeline.withArrays_arr spec0 launch0.win.arr_inj c _ _ 2).trans (final m c)
  unfold Pipeline.afterTail₀
  show StableHlo.after hostOps1 _ (Proc.devRef .tc main_v5) = _
  after_results
  rw [hA, Pipeline.withArrays_of_ne _ c (V0 m c) _ main_arg2 (by exact (by decide : ∀ w, Pipeline.arrRef spec0 w ≠ main_arg2))]
  rfl

/-- THE RUN: the kernel's program terminates with its result at the tail of the pooled array of its arguments, and its
    arguments unchanged. -/
theorem run : θ_run defs (onTc (τ := τ) (main (F := Ideal))) ⟨m, fun _ => 0, ρ⟩ (fun r => ∀ c : Dev nD,
      r.2.mem ((c : Thread nD τ).loc main_v5) = Tail.kernelTail (pooledArr (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
      ⟨((h c).2 main_v5 (Pipeline.mem_restRefs_of main_v5 (by decide) (by decide))).trans (tail_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.Wavelet.Kernel

end
-- ==== Proof.RefStages.lean ====
/-
  The reference's intermediate arrays, slice by slice.

  The reference computes, for all 32 slices (b, t) at once, the dyadic powers of the transition matrix, the wavelet
  bands, and the first- and second-order scattering arrays, each by a batched matrix product, an entrywise difference
  or an entrywise absolute value. Slice (b, t) of every such array is the corresponding matrix of the specification,
  built from slice (b, t) of the two inputs: a batched product only ever multiplies row r of slice (b, t) of its left
  operand with column c of slice (b, t) of its right operand, and the entrywise operations act inside one slice.
-/
import proofs.«144410_j46334107189751_2_alg».proof.Proof.Gen.ReferenceIdeal.Read
import proofs.«144410_j46334107189751_2_alg».proof.Proof.WaveletSpec

noncomputable section

namespace Cert.Wavelet.Ref

open Idealize.ShloMosaic Idealize.ShloMosaic.ValueIdx Cert.ReferenceIdeal Cert.ReferenceIdeal.Read

/-- Two rank-4 indices with the same four coordinates are equal. -/
theorem idx4_ext {n0 n1 n2 n3 : ℕ} (u v : (⟨4, ![n0, n1, n2, n3]⟩ : Shape).Idx)
    (h0 : (u 0).val = (v 0).val) (h1 : (u 1).val = (v 1).val) (h2 : (u 2).val = (v 2).val)
    (h3 : (u 3).val = (v 3).val) : u = v :=
  funext fun a => Fin.ext (by
    match a with
    | ⟨0, _⟩ => exact h0
    | ⟨1, _⟩ => exact h1
    | ⟨2, _⟩ => exact h2
    | ⟨3, _⟩ => exact h3)

/-- A batched product read at (b, t, r, c): when the left operand is read along row r of slice (b, t) and the right
    operand down column c of the same slice, the sum over the contracted coordinate is the matrix product of the
    two slices at (r, c). -/
theorem dot_read {C : ℕ} (A : (⟨4, ![8, 4, 1024, 1024]⟩ : Shape).Idx → EReal)
    (B : (⟨4, ![8, 4, 1024, C]⟩ : Shape).Idx → EReal) (b : Fin 8) (t : Fin 4) (r : Fin 1024) (c : Fin C)
    (l : Fin 1024 → (⟨4, ![8, 4, 1024, 1024]⟩ : Shape).Idx) (q : Fin 1024 → (⟨4, ![8, 4, 1024, C]⟩ : Shape).Idx)
    (hl : ∀ k, l k = ix4 b t r k) (hq : ∀ k, q k = ix4 b t k c) :
    ∑ k : Fin 1024, A (l k) * B (q k) = mmul (slice4 A b t) (slice4 B b t) r c := by
  unfold mmul slice4
  exact Finset.sum_congr rfl fun k _ => by rw [hl k, hq k]

variable (x0 : (⟨S8x4x1024x1024, .f32⟩ : BufTy).Contents (Elt Ideal))
  (x1 : (⟨S8x4x1024x64, .f32⟩ : BufTy).Contents (Elt Ideal)) (b : Fin 8) (t : Fin 4)

/-! ### The first band: P², ψ₀ = P² − P, s₀ = |ψ₀ X| -/

/-- P·P. -/
theorem stage0 : slice4 (val_main_v0 (F := Ideal) x0) b t = pow1 (slice4 x0 b t) := by
  funext r c
  show val_main_v0 (F := Ideal) x0 (ix4 b t r c) = _
  rw [val_main_v0_apply]
  exact dot_read x0 x0 b t r c _ _ (fun k => idx4_ext _ _ rfl rfl rfl rfl) (fun k => idx4_ext _ _ rfl rfl rfl rfl)

/-- ψ₀ = P² − P. -/
theorem stage1 : slice4 (val_main_v1 (F := Ideal) x0) b t = psi0 (slice4 x0 b t) := by
  funext r c
  show slice4 (val_main_v0 (F := Ideal) x0) b t r c - slice4 x0 b t r c = _
  rw [stage0]
  rfl

/-- ψ₀·X. -/
theorem stage2 : slice4 (val_main_v2 (F := Ideal) x0 x1) b t = mmul (psi0 (slice4 x0 b t)) (slice4 x1 b t) := by
  funext r c
  show val_main_v2 (F := Ideal) x0 x1 (ix4 b t r c) = _
  rw [val_main_v2_apply, ← stage1]
  exact dot_read _ x1 b t r c _ _ (fun k => idx4_ext _ _ rfl rfl rfl rfl) (fun k => idx4_ext _ _ rfl rfl rfl rfl)

/-- s₀ = |ψ₀·X|. -/
theorem stage3 : slice4 (val_main_v3 (F := Ideal) x0 x1) b t = sc0 (slice4 x0 b t) (slice4 x1 b t) := by
  funext r c
  show max (slice4 (val_main_v2 (F := Ideal) x0 x1) b t r c) (-(slice4 (val_main_v2 (F := Ideal) x0 x1) b t r c)) = _
  rw [stage2]
  rfl

/-! ### The second band: P⁴, ψ₁ = P⁴ − P², s₁ = |ψ₁ X|, and |ψ₀ s₁| -/

/-- P²·P². -/
theorem stage4 : slice4 (val_main_v4 (F := Ideal) x0) b t = pow2 (slice4 x0 b t) := by
  funext r c
  show val_main_v4 (F := Ideal) x0 (ix4 b t r c) = _
  rw [val_main_v4_apply]
  refine (dot_read (val_main_v0 (F := Ideal) x0) (val_main_v0 (F := Ideal) x0) b t r c
    (lidx_main_v4 (ix4 b t r c)) (ridx_main_v4 (ix4 b t r c))
    (fun k => idx4_ext _ _ rfl rfl rfl rfl) (fun k => idx4_ext _ _ rfl rfl rfl rfl)).trans ?_
  rw [stage0]
  rfl

/-- ψ₁ = P⁴ − P². -/
theorem stage5 : slice4 (val_main_v5 (F := Ideal) x0) b t = psi1 (slice4 x0 b t) := by
  funext r c
  show slice4 (val_main_v4 (F := Ideal) x0) b t r c - slice4 (val_main_v0 (F := Ideal) x0) b t r c = _
  rw [stage4, stage0]
  rfl

/-- ψ₁·X. -/
theorem stage6 : slice4 (val_main_v6 (F := Ideal) x0 x1) b t = mmul (psi1 (slice4 x0 b t)) (slice4 x1 b t) := by
  funext r c
  show val_main_v6 (F := Ideal) x0 x1 (ix4 b t r c) = _
  rw [val_main_v6_apply, ← stage5]
  exact dot_read _ x1 b t r c _ _ (fun k => idx4_ext _ _ rfl rfl rfl rfl) (fun k => idx4_ext _ _ rfl rfl rfl rfl)

/-- s₁ = |ψ₁·X|. -/
theorem stage7 : slice4 (val_main_v7 (F := Ideal) x0 x1) b t = sc1 (slice4 x0 b t) (slice4 x1 b t) := by
  funext r c
  show max (slice4 (val_main_v6 (F := Ideal) x0 x1) b t r c) (-(slice4 (val_main_v6 (F := Ideal) x0 x1) b t r c)) = _
  rw [stage6]
  rfl

/-- ψ₀·s₁. -/
theorem stage8 : slice4 (val_main_v8 (F := Ideal) x0 x1) b t =
    mmul (psi0 (slice4 x0 b t)) (sc1 (slice4 x0 b t) (slice4 x1 b t)) := by
  funext r c
  show val_main_v8 (F := Ideal) x0 x1 (ix4 b t r c) = _
  rw [val_main_v8_apply, ← stage1, ← stage7]
  exact dot_read _ _ b t r c _ _ (fun k => idx4_ext _ _ rfl rfl rfl rfl) (fun k => idx4_ext _ _ rfl rfl rfl rfl)

/-- |ψ₀·s₁|. -/
theorem stage9 : slice4 (val_main_v9 (F := Ideal) x0 x1) b t =
    scat (psi0 (slice4 x0 b t)) (sc1 (slice4 x0 b t) (slice4 x1 b t)) := by
  funext r c
  show max (slice4 (val_main_v8 (F := Ideal) x0 x1) b t r c) (-(slice4 (val_main_v8 (F := Ideal) x0 x1) b t r c)) = _
  rw [stage8]
  rfl

/-! ### The third band: P⁸, ψ₂ = P⁸ − P⁴, s₂ = |ψ₂ X|, and |ψ₀ s₂|, |ψ₁ s₂| -/

/-- P⁴·P⁴. -/
theorem stage10 : slice4 (val_main_v10 (F := Ideal) x0) b t = pow3 (slice4 x0 b t) := by
  funext r c
  show val_main_v10 (F := Ideal) x0 (ix4 b t r c) = _
  rw [val_main_v10_apply]
  refine (dot_read (val_main_v4 (F := Ideal) x0) (val_main_v4 (F := Ideal) x0) b t r c
    (lidx_main_v10 (ix4 b t r c)) (ridx_main_v10 (ix4 b t r c))
    (fun k => idx4_ext _ _ rfl rfl rfl rfl) (fun k => idx4_ext _ _ rfl rfl rfl rfl)).trans ?_
  rw [stage4]
  rfl

/-- ψ₂ = P⁸ − P⁴. -/
theorem stage11 : slice4 (val_main_v11 (F := Ideal) x0) b t = psi2 (slice4 x0 b t) := by
  funext r c
  show slice4 (val_main_v10 (F := Ideal) x0) b t r c - slice4 (val_main_v4 (F := Ideal) x0) b t r c = _
  rw [stage10, stage4]
  rfl

/-- ψ₂·X. -/
theorem stage12 : slice4 (val_main_v12 (F := Ideal) x0 x1) b t = mmul (psi2 (slice4 x0 b t)) (slice4 x1 b t) := by
  funext r c
  show val_main_v12 (F := Ideal) x0 x1 (ix4 b t r c) = _
  rw [val_main_v12_apply, ← stage11]
  exact dot_read _ x1 b t r c _ _ (fun k => idx4_ext _ _ rfl rfl rfl rfl) (fun k => idx4_ext _ _ rfl rfl rfl rfl)

/-- s₂ = |ψ₂·X|. -/
theorem stage13 : slice4 (val_main_v13 (F := Ideal) x0 x1) b t = sc2 (slice4 x0 b t) (slice4 x1 b t) := by
  funext r c
  show max (slice4 (val_main_v12 (F := Ideal) x0 x1) b t r c) (-(slice4 (val_main_v12 (F := Ideal) x0 x1) b t r c)) = _
  rw [stage12]
  rfl

/-- ψ₀·s₂. -/
theorem stage14 : slice4 (val_main_v14 (F := Ideal) x0 x1) b t =
    mmul (psi0 (slice4 x0 b t)) (sc2 (slice4 x0 b t) (slice4 x1 b t)) := by
  funext r c
  show val_main_v14 (F := Ideal) x0 x1 (ix4 b t r c) = _
  rw [val_main_v14_apply, ← stage1, ← stage13]
  exact dot_read _ _ b t r c _ _ (fun k => idx4_ext _ _ rfl rfl rfl rfl) (fun k => idx4_ext _ _ rfl rfl rfl rfl)

/-- |ψ₀·s₂|. -/
theorem stage15 : slice4 (val_main_v15 (F := Ideal) x0 x1) b t =
    scat (psi0 (slice4 x0 b t)) (sc2 (slice4 x0 b t) (slice4 x1 b t)) := by
  funext r c
  show max (slice4 (val_main_v14 (F := Ideal) x0 x1) b t r c) (-(slice4 (val_main_v14 (F := Ideal) x0 x1) b t r c)) = _
  rw [stage14]
  rfl

/-- ψ₁·s₂. -/
theorem stage16 : slice4 (val_main_v16 (F := Ideal) x0 x1) b t =
    mmul (psi1 (slice4 x0 b t)) (sc2 (slice4 x0 b t) (slice4 x1 b t)) := by
  funext r c
  show val_main_v16 (F := Ideal) x0 x1 (ix4 b t r c) = _
  rw [val_main_v16_apply, ← stage5, ← stage13]
  exact dot_read _ _ b t r c _ _ (fun k => idx4_ext _ _ rfl rfl rfl rfl) (fun k => idx4_ext _ _ rfl rfl rfl rfl)

/-- |ψ₁·s₂|. -/
theorem stage17 : slice4 (val_main_v17 (F := Ideal) x0 x1) b t =
    scat (psi1 (slice4 x0 b t)) (sc2 (slice4 x0 b t) (slice4 x1 b t)) := by
  funext r c
  show max (slice4 (val_main_v16 (F := Ideal) x0 x1) b t r c) (-(slice4 (val_main_v16 (F := Ideal) x0 x1) b t r c)) = _
  rw [stage16]
  rfl

/-! ### The fourth band: P¹⁶, ψ₃ = P¹⁶ − P⁸, s₃ = |ψ₃ X|, and |ψ₀ s₃|, |ψ₁ s₃|, |ψ₂ s₃| -/

/-- P⁸·P⁸. -/
theorem stage18 : slice4 (val_main_v18 (F := Ideal) x0) b t = pow4 (slice4 x0 b t) := by
  funext r c
  show val_main_v18 (F := Ideal) x0 (ix4 b t r c) = _
  rw [val_main_v18_apply]
  refine (dot_read (val_main_v10 (F := Ideal) x0) (val_main_v10 (F := Ideal) x0) b t r c
    (lidx_main_v18 (ix4 b t r c)) (ridx_main_v18 (ix4 b t r c))
    (fun k => idx4_ext _ _ rfl rfl rfl rfl) (fun k => idx4_ext _ _ rfl rfl rfl rfl)).trans ?_
  rw [stage10]
  rfl

/-- ψ₃ = P¹⁶ − P⁸. -/
theorem stage19 : slice4 (val_main_v19 (F := Ideal) x0) b t = psi3 (slice4 x0 b t) := by
  funext r c
  show slice4 (val_main_v18 (F := Ideal) x0) b t r c - slice4 (val_main_v10 (F := Ideal) x0) b t r c = _
  rw [stage18, stage10]
  rfl

/-- ψ₃·X. -/
theorem stage20 : slice4 (val_main_v20 (F := Ideal) x0 x1) b t = mmul (psi3 (slice4 x0 b t)) (slice4 x1 b t) := by
  funext r c
  show val_main_v20 (F := Ideal) x0 x1 (ix4 b t r c) = _
  rw [val_main_v20_apply, ← stage19]
  exact dot_read _ x1 b t r c _ _ (fun k => idx4_ext _ _ rfl rfl rfl rfl) (fun k => idx4_ext _ _ rfl rfl rfl rfl)

/-- s₃ = |ψ₃·X|. -/
theorem stage21 : slice4 (val_main_v21 (F := Ideal) x0 x1) b t = sc3 (slice4 x0 b t) (slice4 x1 b t) := by
  funext r c
  show max (slice4 (val_main_v20 (F := Ideal) x0 x1) b t r c) (-(slice4 (val_main_v20 (F := Ideal) x0 x1) b t r c)) = _
  rw [stage20]
  rfl

/-- ψ₀·s₃. -/
theorem stage22 : slice4 (val_main_v22 (F := Ideal) x0 x1) b t =
    mmul (psi0 (slice4 x0 b t)) (sc3 (slice4 x0 b t) (slice4 x1 b t)) := by
  funext r c
  show val_main_v22 (F := Ideal) x0 x1 (ix4 b t r c) = _
  rw [val_main_v22_apply, ← stage1, ← stage21]
  exact dot_read _ _ b t r c _ _ (fun k => idx4_ext _ _ rfl rfl rfl rfl) (fun k => idx4_ext _ _ rfl rfl rfl rfl)

/-- |ψ₀·s₃|. -/
theorem stage23 : slice4 (val_main_v23 (F := Ideal) x0 x1) b t =
    scat (psi0 (slice4 x0 b t)) (sc3 (slice4 x0 b t) (slice4 x1 b t)) := by
  funext r c
  show max (slice4 (val_main_v22 (F := Ideal) x0 x1) b t r c) (-(slice4 (val_main_v22 (F := Ideal) x0 x1) b t r c)) = _
  rw [stage22]
  rfl

/-- ψ₁·s₃. -/
theorem stage24 : slice4 (val_main_v24 (F := Ideal) x0 x1) b t =
    mmul (psi1 (slice4 x0 b t)) (sc3 (slice4 x0 b t) (slice4 x1 b t)) := by
  funext r c
  show val_main_v24 (F := Ideal) x0 x1 (ix4 b t r c) = _
  rw [val_main_v24_apply, ← stage5, ← stage21]
  exact dot_read _ _ b t r c _ _ (fun k => idx4_ext _ _ rfl rfl rfl rfl) (fun k => idx4_ext _ _ rfl rfl rfl rfl)

/-- |ψ₁·s₃|. -/
theorem stage25 : slice4 (val_main_v25 (F := Ideal) x0 x1) b t =
    scat (psi1 (slice4 x0 b t)) (sc3 (slice4 x0 b t) (slice4 x1 b t)) := by
  funext r c
  show max (slice4 (val_main_v24 (F := Ideal) x0 x1) b t r c) (-(slice4 (val_main_v24 (F := Ideal) x0 x1) b t r c)) = _
  rw [stage24]
  rfl

/-- ψ₂·s₃. -/
theorem stage26 : slice4 (val_main_v26 (F := Ideal) x0 x1) b t =
    mmul (psi2 (slice4 x0 b t)) (sc3 (slice4 x0 b t) (slice4 x1 b t)) := by
  funext r c
  show val_main_v26 (F := Ideal) x0 x1 (ix4 b t r c) = _
  rw [val_main_v26_apply, ← stage11, ← stage21]
  exact dot_read _ _ b t r c _ _ (fun k => idx4_ext _ _ rfl rfl rfl rfl) (fun k => idx4_ext _ _ rfl rfl rfl rfl)

/-- |ψ₂·s₃|. -/
theorem stage27 : slice4 (val_main_v27 (F := Ideal) x0 x1) b t =
    scat (psi2 (slice4 x0 b t)) (sc3 (slice4 x0 b t) (slice4 x1 b t)) := by
  funext r c
  show max (slice4 (val_main_v26 (F := Ideal) x0 x1) b t r c) (-(slice4 (val_main_v26 (F := Ideal) x0 x1) b t r c)) = _
  rw [stage26]
  rfl

/-- P¹⁶·X. -/
theorem stage28 : slice4 (val_main_v28 (F := Ideal) x0 x1) b t = mmul (pow4 (slice4 x0 b t)) (slice4 x1 b t) := by
  funext r c
  show val_main_v28 (F := Ideal) x0 x1 (ix4 b t r c) = _
  rw [val_main_v28_apply, ← stage18]
  exact dot_read _ x1 b t r c _ _ (fun k => idx4_ext _ _ rfl rfl rfl rfl) (fun k => idx4_ext _ _ rfl rfl rfl rfl)

end Cert.Wavelet.Ref

end
-- ==== Proof.RefRead.lean ====
/-
  The reference's row sums, read at an index: for every slice (b, t), feature k and column f they are the pooled
  feature (k, f) of that slice.

  The reference gives each of its eleven feature arrays a new leading axis of extent one, joins them along that axis
  in the specification's order, sums the joined array over the node axis, and moves the feature axis behind the slice
  axes. Read at (b, t, k, f) this is: the sum over the nodes n of piece k of the join at (b, t, n, f), that is of
  feature array k of slice (b, t) at (n, f).
-/
import proofs.«144410_j46334107189751_2_alg».proof.Proof.RefStages
import proofs.«144410_j46334107189751_2_alg».proof.Proof.WaveletSpec
import Idealize.ShloMosaic.Lib.Pipeline.Value

noncomputable section

namespace Cert.Wavelet.Ref

open Idealize.ShloMosaic Idealize.ShloMosaic.ValueIdx Cert.ReferenceIdeal Cert.ReferenceIdeal.Read

/-- Two rank-5 indices with the same five coordinates are equal. -/
theorem idx5_ext {n0 n1 n2 n3 n4 : ℕ} (u v : (⟨5, ![n0, n1, n2, n3, n4]⟩ : Shape).Idx)
    (h0 : (u 0).val = (v 0).val) (h1 : (u 1).val = (v 1).val) (h2 : (u 2).val = (v 2).val)
    (h3 : (u 3).val = (v 3).val) (h4 : (u 4).val = (v 4).val) : u = v :=
  funext fun a => Fin.ext (by
    match a with
    | ⟨0, _⟩ => exact h0
    | ⟨1, _⟩ => exact h1
    | ⟨2, _⟩ => exact h2
    | ⟨3, _⟩ => exact h3
    | ⟨4, _⟩ => exact h4)

/-- A join along the leading axis of arrays of leading extent one: when piece number k is y and k pieces of extent
    one come before it, the join at leading coordinate k is y at leading coordinate 0, the other coordinates kept. -/
theorem piece_read (xs : List ((s : Shape) × (s.Idx → EReal)))
    (h : Shape.Concatenates (xs.map (·.1)) S11x8x4x1024x64 0)
    (k : ℕ) (hk : k < xs.length) (y : S1x8x4x1024x64.Idx → EReal) (hxk : xs[k] = ⟨S1x8x4x1024x64, y⟩)
    (hpre : (((xs.take k).map (·.1)).map fun s =>
      if h : s.rank = S11x8x4x1024x64.rank then s.size ((0 : Fin S11x8x4x1024x64.rank).cast h.symm) else 0).sum = k)
    (kk : Fin 11) (hkk : kk.val = k) (b : Fin 8) (t : Fin 4) (n : Fin 1024) (f : Fin 64) :
    concatenate S11x8x4x1024x64 0 xs h (ix5 kk b t n f) = y (ix5 (0 : Fin 1) b t n f) :=
  concatenate_apply_piece (t := S11x8x4x1024x64) 0 xs h (ix5 kk b t n f) k hk S1x8x4x1024x64 y hxk rfl k hpre
    (ix5 (0 : Fin 1) b t n f)
    (fun d hd => by
      match d with
      | ⟨0, _⟩ => exact absurd rfl hd
      | ⟨1, _⟩ => rfl
      | ⟨2, _⟩ => rfl
      | ⟨3, _⟩ => rfl
      | ⟨4, _⟩ => rfl)
    (by show k + 0 = kk.val; omega)

variable (x0 : (⟨S8x4x1024x1024, .f32⟩ : BufTy).Contents (Elt Ideal))
  (x1 : (⟨S8x4x1024x64, .f32⟩ : BufTy).Contents (Elt Ideal))

/-- The joined array at (k, b, t, n, f) is feature array k of slice (b, t) at (n, f). -/
theorem join_read (k : Fin 11) (b : Fin 8) (t : Fin 4) (n : Fin 1024) (f : Fin 64) :
    val_main_v40 (F := Ideal) x0 x1 (ix5 k b t n f) = feat (slice4 x0 b t) (slice4 x1 b t) k n f := by
  unfold val_main_v40
  match k with
  | ⟨0, _⟩ =>
    refine (piece_read _ _ 0 (by show (0 : ℕ) < 11; omega) (val_main_v29 (F := Ideal) x0 x1) rfl rfl _ rfl b t n f).trans ?_
    rw [val_main_v29_apply,
      show idx_main_v29 (ix5 (0 : Fin 1) b t n f) = ix4 b t n f from idx4_ext _ _ rfl rfl rfl rfl]
    exact congrFun (congrFun (stage28 x0 x1 b t) n) f
  | ⟨1, _⟩ =>
    refine (piece_read _ _ 1 (by show (1 : ℕ) < 11; omega) (val_main_v30 (F := Ideal) x0 x1) rfl rfl _ rfl b t n f).trans ?_
    rw [val_main_v30_apply,
      show idx_main_v30 (ix5 (0 : Fin 1) b t n f) = ix4 b t n f from idx4_ext _ _ rfl rfl rfl rfl]
    exact congrFun (congrFun (stage3 x0 x1 b t) n) f
  | ⟨2, _⟩ =>
    refine (piece_read _ _ 2 (by show (2 : ℕ) < 11; omega) (val_main_v31 (F := Ideal) x0 x1) rfl rfl _ rfl b t n f).trans ?_
    rw [val_main_v31_apply,
      show idx_main_v31 (ix5 (0 : Fin 1) b t n f) = ix4 b t n f from idx4_ext _ _ rfl rfl rfl rfl]
    exact congrFun (congrFun (stage7 x0 x1 b t) n) f
  | ⟨3, _⟩ =>
    refine (piece_read _ _ 3 (by show (3 : ℕ) < 11; omega) (val_main_v32 (F := Ideal) x0 x1) rfl rfl _ rfl b t n f).trans ?_
    rw [val_main_v32_apply,
      show idx_main_v32 (ix5 (0 : Fin 1) b t n f) = ix4 b t n f from idx4_ext _ _ rfl rfl rfl rfl]
    exact congrFun (congrFun (stage13 x0 x1 b t) n) f
  | ⟨4, _⟩ =>
    refine (piece_read _ _ 4 (by show (4 : ℕ) < 11; omega) (val_main_v33 (F := Ideal) x0 x1) rfl rfl _ rfl b t n f).trans ?_
    rw [val_main_v33_apply,
      show idx_main_v33 (ix5 (0 : Fin 1) b t n f) = ix4 b t n f from idx4_ext _ _ rfl rfl rfl rfl]
    exact congrFun (congrFun (stage21 x0 x1 b t) n) f
  | ⟨5, _⟩ =>
    refine (piece_read _ _ 5 (by show (5 : ℕ) < 11; omega) (val_main_v34 (F := Ideal) x0 x1) rfl rfl _ rfl b t n f).trans ?_
    rw [val_main_v34_apply,
      show idx_main_v34 (ix5 (0 : Fin 1) b t n f) = ix4 b t n f from idx4_ext _ _ rfl rfl rfl rfl]
    exact congrFun (congrFun (stage9 x0 x1 b t) n) f
  | ⟨6, _⟩ =>
    refine (piece_read _ _ 6 (by show (6 : ℕ) < 11; omega) (val_main_v35 (F := Ideal) x0 x1) rfl rfl _ rfl b t n f).trans ?_
    rw [val_main_v35_apply,
      show idx_main_v35 (ix5 (0 : Fin 1) b t n f) = ix4 b t n f from idx4_ext _ _ rfl rfl rfl rfl]
    exact congrFun (congrFun (stage15 x0 x1 b t) n) f
  | ⟨7, _⟩ =>
    refine (piece_read _ _ 7 (by show (7 : ℕ) < 11; omega) (val_main_v36 (F := Ideal) x0 x1) rfl rfl _ rfl b t n f).trans ?_
    rw [val_main_v36_apply,
      show idx_main_v36 (ix5 (0 : Fin 1) b t n f) = ix4 b t n f from idx4_ext _ _ rfl rfl rfl rfl]
    exact congrFun (congrFun (stage17 x0 x1 b t) n) f
  | ⟨8, _⟩ =>
    refine (piece_read _ _ 8 (by show (8 : ℕ) < 11; omega) (val_main_v37 (F := Ideal) x0 x1) rfl rfl _ rfl b t n f).trans ?_
    rw [val_main_v37_apply,
      show idx_main_v37 (ix5 (0 : Fin 1) b t n f) = ix4 b t n f from idx4_ext _ _ rfl rfl rfl rfl]
    exact congrFun (congrFun (stage23 x0 x1 b t) n) f
  | ⟨9, _⟩ =>
    refine (piece_read _ _ 9 (by show (9 : ℕ) < 11; omega) (val_main_v38 (F := Ideal) x0 x1) rfl rfl _ rfl b t n f).trans ?_
    rw [val_main_v38_apply,
      show idx_main_v38 (ix5 (0 : Fin 1) b t n f) = ix4 b t n f from idx4_ext _ _ rfl rfl rfl rfl]
    exact congrFun (congrFun (stage25 x0 x1 b t) n) f
  | ⟨10, _⟩ =>
    refine (piece_read _ _ 10 (by show (10 : ℕ) < 11; omega) (val_main_v39 (F := Ideal) x0 x1) rfl rfl _ rfl b t n f).trans ?_
    rw [val_main_v39_apply,
      show idx_main_v39 (ix5 (0 : Fin 1) b t n f) = ix4 b t n f from idx4_ext _ _ rfl rfl rfl rfl]
    exact congrFun (congrFun (stage27 x0 x1 b t) n) f

/-- The reference's row sums at (b, t, k, f): the sum starts from zero and runs over the nodes of feature array k. -/
theorem ref_pooled_at (b : Fin 8) (t : Fin 4) (k : Fin 11) (f : Fin 64) :
    val_main_v43 (F := Ideal) x0 x1 (ix4 b t k f) = pooled (slice4 x0 b t) (slice4 x1 b t) k f := by
  rw [val_main_v43_apply, val_main_v41_apply]
  show Ideal.ofBits .f32 0x00000000#32 + _ = _
  rw [Ideal.ofBits_zero_f32, zero_add]
  unfold pooled
  refine Finset.sum_congr rfl fun n _ => ?_
  rw [show idx_main_v41 (idx_main_v43 (ix4 b t k f)) n = ix5 k b t n f from idx5_ext _ _ rfl rfl rfl rfl rfl]
  exact join_read x0 x1 k b t n f

/-- The reference's row sums are the pooled features of every slice. -/
theorem ref_pooled : val_main_v43 (F := Ideal) x0 x1 = pooledArr x0 x1 := by
  funext i
  obtain ⟨b, t, k, f, rfl⟩ : ∃ (b : Fin 8) (t : Fin 4) (k : Fin 11) (f : Fin 64), i = ix4 b t k f :=
    ⟨i 0, i 1, i 2, i 3, eq_ix4 i⟩
  exact ref_pooled_at x0 x1 b t k f

end Cert.Wavelet.Ref

end
-- ==== Proof.lean ====
/-
  The proof of `Cert.Claim`: the frames of the three programs, and the equality of the kernel's program and the
  reference at the ideal instance.

  Both programs compute, for every slice (b, t) of the transition matrices P : [8, 4, 1024, 1024] and the node features
  X : [8, 4, 1024, 64], the eleven diffusion-wavelet feature arrays of the slice (P¹⁶·X; the first-order scattering
  arrays |ψ_j·X| of the four bands ψ_j = P^(2^(j+1)) − P^(2^j); the second-order arrays |ψ_j·|ψ_i·X|| for j < i), sum each
  over the 1024 nodes, divide by the slice's mask sum and flatten (feature, column) to one axis of 704.

  The kernel's grid point (b, t) leaves the pooled features of slice (b, t) in its output block (Proof/KernelPoint.lean);
  the blocks tile the output array (Proof/KernelArray.lean); the host operations after the region flatten it and
  divide it by the mask sum (Proof/KernelRun.lean). The reference's row sums are the same pooled features
  (Proof/RefRead.lean), which it divides by the mask sum and then flattens; the two tails are one function of the pooled
  array and the mask, because flattening commutes with an entrywise quotient (Proof/Tail.lean). Nothing needs the
  inputs to be finite: every step re-brackets the same sums and products of extended reals.
-/
import proofs.«144410_j46334107189751_2_alg».proof.Defs
import proofs.«144410_j46334107189751_2_alg».proof.Proof.Gen.Kernel
import proofs.«144410_j46334107189751_2_alg».proof.Proof.Gen.Kernel.Frame
import proofs.«144410_j46334107189751_2_alg».proof.Proof.Gen.KernelIdeal
import proofs.«144410_j46334107189751_2_alg».proof.Proof.Gen.KernelIdeal.Frame
import proofs.«144410_j46334107189751_2_alg».proof.Proof.Gen.ReferenceIdeal
import proofs.«144410_j46334107189751_2_alg».proof.Proof.Gen.ReferenceIdeal.Run
import proofs.«144410_j46334107189751_2_alg».proof.Proof.Gen.Pre_finite_inputs
import proofs.«144410_j46334107189751_2_alg».proof.Proof.KernelRun
import proofs.«144410_j46334107189751_2_alg».proof.Proof.Tail
import proofs.«144410_j46334107189751_2_alg».proof.Proof.RefRead
import Idealize.ShloMosaic.Adequacy
import Idealize.ShloMosaic.Init

noncomputable section

namespace Cert.Proof

open Idealize.ShloMosaic Idealize.SL.Sem

/-- Each program runs and leaves its arguments unchanged: the generated frames, the reference's from its generated run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- At the ideal instance, from memories that agree on the three arguments, the kernel's program ends at the tail of
    the pooled array of its arguments; the reference ends at its flattened quotient, whose row sums are the same
    pooled array and whose tail is the same function of it and of the mask. -/
theorem algebraic : Cert.algebraic_KernelIdeal_ReferenceIdeal := by
  intro m ρ m' ρ' _ hagree
  refine ⟨_, Cert.Wavelet.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2,
    ← Cert.Wavelet.Tail.tail_eq, Cert.Wavelet.Ref.ref_pooled]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
